-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128 .f32) (main_arg5 : FVec F S128x64 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x4096 .f32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S512x512 : Shape := ⟨2, ![512, 512]⟩
abbrev S512x128 : Shape := ⟨2, ![512, 128]⟩
abbrev S512x1 : Shape := ⟨2, ![512, 1]⟩
abbrev S1x64 : Shape := ⟨2, ![1, 64]⟩
abbrev S4096x64 : Shape := ⟨2, ![4096, 64]⟩
abbrev S512x64 : Shape := ⟨2, ![512, 64]⟩

abbrev nBuf : Space → Nat
  | .hbm => 12
  | .vmem => 26
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x128, .f32⟩
  | .hbm, ⟨9, _⟩ => ⟨S4096x128, .f32⟩
  | .hbm, ⟨10, _⟩ => ⟨S1x64, .f32⟩
  | .hbm, ⟨11, _⟩ => ⟨S4096x64, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S128x64, .f32⟩
  | .local _ .vmem, ⟨20, _⟩ => ⟨S128x64, .f32⟩
  | .local _ .vmem, ⟨21, _⟩ => ⟨S1x64, .f32⟩
  | .local _ .vmem, ⟨22, _⟩ => ⟨S512x64, .f32⟩
  | .local _ .vmem, ⟨23, _⟩ => ⟨S512x64, .f32⟩
  | .local _ .vmem, ⟨24, _⟩ => ⟨S512x128, .f32⟩
  | .local _ .vmem, ⟨25, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_14 : BitVec 32 := 0#32
  let v23 : BitVec 1 := Scalar.cmpi .ne v22 c0_i32_14
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  broadcasts_S512x1_S512x128 : S512x1.Broadcasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x512_S512x128_S512x128_0_0_1_1_n_n_wf : DotDims.WF S512x512 S512x128 S512x128 [0] [0] [1] [1] [] []
  dot_S512x512_S512x1_S512x1_0_0_1_1_n_n_wf : DotDims.WF S512x512 S512x1 S512x1 [0] [0] [1] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S4096x64.size a
  hwx1_6 : ∀ i : grid1.Coords, EltTy.bits .f32 = 32 ∨ (Rect.block (s := S4096x64) S512x64.size (cc1_transform_6 i) (hinb1_6 i)).WholeWords (EltTy.packing .f32)

variable [Facts₀]

def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x512_S512x1_S512x1_0_0_1_1_n_n : DotDims S512x512 S512x1 S512x1 where
  lhsContracting := [0]
  rhsContracting := [0]
  lhsNonContracting := [1]
  rhsNonContracting := [1]
  lhsBatch := []
  rhsBatch := []
  wf := dot_S512x512_S512x1_S512x1_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x64 : Shape := ⟨2, ![4096, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S4096, .f32⟩
  | .hbm, ⟨10, _⟩ => ⟨S4096x4096, .f32⟩
  | .hbm, ⟨11, _⟩ => ⟨S4096x128, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S4096, .f32⟩
  | .hbm, ⟨30, _⟩ => ⟨S4096x4096, .f32⟩
  | .hbm, ⟨31, _⟩ => ⟨S4096x128, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1, .f32⟩
  | .hbm, ⟨37, _⟩ => ⟨S4096x128, .f32⟩
  | .hbm, ⟨38, _⟩ => ⟨S4096x128, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S1x64, .f32⟩
  | .hbm, ⟨43, _⟩ => ⟨S4096x64, .f32⟩
  | .hbm, ⟨44, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  transposes_S4096x4096_S4096x4096_1_0 : S4096x4096.Transposes [1, 0] S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.Fr0Runs.lean ====
import proofs.«128498_g58506044506625_cont_9to1_m_1050_1_alg».proof.Proof.Gen.KernelIdeal.Launch
import proofs.«128498_g58506044506625_cont_9to1_m_1050_1_alg».proof.Proof.Gen.KernelIdeal.Skeleton
import proofs.«128498_g58506044506625_cont_9to1_m_1050_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid: the accumulators are zeroed where the source-tile
    coordinate is 0, and the output block is stored where it is 7 -/

/-- The first condition: the source-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition: the source-tile coordinate is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging memrefs at a point, the two accumulators -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
/-- The neighbour-sum accumulator and the in-degree accumulator: whole buffers of the kernel's own. -/
abbrev scM0_0 : Memref sig .tc .vmem S512x128 .f32 := Memref.whole cc0_scratch0
abbrev scM0_1 : Memref sig .tc .vmem S512x1 .f32 := Memref.whole cc0_scratch1
abbrev VS0_0 : View sig .tc .vmem S512x128 .f32 := scM0_0.view
abbrev VS0_1 : View sig .tc .vmem S512x1 .f32 := scM0_1.view
/-- One staging buffer of the output window, through which its contents are stated. -/
abbrev VO0_6 : View sig .tc .vmem S512x128 .f32 := (Memref.whole cc0_stg6_0 : Memref sig .tc .vmem S512x128 .f32).view

end Cert.KernelIdeal.Fr

end
-- ==== Proof.Fr0RunA.lean ====
import proofs.«128498_g58506044506625_cont_9to1_m_1050_1_alg».proof.Proof.Fr0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the first source tile: both accumulators are zeroed, then the tile is added; nothing is stored into the output block. The pieces each buffer ends with are found by the run. -/
noncomputable def kernelRun0_A (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i)
    (x0 : Vec F S512x512 .f32) (x1 x2 : Vec F S512x128 .f32) (x3 x4 : Vec F S128x128 .f32) (x5 : Vec F S1x128 .f32) :
    Σ' (L6 : List (View.Piece (Elt F) S512x128 .f32)) (LS0 : List (View.Piece (Elt F) S512x128 .f32)), { LS1 : List (View.Piece (Elt F) S512x1 .f32) //
      ∀ (xi6 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.Fr0RunB.lean ====
import proofs.«128498_g58506044506625_cont_9to1_m_1050_1_alg».proof.Proof.Fr0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at a middle source tile: the tile is added to both accumulators; nothing is stored into the output block. The pieces each buffer ends with are found by the run. -/
noncomputable def kernelRun0_B (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i)
    (x0 : Vec F S512x512 .f32) (x1 x2 : Vec F S512x128 .f32) (x3 x4 : Vec F S128x128 .f32) (x5 : Vec F S1x128 .f32) (xs0 : Vec F S512x128 .f32) (xs1 : Vec F S512x1 .f32) :
    Σ' (L6 : List (View.Piece (Elt F) S512x128 .f32)) (LS0 : List (View.Piece (Elt F) S512x128 .f32)), { LS1 : List (View.Piece (Elt F) S512x1 .f32) //
      ∀ (xi6 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.Fr0RunC.lean ====
import proofs.«128498_g58506044506625_cont_9to1_m_1050_1_alg».proof.Proof.Fr0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the last source tile: the tile is added to both accumulators and the output block is stored from them. The pieces each buffer ends with are found by the run. -/
noncomputable def kernelRun0_C (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i)
    (x0 : Vec F S512x512 .f32) (x1 x2 : Vec F S512x128 .f32) (x3 x4 : Vec F S128x128 .f32) (x5 : Vec F S1x128 .f32) (xs0 : Vec F S512x128 .f32) (xs1 : Vec F S512x1 .f32) :
    Σ' (L6 : List (View.Piece (Elt F) S512x128 .f32)) (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.Fr0Body.lean ====
import proofs.«128498_g58506044506625_cont_9to1_m_1050_1_alg».proof.Proof.Fr0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the two accumulators -/

def out0_A_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
theorem scover0_A_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) (y : S512x128.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S512x128.size (by sl_kernel_rfl) y
def sout0_A_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)
theorem scover0_A_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) (y : S512x1.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S512x1.size (by sl_kernel_rfl) y
def sout0_A_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

def out0_B_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)
theorem scover0_B_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout0_B_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)
theorem scover0_B_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x1.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout0_B_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

theorem cover0_C_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S512x128.size (by sl_kernel_rfl) y
def out0_C_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)
theorem scover0_C_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout0_C_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
theorem scover0_C_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x1.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout0_C_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output block and the accumulators hold after each point -/

/-- After the body at position `n`: the output block's staging buffer, the neighbour-sum accumulator, the in-degree
    accumulator. At the first source tile the accumulators restart; otherwise they continue from the point before. -/
def outsAt0 (c : Dev nD) : (n : ℕ) → n < cfg0.N → Vec F S512x128 .f32 × Vec F S512x128 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the two accumulators at what the point before left, the other scoped buffers at anything -/

/-- The core's scoped buffers that are neither a staging buffer of this call nor one of its two accumulators. -/
abbrev Rest0 (c : Dev nD) : sProp 𝕄 := Pipeline.scopedRestBut (Ix := Unit) (Name := ℕ) (U := UR sig nD τ) (Lvl := ℕ) (Val := Elt F) spec0 c [cc0_scratch0, cc0_scratch1]

theorem PhiA0_eq (c : Dev nD) :
    (Pipeline.scopedRest (Ix := Unit) (Name := ℕ) (U := UR sig nD τ) (Lvl := ℕ) (Val := Elt F) spec0 c : sProp 𝕄)
      = iprop(((∃ d, owns (c : Thread nD τ) scM0_0 fullShare d) ∗ (∃ d, owns (c : Thread nD τ) scM0_1 fullShare d)) ∗ Rest0 c) := by
  rw [Pipeline.scopedRest_split_of_list (Ix := Unit) (Name := ℕ) (U := UR sig nD τ) (Lvl := ℕ) (Val := Elt F) spec0 c [cc0_scratch0, cc0_scratch1] (by decide) (by decide)]
  simp only [scM0_0, scM0_1, owns_whole, bigSepL_cons_cons, bigSepL_singleton]; try rfl

def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop((owns (c : Thread nD τ) scM0_0 fullShare ((outsAt0 V c n hn).2.1) ∗ owns (c : Thread nD τ) scM0_1 fullShare ((outsAt0 V c n hn).2.2)) ∗ Rest0 c)

theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop((owns (c : Thread nD τ) scM0_0 fullShare ((outsAt0 V c n hn).2.1) ∗ owns (c : Thread nD τ) scM0_1 fullShare ((outsAt0 V c n hn).2.2)) ∗ Rest0 c) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2.1) ∗ owns (c : Thread nD τ) scM0_1 fullShare ((outsAt0 V c (n - 1) (by omega)).2.2)) ∗ Rest0 c) := by
  cases n with
  | zero => exact absurd rfl hz
  | succ n => rfl

/-! ## The proof data -/

/-- The proof data of this call on core `c`: the arrays as the region finds them; after the body at point `t` each
    input's buffer at its block and the output's at `outsAt`; the invariant `PhiS`; nothing owed; the two windows on the
    feature array each at half its share, every other input at the full share. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dats0 V c).A w = V c (Pipeline.arrRef spec0 w) := by
  dsimp only [dats0]

theorem PhiS0_castSucc (c : Dev nD) (t : Fin cfg0.N) :
    (dats0 V c).Φ t.castSucc = PhiS0 V c t.val (Nat.le_of_lt t.isLt) := by
  dsimp only [dats0]; simp only [Fin.coe_castSucc]
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) : (dats0 V c).after 3 t = iblk0 V c 3 t := by dsimp only [dats0]
theorem after0_4 (c : Dev nD) (t : Fin cfg0.N) : (dats0 V c).after 4 t = iblk0 V c 4 t := by dsimp only [dats0]
theorem after0_5 (c : Dev nD) (t : Fin cfg0.N) : (dats0 V c).after 5 t = iblk0 V c 5 t := by dsimp only [dats0]
theorem after0_6 (c : Dev nD) (t : Fin cfg0.N) : (dats0 V c).after 6 t = (outsAt0 V c t.val t.isLt).1 := by dsimp only [dats0]
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d
theorem before0_3 (c : Dev nD) (t : Fin cfg0.N) (d) : (dats0 V c).before 3 t d = iblk0 V c 3 t :=
  before0_3_of V (dats0 V c) (A_eq0 V c 3) (after0_3 V c) t d
theorem before0_4 (c : Dev nD) (t : Fin cfg0.N) (d) : (dats0 V c).before 4 t d = iblk0 V c 4 t :=
  before0_4_of V (dats0 V c) (A_eq0 V c 4) (after0_4 V c) t d
theorem before0_5 (c : Dev nD) (t : Fin cfg0.N) (d) : (dats0 V c).before 5 t d = iblk0 V c 5 t :=
  before0_5_of V (dats0 V c) (A_eq0 V c 5) (after0_5 V c) t d

/-! ## The body obligation -/

def bodyPre0 (c : Dev nD) (t : Fin cfg0.N) : sProp 𝕄 :=
  iprop((dats0 V c).Φ t.castSucc ∗ (dats0 V c).owesAt () t.castSucc
    ∗ (∃ d, owns (c : Thread nD τ) (ms0_0 t) fullShare ((dats0 V c).before 0 t d))
    ∗ (∃ d, owns (c : Thread nD τ) (ms0_1 t) fullShare ((dats0 V c).before 1 t d))
    ∗ (∃ d, owns (c : Thread nD τ) (ms0_2 t) fullShare ((dats0 V c).before 2 t d))
    ∗ (∃ d, owns (c : Thread nD τ) (ms0_3 t) fullShare ((dats0 V c).before 3 t d))
    ∗ (∃ d, owns (c : Thread nD τ) (ms0_4 t) fullShare ((dats0 V c).before 4 t d))
    ∗ (∃ d, owns (c : Thread nD τ) (ms0_5 t) fullShare ((dats0 V c).before 5 t d))
    ∗ (∃ d, owns (c : Thread nD τ) (ms0_6 t) fullShare ((dats0 V c).before 6 t d)))

def bodyPost0 (c : Dev nD) (t : Fin cfg0.N) : sProp 𝕄 :=
  iprop((dats0 V c).Φ t.succ ∗ (dats0 V c).owesAt () t.succ
    ∗ (dats0 V c).leavesExact 0 t
    ∗ (dats0 V c).leavesExact 1 t
    ∗ (dats0 V c).leavesExact 2 t
    ∗ (dats0 V c).leavesExact 3 t
    ∗ (dats0 V c).leavesExact 4 t
    ∗ (dats0 V c).leavesExact 5 t
    ∗ (dats0 V c).leavesExact 6 t)

set_option maxHeartbeats 16000000 in
/-- The body at any point: the inputs' buffers hold their blocks; the point's position along the source tiles says
    which case it is in; the invariant hands the body the two accumulators at what the point before left (at anything
    where they are about to be zeroed) and takes them back at this point's contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dats0 V c).owesAt () t.succ = (dats0 V c).owesAt () t.castSucc from rfl]
  rw [show (dats0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [Dat.leavesExact_idle (dats0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 8 = 7
    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [show (dats0 V c).leavesExact 6 t = owns (c : Thread nD τ) (ms0_6 t) fullShare ((dats0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1; (try dsimp only)
      by_cases hz : t.val = 0
      · exfalso; omega
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)

    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [Dat.leavesExact_idle (dats0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dats0 (F := F) V c) (defs₀ (F := F)) Variants.none () Set.univ := fun t => by
  rw [bigSep_W0, bigSep_W0]
  exact sound_body0 V c t

end Cert.KernelIdeal.Fr

end
-- ==== Proof.Fr0Out.lean ====
import proofs.«128498_g58506044506625_cont_9to1_m_1050_1_alg».proof.Proof.Fr0Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scoped buffers no window stages make the invariant before the first point. -/
theorem hin0 (c : Dev nD) : (Pipeline.scopedRest (Ix := Unit) (Name := ℕ) (U := UR sig nD τ) (Lvl := ℕ) (Val := Elt F) spec0 c : sProp 𝕄) ⊢ (dats0 V c).Φ 0 := by
  rw [show (dats0 V c).Φ 0 = PhiS0 V c 0 (Nat.zero_le _) from rfl, PhiS0_zero V c 0 _ rfl]
  try exact Idealize.SL.BI.Entails.refl _

/-- After any point but the first the invariant gives the scoped rest back: the accumulators' contents are forgotten. -/
theorem Phi_out0 (c : Dev nD) (t : Fin (cfg0.N + 1)) (ht : t.val ≠ 0) :
    (dats0 V c).Φ t ⊢ (Pipeline.scopedRest (Ix := Unit) (Name := ℕ) (U := UR sig nD τ) (Lvl := ℕ) (Val := Elt F) spec0 c : sProp 𝕄) := by
  rw [show (dats0 V c).Φ t = PhiS0 V c t.val (Nat.le_of_lt_succ t.isLt) from rfl, PhiS0_pos V c _ _ ht, PhiA0_eq]
  iintro ⟨⟨HS0, HS1⟩, HR⟩
  isplitl [HS0 HS1]
  · isplitl [HS0]; · iexists _; iexact HS0
    iexists _; iexact HS1
  iexact HR

/-- The same after the last point. -/
theorem hout0 (c : Dev nD) : (dats0 V c).Φ (Fin.last cfg0.N) ⊢ (Pipeline.scopedRest (Ix := Unit) (Name := ℕ) (U := UR sig nD τ) (Lvl := ℕ) (Val := Elt F) spec0 c : sProp 𝕄) :=
  Phi_out0 V c _ (by rw [Fin.val_last]; have : cfg0.N = 64 := N_0; omega)

end Cert.KernelIdeal.Fr

end
-- ==== Proof.Fr1Runs.lean ====
import proofs.«128498_g58506044506625_cont_9to1_m_1050_1_alg».proof.Proof.Gen.KernelIdeal.Launch
import proofs.«128498_g58506044506625_cont_9to1_m_1050_1_alg».proof.Proof.Gen.KernelIdeal.Skeleton
import proofs.«128498_g58506044506625_cont_9to1_m_1050_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid: the accumulators are zeroed where the source-tile
    coordinate is 0, and the output block is stored where it is 7 -/

/-- The first condition: the source-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second condition: the source-tile coordinate is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-! ## The staging memrefs at a point, the two accumulators -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x64 .f32 := win1_6.stage (cfg1.slots t 6)
abbrev hs1_6 (t : Fin cfg1.N) : (ms1_6 t).IsWhole := hstage1_6 ((cfg1.slots t 6).cast nbuf1_6)
/-- The neighbour-sum accumulator and the in-degree accumulator: whole buffers of the kernel's own. -/
abbrev scM1_0 : Memref sig .tc .vmem S512x128 .f32 := Memref.whole cc1_scratch0
abbrev scM1_1 : Memref sig .tc .vmem S512x1 .f32 := Memref.whole cc1_scratch1
abbrev VS1_0 : View sig .tc .vmem S512x128 .f32 := scM1_0.view
abbrev VS1_1 : View sig .tc .vmem S512x1 .f32 := scM1_1.view
/-- One staging buffer of the output window, through which its contents are stated. -/
abbrev VO1_6 : View sig .tc .vmem S512x64 .f32 := (Memref.whole cc1_stg6_0 : Memref sig .tc .vmem S512x64 .f32).view

end Cert.KernelIdeal.Fr

end
-- ==== Proof.Fr1RunA.lean ====
import proofs.«128498_g58506044506625_cont_9to1_m_1050_1_alg».proof.Proof.Fr1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the first source tile: both accumulators are zeroed, then the tile is added; nothing is stored into the output block. The pieces each buffer ends with are found by the run. -/
noncomputable def kernelRun1_A (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i)
    (x0 : Vec F S512x512 .f32) (x1 x2 : Vec F S512x128 .f32) (x3 x4 : Vec F S128x64 .f32) (x5 : Vec F S1x64 .f32) :
    Σ' (L6 : List (View.Piece (Elt F) S512x64 .f32)) (LS0 : List (View.Piece (Elt F) S512x128 .f32)), { LS1 : List (View.Piece (Elt F) S512x1 .f32) //
      ∀ (xi6 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.Fr1RunB.lean ====
import proofs.«128498_g58506044506625_cont_9to1_m_1050_1_alg».proof.Proof.Fr1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at a middle source tile: the tile is added to both accumulators; nothing is stored into the output block. The pieces each buffer ends with are found by the run. -/
noncomputable def kernelRun1_B (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i)
    (x0 : Vec F S512x512 .f32) (x1 x2 : Vec F S512x128 .f32) (x3 x4 : Vec F S128x64 .f32) (x5 : Vec F S1x64 .f32) (xs0 : Vec F S512x128 .f32) (xs1 : Vec F S512x1 .f32) :
    Σ' (L6 : List (View.Piece (Elt F) S512x64 .f32)) (LS0 : List (View.Piece (Elt F) S512x128 .f32)), { LS1 : List (View.Piece (Elt F) S512x1 .f32) //
      ∀ (xi6 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.Fr1RunC.lean ====
import proofs.«128498_g58506044506625_cont_9to1_m_1050_1_alg».proof.Proof.Fr1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the last source tile: the tile is added to both accumulators and the output block is stored from them. The pieces each buffer ends with are found by the run. -/
noncomputable def kernelRun1_C (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i)
    (x0 : Vec F S512x512 .f32) (x1 x2 : Vec F S512x128 .f32) (x3 x4 : Vec F S128x64 .f32) (x5 : Vec F S1x64 .f32) (xs0 : Vec F S512x128 .f32) (xs1 : Vec F S512x1 .f32) :
    Σ' (L6 : List (View.Piece (Elt F) S512x64 .f32)) (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.Fr1Body.lean ====
import proofs.«128498_g58506044506625_cont_9to1_m_1050_1_alg».proof.Proof.Fr1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the two accumulators -/

def out1_A_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x64 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)
theorem scover1_A_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) (y : S512x128.Idx) : ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S512x128.size (by sl_kernel_rfl) y
def sout1_A_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5).2.1)
theorem scover1_A_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) (y : S512x1.Idx) : ∃ pc ∈ (kernelRun1_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.2.1 S512x1.size (by sl_kernel_rfl) y
def sout1_A_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 x5).2.2.1)

def out1_B_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x64 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0 xs1).1)
theorem scover1_B_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x128.Idx) : ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout1_B_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 xs0 xs1).2.1)
theorem scover1_B_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x1.Idx) : ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout1_B_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 x5 xs0 xs1).2.2.1)

theorem cover1_C_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x64.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S512x64.size (by sl_kernel_rfl) y
def out1_C_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x64 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0 xs1).1)
theorem scover1_C_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x128.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout1_C_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 xs0 xs1).2.1)
theorem scover1_C_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x1.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout1_C_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output block and the accumulators hold after each point -/

/-- After the body at position `n`: the output block's staging buffer, the neighbour-sum accumulator, the in-degree
    accumulator. At the first source tile the accumulators restart; otherwise they continue from the point before. -/
def outsAt1 (c : Dev nD) : (n : ℕ) → n < cfg1.N → Vec F S512x64 .f32 × Vec F S512x128 .f32 × Vec F S512x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the two accumulators at what the point before left, the other scoped buffers at anything -/

/-- The core's scoped buffers that are neither a staging buffer of this call nor one of its two accumulators. -/
abbrev Rest1 (c : Dev nD) : sProp 𝕄 := Pipeline.scopedRestBut (Ix := Unit) (Name := ℕ) (U := UR sig nD τ) (Lvl := ℕ) (Val := Elt F) spec1 c [cc1_scratch0, cc1_scratch1]

theorem PhiA1_eq (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d)) ∗ Rest1 c) := by
  rw [Pipeline.scopedRest_split_of_list (Ix := Unit) (Name := ℕ) (U := UR sig nD τ) (Lvl := ℕ) (Val := Elt F) spec1 c [cc1_scratch0, cc1_scratch1] (by decide) (by decide)]
  simp only [scM1_0, scM1_1, owns_whole, bigSepL_cons_cons, bigSepL_singleton]; try rfl

def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scM1_0 fullShare ((outsAt1 V c n hn).2.1) ∗ owns (c : Thread nD τ) scM1_1 fullShare ((outsAt1 V c n hn).2.2)) ∗ Rest1 c)

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop((owns (c : Thread nD τ) scM1_0 fullShare ((outsAt1 V c n hn).2.1) ∗ owns (c : Thread nD τ) scM1_1 fullShare ((outsAt1 V c n hn).2.2)) ∗ Rest1 c) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2.1) ∗ owns (c : Thread nD τ) scM1_1 fullShare ((outsAt1 V c (n - 1) (by omega)).2.2)) ∗ Rest1 c) := by
  cases n with
  | zero => exact absurd rfl hz
  | succ n => rfl

/-! ## The proof data -/

/-- The proof data of this call on core `c`: the arrays as the region finds them; after the body at point `t` each
    input's buffer at its block and the output's at `outsAt`; the invariant `PhiS`; nothing owed; the two windows on the
    feature array each at half its share, every other input at the full share. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dats1 V c).A w = V c (Pipeline.arrRef spec1 w) := by
  dsimp only [dats1]

theorem PhiS1_castSucc (c : Dev nD) (t : Fin cfg1.N) :
    (dats1 V c).Φ t.castSucc = PhiS1 V c t.val (Nat.le_of_lt t.isLt) := by
  dsimp only [dats1]; simp only [Fin.coe_castSucc]
theorem after1_0 (c : Dev nD) (t : Fin cfg1.N) : (dats1 V c).after 0 t = iblk1 V c 0 t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = iblk1 V c 5 t := by dsimp only [dats1]
theorem after1_6 (c : Dev nD) (t : Fin cfg1.N) : (dats1 V c).after 6 t = (outsAt1 V c t.val t.isLt).1 := by dsimp only [dats1]
theorem before1_0 (c : Dev nD) (t : Fin cfg1.N) (d) : (dats1 V c).before 0 t d = iblk1 V c 0 t :=
  before1_0_of V (dats1 V c) (A_eq1 V c 0) (after1_0 V c) t d
theorem before1_1 (c : Dev nD) (t : Fin cfg1.N) (d) : (dats1 V c).before 1 t d = iblk1 V c 1 t :=
  before1_1_of V (dats1 V c) (A_eq1 V c 1) (after1_1 V c) t d
theorem before1_2 (c : Dev nD) (t : Fin cfg1.N) (d) : (dats1 V c).before 2 t d = iblk1 V c 2 t :=
  before1_2_of V (dats1 V c) (A_eq1 V c 2) (after1_2 V c) t d
theorem before1_3 (c : Dev nD) (t : Fin cfg1.N) (d) : (dats1 V c).before 3 t d = iblk1 V c 3 t :=
  before1_3_of V (dats1 V c) (A_eq1 V c 3) (after1_3 V c) t d
theorem before1_4 (c : Dev nD) (t : Fin cfg1.N) (d) : (dats1 V c).before 4 t d = iblk1 V c 4 t :=
  before1_4_of V (dats1 V c) (A_eq1 V c 4) (after1_4 V c) t d
theorem before1_5 (c : Dev nD) (t : Fin cfg1.N) (d) : (dats1 V c).before 5 t d = iblk1 V c 5 t :=
  before1_5_of V (dats1 V c) (A_eq1 V c 5) (after1_5 V c) t d

/-! ## The body obligation -/

def bodyPre1 (c : Dev nD) (t : Fin cfg1.N) : sProp 𝕄 :=
  iprop((dats1 V c).Φ t.castSucc ∗ (dats1 V c).owesAt () t.castSucc
    ∗ (∃ d, owns (c : Thread nD τ) (ms1_0 t) fullShare ((dats1 V c).before 0 t d))
    ∗ (∃ d, owns (c : Thread nD τ) (ms1_1 t) fullShare ((dats1 V c).before 1 t d))
    ∗ (∃ d, owns (c : Thread nD τ) (ms1_2 t) fullShare ((dats1 V c).before 2 t d))
    ∗ (∃ d, owns (c : Thread nD τ) (ms1_3 t) fullShare ((dats1 V c).before 3 t d))
    ∗ (∃ d, owns (c : Thread nD τ) (ms1_4 t) fullShare ((dats1 V c).before 4 t d))
    ∗ (∃ d, owns (c : Thread nD τ) (ms1_5 t) fullShare ((dats1 V c).before 5 t d))
    ∗ (∃ d, owns (c : Thread nD τ) (ms1_6 t) fullShare ((dats1 V c).before 6 t d)))

def bodyPost1 (c : Dev nD) (t : Fin cfg1.N) : sProp 𝕄 :=
  iprop((dats1 V c).Φ t.succ ∗ (dats1 V c).owesAt () t.succ
    ∗ (dats1 V c).leavesExact 0 t
    ∗ (dats1 V c).leavesExact 1 t
    ∗ (dats1 V c).leavesExact 2 t
    ∗ (dats1 V c).leavesExact 3 t
    ∗ (dats1 V c).leavesExact 4 t
    ∗ (dats1 V c).leavesExact 5 t
    ∗ (dats1 V c).leavesExact 6 t)

set_option maxHeartbeats 16000000 in
/-- The body at any point: the inputs' buffers hold their blocks; the point's position along the source tiles says
    which case it is in; the invariant hands the body the two accumulators at what the point before left (at anything
    where they are about to be zeroed) and takes them back at this point's contents; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dats1 V c).owesAt () t.succ = (dats1 V c).owesAt () t.castSucc from rfl]
  rw [show (dats1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [Dat.leavesExact_idle (dats1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 8 = 7
    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [show (dats1 V c).leavesExact 6 t = owns (c : Thread nD τ) (ms1_6 t) fullShare ((dats1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1; (try dsimp only)
      by_cases hz : t.val = 0
      · exfalso; omega
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _)

    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [Dat.leavesExact_idle (dats1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dats1 (F := F) V c) (defs₀ (F := F)) Variants.none () Set.univ := fun t => by
  rw [bigSep_W1, bigSep_W1]
  exact sound_body1 V c t

end Cert.KernelIdeal.Fr

end
-- ==== Proof.Fr1Out.lean ====
import proofs.«128498_g58506044506625_cont_9to1_m_1050_1_alg».proof.Proof.Fr1Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scoped buffers no window stages make the invariant before the first point. -/
theorem hin1 (c : Dev nD) : (Pipeline.scopedRest (Ix := Unit) (Name := ℕ) (U := UR sig nD τ) (Lvl := ℕ) (Val := Elt F) spec1 c : sProp 𝕄) ⊢ (dats1 V c).Φ 0 := by
  rw [show (dats1 V c).Φ 0 = PhiS1 V c 0 (Nat.zero_le _) from rfl, PhiS1_zero V c 0 _ rfl]
  try exact Idealize.SL.BI.Entails.refl _

/-- After any point but the first the invariant gives the scoped rest back: the accumulators' contents are forgotten. -/
theorem Phi_out1 (c : Dev nD) (t : Fin (cfg1.N + 1)) (ht : t.val ≠ 0) :
    (dats1 V c).Φ t ⊢ (Pipeline.scopedRest (Ix := Unit) (Name := ℕ) (U := UR sig nD τ) (Lvl := ℕ) (Val := Elt F) spec1 c : sProp 𝕄) := by
  rw [show (dats1 V c).Φ t = PhiS1 V c t.val (Nat.le_of_lt_succ t.isLt) from rfl, PhiS1_pos V c _ _ ht, PhiA1_eq]
  iintro ⟨⟨HS0, HS1⟩, HR⟩
  isplitl [HS0 HS1]
  · isplitl [HS0]; · iexists _; iexact HS0
    iexists _; iexact HS1
  iexact HR

/-- The same after the last point. -/
theorem hout1 (c : Dev nD) : (dats1 V c).Φ (Fin.last cfg1.N) ⊢ (Pipeline.scopedRest (Ix := Unit) (Name := ℕ) (U := UR sig nD τ) (Lvl := ℕ) (Val := Elt F) spec1 c : sProp 𝕄) :=
  Phi_out1 V c _ (by rw [Fin.val_last]; have : cfg1.N = 64 := N_1; omega)

end Cert.KernelIdeal.Fr

end
-- ==== Proof.SharedArrays.lean ====
/- The windows' arrays of a call whose windows 1 and 2 stage ONE array, at a region's entry and exit: the distinct
   buffers behind the arrays, each whole at the full share, against the pipeline's arrays window by window — the common
   buffer of windows 1 and 2 held in two halves of the full share, split at the entry and joined back at the exit. -/
import proofs.«128498_g58506044506625_cont_9to1_m_1050_1_alg».proof.Proof.Gen.KernelIdeal.Launch
import Idealize.ShloMosaic.Lib.Pipeline.Launch
import Idealize.ShloMosaic.Lib.Pipeline.Frame
import Idealize.ShloMosaic.Lib.Pipeline.Kit
import Idealize.ShloMosaic.Rules.PointsTo

noncomputable section

namespace Cert.KernelIdeal.Shared

open Idealize.ShloMosaic Idealize.ShloMosaic.TcCoe
open Idealize.SL
open Idealize.SL.BI (sProp bigSep bigSep_congr bigSep_sdiff_split bigSep_eq_bigSepL_of_eq)
open scoped Idealize.SL.BI
open Idealize.SL.BI.BIBase Idealize.SL.BI.Laws Idealize.SL.Sem Idealize.SL.ProofMode
open Idealize.SL.RA
open Cert.KernelIdeal.Gen

variable {F : FTy → Type} [FloatOps F]
variable {Ix : Type} [DecidableEq Ix] {Name : Type} [DecidableEq Name] {U : Type} [URA U] {Lvl : Type}

local notation "𝕄" => MT nD τ sig Ix (Elt F) Name U Lvl

/-- A whole buffer held at the full share is the same buffer held at the two halves of the full share. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## Call 0: windows 1 and 2 stage one array -/

/-- The distinct buffers behind call 0's arrays, one by one. -/
theorem arrBufs0_eq (c : Dev nD) (V : (b : Ref sig .tc) → Buf (Elt F) ((c : Thread nD τ).loc b)) :
    (Pipeline.arrBufs spec0 c V : sProp 𝕄) = iprop((((c : Thread nD τ).loc main_arg1) ↦{fullShare} V main_arg1) ∗ (((c : Thread nD τ).loc main_arg0) ↦{fullShare} V main_arg0) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1)) := by
  unfold Pipeline.arrBufs
  exact bigSep_eq_bigSepL_of_eq [main_arg1, main_arg0, main_arg2, main_arg3, main_v0, main_v1] (by decide) (by decide) _

/-- Call 0's arrays, window by window: whole buffers, windows 1 and 2 each holding half the share of their common
    buffer, every other window its buffer at the full share. -/
theorem arrays0_eq (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (A : (w : Fin 7) → Buf (Elt F) ((cfg0.win w).arr.view.loc (c : Thread nD τ))) :
    (dat.arrays A : sProp 𝕄) = iprop((((c : Thread nD τ).loc main_arg1) ↦{fullShare} A 0) ∗ (((c : Thread nD τ).loc main_arg0) ↦{fullShare.left} A 1) ∗ (((c : Thread nD τ).loc main_arg0) ↦{fullShare.right} A 2) ∗ (((c : Thread nD τ).loc main_arg2) ↦{fullShare} A 3) ∗ (((c : Thread nD τ).loc main_arg3) ↦{fullShare} A 4) ∗ (((c : Thread nD τ).loc main_v0) ↦{fullShare} A 5) ∗ (((c : Thread nD τ).loc main_v1) ↦{fullShare} A 6)) := by
  have s0 : dat.share 0 = fullShare := (if_neg Bool.false_ne_true).trans hq0
  have s1 : dat.share 1 = fullShare.left := (if_neg Bool.false_ne_true).trans hq1
  have s2 : dat.share 2 = fullShare.right := (if_neg Bool.false_ne_true).trans hq2
  have s3 : dat.share 3 = fullShare := (if_neg Bool.false_ne_true).trans hq3
  have s4 : dat.share 4 = fullShare := (if_neg Bool.false_ne_true).trans hq4
  have s5 : dat.share 5 = fullShare := (if_neg Bool.false_ne_true).trans hq5
  have s6 : dat.share 6 = fullShare := if_pos rfl
  have h : (dat.arrays A : sProp 𝕄)
      = bigSep Finset.univ fun w : Fin 7 => (((c : Thread nD τ).loc (Pipeline.arrRef spec0 w)) ↦{dat.share w} A w : sProp 𝕄) := by
    unfold Pipeline.Dat.arrays
    exact bigSep_congr fun w _ => by rw [(arr_whole0 w).set_eq_univ]
  rw [h, bigSep_W0, s0, s1, s2, s3, s4, s5, s6]

/-- ENTRY, the arrays' part: the distinct buffers behind the arrays, each whole at the full share at contents `V`,
    are the pipeline's arrays at the contents read off `V`: the buffer windows 1 and 2 share is split in two halves. -/
theorem arrays_of_arrBufs0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (Pipeline.arrBufs spec0 c V : sProp 𝕄) ⊢ dat.arrays A := by
  rw [arrBufs0_eq, arrays0_eq c dat hq0 hq1 hq2 hq3 hq4 hq5, hA 0, hA 1, hA 2, hA 3, hA 4, hA 5, hA 6]
  iintro ⟨H0, H1, H2, H3, H4, H5⟩
  ihave H := (halves (F := F) _).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

/-- EXIT, the arrays' part: the pipeline's arrays at contents read off `V` are the distinct buffers behind them, each
    whole at the full share at `V`: the two halves of the buffer windows 1 and 2 share are joined back. -/
theorem arrBufs_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (dat.arrays A : sProp 𝕄) ⊢ Pipeline.arrBufs spec0 c V := by
  rw [arrBufs0_eq, arrays0_eq c dat hq0 hq1 hq2 hq3 hq4 hq5, hA 0, hA 1, hA 2, hA 3, hA 4, hA 5, hA 6]
  iintro ⟨G0, G1, G2, G3, G4, G5, G6⟩
  ihave Hs := (halves (F := F) _).2 $$ [G1 G2]
  · isplitl [G1]; · iexact G1
    iexact G2
  isplitl [G0]; · iexact G0
  isplitl [Hs]; · iexact Hs
  isplitl [G3]; · iexact G3
  isplitl [G4]; · iexact G4
  isplitl [G5]; · iexact G5
  iexact G6

/-- ENTRY: a core's unscoped buffers at contents `V` are call 0's arrays at the contents read off `V` — windows 1
    and 2 each at half the share of their common buffer, every other array at the full share — and the unscoped rest. -/
theorem arrays_of_unscopedBufs0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (unscopedBufs c V : sProp 𝕄) ⊢ iprop(dat.arrays A ∗ Pipeline.unscopedRest spec0 c V) := by
  rw [Pipeline.unscopedBufs_split₀ cfgs 0 winFacts₀0.arr_unscoped c V]
  exact sep_mono (arrays_of_arrBufs0 c dat hq0 hq1 hq2 hq3 hq4 hq5 V A hA) .rfl

/-- EXIT: call 0's arrays at contents `A` and the unscoped rest at `V` are the core's unscoped buffers at any
    valuation `V'` that has the arrays at `A` and agrees with `V` off them. -/
theorem unscopedBufs_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V V' : (b : Ref sig .tc) → Buf (Elt F) ((c : Thread nD τ).loc b))
    (A : (w : Fin 7) → Buf (Elt F) ((cfg0.win w).arr.view.loc (c : Thread nD τ))) (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  rw [Pipeline.unscopedBufs_split₀ cfgs 0 winFacts₀0.arr_unscoped c V']
  refine sep_mono (arrBufs_of_arrays0 c dat hq0 hq1 hq2 hq3 hq4 hq5 V' A hA) (Entails.of_eq ?_)
  unfold Pipeline.unscopedRest
  exact bigSep_congr fun b hb => by rw [hrest b (Finset.mem_sdiff.mp hb).2]

/-- ENTRY over the thread state that tracks every unscoped buffer at a valuation `W`. -/
theorem arrays_of_held0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W : Valuation τ sig (Elt F))
    (A : (w : Fin 7) → Buf (Elt F) ((cfg0.win w).arr.view.loc (c : Thread nD τ)))
    (hA : ∀ w, A w = (fun b : Ref sig .tc => (W b : Buf (Elt F) ((c : Thread nD τ).loc b))) (Pipeline.arrRef spec0 w)) :
    (StableHlo.held (c : Thread nD τ) (Pipeline.ucRefs τ sig) W : sProp 𝕄)
      ⊢ iprop(dat.arrays A ∗ Pipeline.unscopedRest spec0 c (fun b => W b)) := by
  rw [← Pipeline.unscopedBufs_held c W]
  exact arrays_of_unscopedBufs0 c dat hq0 hq1 hq2 hq3 hq4 hq5 (fun b => W b) A hA

/-- EXIT over the thread state: the arrays at `A` and the unscoped rest at `W` are every unscoped buffer at `W'`. -/
theorem held_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W W' : Valuation τ sig (Elt F))
    (A : (w : Fin 7) → Buf (Elt F) ((cfg0.win w).arr.view.loc (c : Thread nD τ)))
    (hA : ∀ w, A w = (fun b : Ref sig .tc => (W' b : Buf (Elt F) ((c : Thread nD τ).loc b))) (Pipeline.arrRef spec0 w))
    (hrest : ∀ b : Ref sig .tc, b ∉ Finset.univ.image (Pipeline.arrRef spec0) → (W' b : Buf (Elt F) ((c : Thread nD τ).loc b)) = W b) :
    iprop(dat.arrays A ∗ Pipeline.unscopedRest spec0 c (fun b => W b))
      ⊢ (StableHlo.held (c : Thread nD τ) (Pipeline.ucRefs τ sig) W' : sProp 𝕄) := by
  rw [← Pipeline.unscopedBufs_held c W']
  exact unscopedBufs_of_arrays0 c dat hq0 hq1 hq2 hq3 hq4 hq5 (fun b => W b) (fun b => W' b) A hA hrest

/-! ## Call 1: windows 1 and 2 stage one array -/

/-- The distinct buffers behind call 1's arrays, one by one. -/
theorem arrBufs1_eq (c : Dev nD) (V : (b : Ref sig .tc) → Buf (Elt F) ((c : Thread nD τ).loc b)) :
    (Pipeline.arrBufs spec1 c V : sProp 𝕄) = iprop((((c : Thread nD τ).loc main_arg1) ↦{fullShare} V main_arg1) ∗ (((c : Thread nD τ).loc main_v1) ↦{fullShare} V main_v1) ∗ (((c : Thread nD τ).loc main_arg5) ↦{fullShare} V main_arg5) ∗ (((c : Thread nD τ).loc main_arg6) ↦{fullShare} V main_arg6) ∗ (((c : Thread nD τ).loc main_v2) ↦{fullShare} V main_v2) ∗ (((c : Thread nD τ).loc main_v3) ↦{fullShare} V main_v3)) := by
  unfold Pipeline.arrBufs
  exact bigSep_eq_bigSepL_of_eq [main_arg1, main_v1, main_arg5, main_arg6, main_v2, main_v3] (by decide) (by decide) _

/-- Call 1's arrays, window by window: whole buffers, windows 1 and 2 each holding half the share of their common
    buffer, every other window its buffer at the full share. -/
theorem arrays1_eq (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (A : (w : Fin 7) → Buf (Elt F) ((cfg1.win w).arr.view.loc (c : Thread nD τ))) :
    (dat.arrays A : sProp 𝕄) = iprop((((c : Thread nD τ).loc main_arg1) ↦{fullShare} A 0) ∗ (((c : Thread nD τ).loc main_v1) ↦{fullShare.left} A 1) ∗ (((c : Thread nD τ).loc main_v1) ↦{fullShare.right} A 2) ∗ (((c : Thread nD τ).loc main_arg5) ↦{fullShare} A 3) ∗ (((c : Thread nD τ).loc main_arg6) ↦{fullShare} A 4) ∗ (((c : Thread nD τ).loc main_v2) ↦{fullShare} A 5) ∗ (((c : Thread nD τ).loc main_v3) ↦{fullShare} A 6)) := by
  have s0 : dat.share 0 = fullShare := (if_neg Bool.false_ne_true).trans hq0
  have s1 : dat.share 1 = fullShare.left := (if_neg Bool.false_ne_true).trans hq1
  have s2 : dat.share 2 = fullShare.right := (if_neg Bool.false_ne_true).trans hq2
  have s3 : dat.share 3 = fullShare := (if_neg Bool.false_ne_true).trans hq3
  have s4 : dat.share 4 = fullShare := (if_neg Bool.false_ne_true).trans hq4
  have s5 : dat.share 5 = fullShare := (if_neg Bool.false_ne_true).trans hq5
  have s6 : dat.share 6 = fullShare := if_pos rfl
  have h : (dat.arrays A : sProp 𝕄)
      = bigSep Finset.univ fun w : Fin 7 => (((c : Thread nD τ).loc (Pipeline.arrRef spec1 w)) ↦{dat.share w} A w : sProp 𝕄) := by
    unfold Pipeline.Dat.arrays
    exact bigSep_congr fun w _ => by rw [(arr_whole1 w).set_eq_univ]
  rw [h, bigSep_W1, s0, s1, s2, s3, s4, s5, s6]

/-- ENTRY, the arrays' part: the distinct buffers behind the arrays, each whole at the full share at contents `V`,
    are the pipeline's arrays at the contents read off `V`: the buffer windows 1 and 2 share is split in two halves. -/
theorem arrays_of_arrBufs1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (Pipeline.arrBufs spec1 c V : sProp 𝕄) ⊢ dat.arrays A := by
  rw [arrBufs1_eq, arrays1_eq c dat hq0 hq1 hq2 hq3 hq4 hq5, hA 0, hA 1, hA 2, hA 3, hA 4, hA 5, hA 6]
  iintro ⟨H0, H1, H2, H3, H4, H5⟩
  ihave H := (halves (F := F) _).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

/-- EXIT, the arrays' part: the pipeline's arrays at contents read off `V` are the distinct buffers behind them, each
    whole at the full share at `V`: the two halves of the buffer windows 1 and 2 share are joined back. -/
theorem arrBufs_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (dat.arrays A : sProp 𝕄) ⊢ Pipeline.arrBufs spec1 c V := by
  rw [arrBufs1_eq, arrays1_eq c dat hq0 hq1 hq2 hq3 hq4 hq5, hA 0, hA 1, hA 2, hA 3, hA 4, hA 5, hA 6]
  iintro ⟨G0, G1, G2, G3, G4, G5, G6⟩
  ihave Hs := (halves (F := F) _).2 $$ [G1 G2]
  · isplitl [G1]; · iexact G1
    iexact G2
  isplitl [G0]; · iexact G0
  isplitl [Hs]; · iexact Hs
  isplitl [G3]; · iexact G3
  isplitl [G4]; · iexact G4
  isplitl [G5]; · iexact G5
  iexact G6

/-- ENTRY: a core's unscoped buffers at contents `V` are call 1's arrays at the contents read off `V` — windows 1
    and 2 each at half the share of their common buffer, every other array at the full share — and the unscoped rest. -/
theorem arrays_of_unscopedBufs1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (unscopedBufs c V : sProp 𝕄) ⊢ iprop(dat.arrays A ∗ Pipeline.unscopedRest spec1 c V) := by
  rw [Pipeline.unscopedBufs_split₀ cfgs 1 winFacts₀1.arr_unscoped c V]
  exact sep_mono (arrays_of_arrBufs1 c dat hq0 hq1 hq2 hq3 hq4 hq5 V A hA) .rfl

/-- EXIT: call 1's arrays at contents `A` and the unscoped rest at `V` are the core's unscoped buffers at any
    valuation `V'` that has the arrays at `A` and agrees with `V` off them. -/
theorem unscopedBufs_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V V' : (b : Ref sig .tc) → Buf (Elt F) ((c : Thread nD τ).loc b))
    (A : (w : Fin 7) → Buf (Elt F) ((cfg1.win w).arr.view.loc (c : Thread nD τ))) (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  refine sep_mono (arrBufs_of_arrays1 c dat hq0 hq1 hq2 hq3 hq4 hq5 V' A hA) (Entails.of_eq ?_)
  unfold Pipeline.unscopedRest
  exact bigSep_congr fun b hb => by rw [hrest b (Finset.mem_sdiff.mp hb).2]

/-- ENTRY over the thread state that tracks every unscoped buffer at a valuation `W`. -/
theorem arrays_of_held1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W : Valuation τ sig (Elt F))
    (A : (w : Fin 7) → Buf (Elt F) ((cfg1.win w).arr.view.loc (c : Thread nD τ)))
    (hA : ∀ w, A w = (fun b : Ref sig .tc => (W b : Buf (Elt F) ((c : Thread nD τ).loc b))) (Pipeline.arrRef spec1 w)) :
    (StableHlo.held (c : Thread nD τ) (Pipeline.ucRefs τ sig) W : sProp 𝕄)
      ⊢ iprop(dat.arrays A ∗ Pipeline.unscopedRest spec1 c (fun b => W b)) := by
  rw [← Pipeline.unscopedBufs_held c W]
  exact arrays_of_unscopedBufs1 c dat hq0 hq1 hq2 hq3 hq4 hq5 (fun b => W b) A hA

/-- EXIT over the thread state: the arrays at `A` and the unscoped rest at `W` are every unscoped buffer at `W'`. -/
theorem held_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W W' : Valuation τ sig (Elt F))
    (A : (w : Fin 7) → Buf (Elt F) ((cfg1.win w).arr.view.loc (c : Thread nD τ)))
    (hA : ∀ w, A w = (fun b : Ref sig .tc => (W' b : Buf (Elt F) ((c : Thread nD τ).loc b))) (Pipeline.arrRef spec1 w))
    (hrest : ∀ b : Ref sig .tc, b ∉ Finset.univ.image (Pipeline.arrRef spec1) → (W' b : Buf (Elt F) ((c : Thread nD τ).loc b)) = W b) :
    iprop(dat.arrays A ∗ Pipeline.unscopedRest spec1 c (fun b => W b))
      ⊢ (StableHlo.held (c : Thread nD τ) (Pipeline.ucRefs τ sig) W' : sProp 𝕄) := by
  rw [← Pipeline.unscopedBufs_held c W']
  exact unscopedBufs_of_arrays1 c dat hq0 hq1 hq2 hq3 hq4 hq5 (fun b => W b) (fun b => W' b) A hA hrest

end Cert.KernelIdeal.Shared

end
-- ==== Proof.FrMain.lean ====
import proofs.«128498_g58506044506625_cont_9to1_m_1050_1_alg».proof.Proof.Fr0Out
import proofs.«128498_g58506044506625_cont_9to1_m_1050_1_alg».proof.Proof.Fr1Out
import proofs.«128498_g58506044506625_cont_9to1_m_1050_1_alg».proof.Proof.Gen.KernelIdeal.Regions
import proofs.«128498_g58506044506625_cont_9to1_m_1050_1_alg».proof.Proof.SharedArrays

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0

/-! ## The buffers' contents between @main's items -/

/-- What the first call finds: the launch contents after the first bias vector is viewed as a row. -/
abbrev Ve0 : (c : Dev nD) → (b : Ref sig .tc) → Buf (Elt F) ((c : Thread nD τ).loc b) := fun c b => V1 m c b
/-- The hidden layer: the first call's output array after its write-backs. -/
def final0 (c : Dev nD) : Buf (Elt F) ((c : Thread nD τ).loc main_v1) := (dats0 (Ve0 m) c).arrAt 6 cfg0.N
/-- The regions' results up to the first call's. -/
def outsA : Outs (F := F) := fun _ r c => Function.update (fun r' : Ref sig .tc => m ((c : Thread nD τ).loc r')) main_v1 (final0 m c) r
/-- What the second call finds: the hidden layer in place, the second bias vector viewed as a row. -/
abbrev Ve1 : (c : Dev nD) → (b : Ref sig .tc) → Buf (Elt F) ((c : Thread nD τ).loc b) := fun c b => V3 m (outsA m) c b
/-- The network's output: the second call's output array after its write-backs. -/
def final1 (c : Dev nD) : Buf (Elt F) ((c : Thread nD τ).loc main_v3) := (dats1 (Ve1 m) c).arrAt 6 cfg1.N
/-- The regions' results. -/
def outsB : Outs (F := F) := fun J r c =>
  if J = 4 then Function.update (fun r' : Ref sig .tc => m ((c : Thread nD τ).loc r')) main_v3 (final1 m c) r else outsA m J r c

theorem outsA_2 (c : Dev nD) : outsA m 2 main_v1 c = final0 m c := by
  unfold outsA; simp only [Function.update_self]
theorem outsB_2 (c : Dev nD) : outsB m 2 main_v1 c = final0 m c := by
  unfold outsB; rw [if_neg (by decide)]; exact outsA_2 m c
theorem outsB_4 (c : Dev nD) : outsB m 4 main_v3 c = final1 m c := by
  unfold outsB; rw [if_pos rfl]; simp only [Function.update_self]
theorem V2_outsB (c : Dev nD) : V2 m (outsB m) c = V2 m (outsA m) c := by
  unfold V2; rw [show outsB m 2 main_v1 c = outsA m 2 main_v1 c from if_neg (by decide)]
theorem V3_outsB (c : Dev nD) : V3 m (outsB m) c = V3 m (outsA m) c := by
  unfold V3; rw [V2_outsB]
theorem V2_main_v1 (c : Dev nD) : (V2 m (outsB m) c main_v1 : Buf (Elt F) ((c : Thread nD τ).loc main_v1)) = final0 m c := by
  unfold V2; simp only [Function.update_self]; exact outsB_2 m c
theorem V4_main_v3 (c : Dev nD) : (V4 m (outsB m) c main_v3 : Buf (Elt F) ((c : Thread nD τ).loc main_v3)) = final1 m c := by
  unfold V4; simp only [Function.update_self]; exact outsB_4 m c

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dats0 (Ve0 m) c
  | ⟨1, _⟩ => fun c => dats1 (Ve1 m) c

/-- What rides beside the buffers through every item: the core's `owes`, at nothing. -/
abbrev E : Fin 3 → Dev nD → sProp 𝕄 := fun _ c => iprop(∃ W, owes (c : Thread nD τ) (0 : CellTallies nD τ sig Unit) W)

/-! ## Each call's arrays at its exit -/

theorem hF0 (c : Dev nD) (w : Fin cfg0.W) :
    (pdats m 0 c).arrAt w cfg0.N = (fun b : Ref sig .tc => (V2 m (outsB m) c b : Buf (Elt F) ((c : Thread nD τ).loc b))) (Pipeline.arrRef spec0 w) := by
  match w with
  | ⟨0, _⟩ => exact ((dats0 (Ve0 m) c).arrAt_in 0 rfl _).trans (V2_of m (outsB m) c main_arg1 (by decide)).symm
  | ⟨1, _⟩ => exact ((dats0 (Ve0 m) c).arrAt_in 1 rfl _).trans (V2_of m (outsB m) c main_arg0 (by decide)).symm
  | ⟨2, _⟩ => exact ((dats0 (Ve0 m) c).arrAt_in 2 rfl _).trans (V2_of m (outsB m) c main_arg0 (by decide)).symm
  | ⟨3, _⟩ => exact ((dats0 (Ve0 m) c).arrAt_in 3 rfl _).trans (V2_of m (outsB m) c main_arg2 (by decide)).symm
  | ⟨4, _⟩ => exact ((dats0 (Ve0 m) c).arrAt_in 4 rfl _).trans (V2_of m (outsB m) c main_arg3 (by decide)).symm
  | ⟨5, _⟩ => exact ((dats0 (Ve0 m) c).arrAt_in 5 rfl _).trans (V2_of m (outsB m) c main_v0 (by decide)).symm
  | ⟨6, _⟩ => exact (V2_main_v1 m c).symm
theorem hrest0 (c : Dev nD) : ∀ b : Ref sig .tc, b ∉ Finset.univ.image (Pipeline.arrRef spec0) →
    (V2 m (outsB m) c b : Buf (Elt F) ((c : Thread nD τ).loc b)) = V1 m c b :=
  fun b hb => V2_of m (outsB m) c b (fun h => hb (by
    rw [List.mem_singleton] at h; subst h
    exact Finset.mem_image.mpr ⟨6, Finset.mem_univ _, rfl⟩))

theorem hF1 (c : Dev nD) (w : Fin cfg1.W) :
    (pdats m 1 c).arrAt w cfg1.N = (fun b : Ref sig .tc => (V4 m (outsB m) c b : Buf (Elt F) ((c : Thread nD τ).loc b))) (Pipeline.arrRef spec1 w) := by
  match w with
  | ⟨0, _⟩ => exact ((dats1 (Ve1 m) c).arrAt_in 0 rfl _).trans ((congrFun (V3_outsB m c) _).symm.trans (V4_of m (outsB m) c main_arg1 (by decide)).symm)
  | ⟨1, _⟩ => exact ((dats1 (Ve1 m) c).arrAt_in 1 rfl _).trans ((congrFun (V3_outsB m c) _).symm.trans (V4_of m (outsB m) c main_v1 (by decide)).symm)
  | ⟨2, _⟩ => exact ((dats1 (Ve1 m) c).arrAt_in 2 rfl _).trans ((congrFun (V3_outsB m c) _).symm.trans (V4_of m (outsB m) c main_v1 (by decide)).symm)
  | ⟨3, _⟩ => exact ((dats1 (Ve1 m) c).arrAt_in 3 rfl _).trans ((congrFun (V3_outsB m c) _).symm.trans (V4_of m (outsB m) c main_arg5 (by decide)).symm)
  | ⟨4, _⟩ => exact ((dats1 (Ve1 m) c).arrAt_in 4 rfl _).trans ((congrFun (V3_outsB m c) _).symm.trans (V4_of m (outsB m) c main_arg6 (by decide)).symm)
  | ⟨5, _⟩ => exact ((dats1 (Ve1 m) c).arrAt_in 5 rfl _).trans ((congrFun (V3_outsB m c) _).symm.trans (V4_of m (outsB m) c main_v2 (by decide)).symm)
  | ⟨6, _⟩ => exact (V4_main_v3 m c).symm
theorem hrest1 (c : Dev nD) : ∀ b : Ref sig .tc, b ∉ Finset.univ.image (Pipeline.arrRef spec1) →
    (V4 m (outsB m) c b : Buf (Elt F) ((c : Thread nD τ).loc b)) = V3 m (outsA m) c b :=
  fun b hb => (V4_of m (outsB m) c b (fun h => hb (by
    rw [List.mem_singleton] at h; subst h
    exact Finset.mem_image.mpr ⟨6, Finset.mem_univ _, rfl⟩))).trans (congrFun (V3_outsB m c) _)

/-! ## The calls as segments -/

theorem drop2 {A B C : sProp 𝕄} : iprop(A ∗ B ∗ C) ⊢ C := by
  iintro ⟨-, -, H⟩; iexact H
theorem emp2 {C : sProp 𝕄} : C ⊢ iprop(emp ∗ emp ∗ C) := by
  iintro H
  isplitr; · iempintro
  isplitr; · iempintro
  iexact H

set_option backward.isDefEq.respectTransparency.types false in
set_option maxHeartbeats 4000000 in
/-- Call 0's entry: its arrays are split out of the unscoped buffers, the feature array's two windows each at half its
    share; the core's `owes` rides along; everything else bypasses the call. -/
theorem hentry0 (c : Dev nD) :
    iprop(iprop(StableHlo.held (c : Thread nD τ) (Pipeline.ucRefs τ sig) (V1 m c) ∗ E 0 c)
        ∗ Pipeline.ownSems0 (Ix := Unit) (Name := ℕ) (U := UR sig nD τ) (Lvl := ℕ) (Val := Elt F) (τ := τ) (fun k : PEmpty => k.elim) c ∗ levAts L lv)
      ⊢ (|={Set.univ}=> iprop((pdats m 0 c).arrays ((pdats m 0 c).arrAt · 0) ∗ Pipeline.prefHeld (pcfgs (F := F) 0).pre c (fun _ => fullShare) (adm 0).1
          ∗ (pdats m 0 c).owesAt () 0 ∗ (iprop(emp) : sProp 𝕄) ∗ Pipeline.unscopedRest (Ix := Unit) (Name := ℕ) (U := UR sig nD τ) (Lvl := ℕ) spec0 c (Ve0 m c)) : sProp 𝕄) := by
  rw [Pipeline.ownSems0_none]
  have hsplit := Shared.arrays_of_held0 c (pdats m 0 c) rfl rfl rfl rfl rfl rfl (V1 m c) ((pdats m 0 c).arrAt · 0) (fun _ => rfl)
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hrest

set_option backward.isDefEq.respectTransparency.types false in
set_option maxHeartbeats 4000000 in
/-- Call 0's exit: the arrays at their final contents are joined back into the unscoped buffers, the two halves of the
    feature array's share together again; the output array holds what the write-backs made of it. -/
theorem hexit0 (c : Dev nD) :
    iprop((pdats m 0 c).arrays ((pdats m 0 c).arrAt · cfg0.N) ∗ (pdats m 0 c).owesAt () (Fin.last cfg0.N) ∗ (iprop(emp) : sProp 𝕄)
        ∗ Pipeline.unscopedRest (Ix := Unit) (Name := ℕ) (U := UR sig nD τ) (Lvl := ℕ) spec0 c (Ve0 m c))
      ⊢ (|={Set.univ}=> iprop(StableHlo.held (c : Thread nD τ) (Pipeline.ucRefs τ sig) (V2 m (outsB m) c) ∗ E 1 c) : sProp 𝕄) := by
  have hjoin := Shared.held_of_arrays0 c (pdats m 0 c) rfl rfl rfl rfl rfl rfl (V1 m c) (V2 m (outsB m) c) ((pdats m 0 c).arrAt · cfg0.N) (hF0 m c) (hrest0 m c)
  iintro ⟨Ha, HO, -, Hrest⟩
  imodintro
  isplitl [Ha Hrest]
  · iapply hjoin; isplitl [Ha] <;> iassumption
  unfold Pipeline.Dat.owesAt Pipeline.owesWithin
  icases HO with ⟨%W, -, HO⟩; iexists W; iexact HO

set_option backward.isDefEq.respectTransparency.types false in
set_option maxHeartbeats 4000000 in
/-- Call 0 as a segment of @main. The accumulators pass through the invariant; nothing is owed; the kernel has no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outsB m) c) ∗ E 1 c)
  X c := iprop(emp)
  Y c := iprop(emp)
  Z c := Pipeline.unscopedRest (Ix := Unit) (Name := ℕ) (U := UR sig nD τ) (Lvl := ℕ) spec0 c (Ve0 m c)
  hentry c := hentry0 m c
  hin c := drop2.trans (hin0 (Ve0 m) c)
  hout c := by
    rw [Pipeline.ownSems0_none]
    exact (hout0 (Ve0 m) c).trans emp2
  hexit c := hexit0 m c

set_option backward.isDefEq.respectTransparency.types false in
set_option maxHeartbeats 4000000 in
/-- Call 1's entry: its arrays are split out of the unscoped buffers, the feature array's two windows each at half its
    share; the core's `owes` rides along; everything else bypasses the call. -/
theorem hentry1 (c : Dev nD) :
    iprop(iprop(StableHlo.held (c : Thread nD τ) (Pipeline.ucRefs τ sig) (V3 m (outsB m) c) ∗ E 1 c)
        ∗ Pipeline.ownSems0 (Ix := Unit) (Name := ℕ) (U := UR sig nD τ) (Lvl := ℕ) (Val := Elt F) (τ := τ) (fun k : PEmpty => k.elim) c ∗ levAts L lv)
      ⊢ (|={Set.univ}=> iprop((pdats m 1 c).arrays ((pdats m 1 c).arrAt · 0) ∗ Pipeline.prefHeld (pcfgs (F := F) 1).pre c (fun _ => fullShare) (adm 1).1
          ∗ (pdats m 1 c).owesAt () 0 ∗ (iprop(emp) : sProp 𝕄) ∗ Pipeline.unscopedRest (Ix := Unit) (Name := ℕ) (U := UR sig nD τ) (Lvl := ℕ) spec1 c (Ve1 m c)) : sProp 𝕄) := by
  rw [Pipeline.ownSems0_none, V3_outsB m c]
  have hsplit := Shared.arrays_of_held1 c (pdats m 1 c) rfl rfl rfl rfl rfl rfl (V3 m (outsA m) c) ((pdats m 1 c).arrAt · 0) (fun _ => rfl)
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hrest

set_option backward.isDefEq.respectTransparency.types false in
set_option maxHeartbeats 4000000 in
/-- Call 1's exit: the arrays at their final contents are joined back into the unscoped buffers, the two halves of the
    feature array's share together again; the output array holds what the write-backs made of it. -/
theorem hexit1 (c : Dev nD) :
    iprop((pdats m 1 c).arrays ((pdats m 1 c).arrAt · cfg1.N) ∗ (pdats m 1 c).owesAt () (Fin.last cfg1.N) ∗ (iprop(emp) : sProp 𝕄)
        ∗ Pipeline.unscopedRest (Ix := Unit) (Name := ℕ) (U := UR sig nD τ) (Lvl := ℕ) spec1 c (Ve1 m c))
      ⊢ (|={Set.univ}=> iprop(StableHlo.held (c : Thread nD τ) (Pipeline.ucRefs τ sig) (V4 m (outsB m) c) ∗ E 2 c) : sProp 𝕄) := by
  have hjoin := Shared.held_of_arrays1 c (pdats m 1 c) rfl rfl rfl rfl rfl rfl (V3 m (outsA m) c) (V4 m (outsB m) c) ((pdats m 1 c).arrAt · cfg1.N) (hF1 m c) (hrest1 m c)
  iintro ⟨Ha, HO, -, Hrest⟩
  imodintro
  isplitl [Ha Hrest]
  · iapply hjoin; isplitl [Ha] <;> iassumption
  unfold Pipeline.Dat.owesAt Pipeline.owesWithin
  icases HO with ⟨%W, -, HO⟩; iexists W; iexact HO

set_option backward.isDefEq.respectTransparency.types false in
set_option maxHeartbeats 4000000 in
/-- Call 1 as a segment of @main. The accumulators pass through the invariant; nothing is owed; the kernel has no
    semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V3 m (outsB m) c) ∗ E 1 c)
  post c := iprop(StableHlo.held (c : Thread nD τ) (Pipeline.ucRefs τ sig) (V4 m (outsB m) c) ∗ E 2 c)
  X c := iprop(emp)
  Y c := iprop(emp)
  Z c := Pipeline.unscopedRest (Ix := Unit) (Name := ℕ) (U := UR sig nD τ) (Lvl := ℕ) spec1 c (Ve1 m c)
  hentry c := hentry1 m c
  hin c := drop2.trans (hin1 (Ve1 m) c)
  hout c := by
    rw [Pipeline.ownSems0_none]
    exact (hout1 (Ve1 m) c).trans emp2
  hexit c := hexit1 m c

/-! ## The launch -/

-- the launch theorem's implicit arguments are found by unifying its conclusion with this one, which takes unfolding plain
-- definitions in a metavariable's type
set_option backward.isDefEq.respectTransparency.types false in
set_option maxHeartbeats 4000000 in
/-- At the compiled mesh, for any float values, from any memory with zero counters: every weakly fair execution of
    @main terminates, nothing faulting, and every final state has the result array at the second call's output after its
    write-backs and every argument array as launched. @main is run as its four items: the first bias viewed as a row,
    the first call, the second bias viewed as a row, the second call. -/
theorem run_valued : θ_run defs (onTc (τ := τ) (main (F := F))) ⟨m, fun _ => 0, ρ⟩ (fun r => ∀ c : Dev nD,
      r.2.mem ((c.tc : Thread nD τ).loc main_v3) = final1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outsB m) 𝒱₀ L lv E () (pdats m) (reg0 m) (reg1 m))
    (fun c Q => by
      rewrite [main_chain c, Pipeline.Seg.run_eq_chain,
        show (segs m (outsB m) 𝒱₀ L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ E 0 c))
    (Tₙ := fun c => StableHlo.held (c : Thread nD τ) (Pipeline.ucRefs τ sig) (V4 m (outsB m) c))
    (hch := fun c => ⟨.rfl, .rfl, .rfl, .rfl, .rfl⟩)
    (hinit := ?hinit) (QY := fun c s => s.mem ((c.tc : Thread nD τ).loc main_v3) = final1 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?hfin) (hQ := fun _ h => h)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  case hfin =>
    unfold StableHlo.held
    iintro ⟨Hh, HSI⟩
    ihave Hr := (pointsTo_read_all (Pipeline.ucRefs τ sig) (fun b => ((c : Thread nD τ).1, b)) (V4 m (outsB m) c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (V4_main_v3 m c),
        (h (Proc.devRef .tc main_arg0) (Finset.mem_filter.mpr ⟨StableHlo.devRef_mem_tcRefs main_arg0, by decide⟩)).trans (V4_main_arg0 m (outsB m) c),
        (h (Proc.devRef .tc main_arg1) (Finset.mem_filter.mpr ⟨StableHlo.devRef_mem_tcRefs main_arg1, by decide⟩)).trans (V4_main_arg1 m (outsB m) c),
        (h (Proc.devRef .tc main_arg2) (Finset.mem_filter.mpr ⟨StableHlo.devRef_mem_tcRefs main_arg2, by decide⟩)).trans (V4_main_arg2 m (outsB m) c),
        (h (Proc.devRef .tc main_arg3) (Finset.mem_filter.mpr ⟨StableHlo.devRef_mem_tcRefs main_arg3, by decide⟩)).trans (V4_main_arg3 m (outsB m) c),
        (h (Proc.devRef .tc main_arg4) (Finset.mem_filter.mpr ⟨StableHlo.devRef_mem_tcRefs main_arg4, by decide⟩)).trans (V4_main_arg4 m (outsB m) c),
        (h (Proc.devRef .tc main_arg5) (Finset.mem_filter.mpr ⟨StableHlo.devRef_mem_tcRefs main_arg5, by decide⟩)).trans (V4_main_arg5 m (outsB m) c),
        (h (Proc.devRef .tc main_arg6) (Finset.mem_filter.mpr ⟨StableHlo.devRef_mem_tcRefs main_arg6, by decide⟩)).trans (V4_main_arg6 m (outsB m) c),
        (h (Proc.devRef .tc main_arg7) (Finset.mem_filter.mpr ⟨StableHlo.devRef_mem_tcRefs main_arg7, by decide⟩)).trans (V4_main_arg7 m (outsB m) c)⟩
    · iexact HSI

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_valued m ρ)

end Cert.KernelIdeal.Fr

end
-- ==== Proof.FrB0Runs.lean ====
import proofs.«128498_g58506044506625_cont_9to1_m_1050_1_alg».proof.Proof.Gen.Kernel.Launch
import proofs.«128498_g58506044506625_cont_9to1_m_1050_1_alg».proof.Proof.Gen.Kernel.Skeleton
import proofs.«128498_g58506044506625_cont_9to1_m_1050_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid: the accumulators are zeroed where the source-tile
    coordinate is 0, and the output block is stored where it is 7 -/

/-- The first condition: the source-tile coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second condition: the source-tile coordinate is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The staging memrefs at a point, the two accumulators -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
/-- The neighbour-sum accumulator and the in-degree accumulator: whole buffers of the kernel's own. -/
abbrev scM0_0 : Memref sig .tc .vmem S512x128 .f32 := Memref.whole cc0_scratch0
abbrev scM0_1 : Memref sig .tc .vmem S512x1 .f32 := Memref.whole cc0_scratch1
abbrev VS0_0 : View sig .tc .vmem S512x128 .f32 := scM0_0.view
abbrev VS0_1 : View sig .tc .vmem S512x1 .f32 := scM0_1.view
/-- One staging buffer of the output window, through which its contents are stated. -/
abbrev VO0_6 : View sig .tc .vmem S512x128 .f32 := (Memref.whole cc0_stg6_0 : Memref sig .tc .vmem S512x128 .f32).view

end Cert.Kernel.Fr

end
-- ==== Proof.FrB0RunA.lean ====
import proofs.«128498_g58506044506625_cont_9to1_m_1050_1_alg».proof.Proof.FrB0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the first source tile: both accumulators are zeroed, then the tile is added; nothing is stored into the output block. The pieces each buffer ends with are found by the run. -/
noncomputable def kernelRun0_A (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i)
    (x0 : Vec F S512x512 .f32) (x1 x2 : Vec F S512x128 .f32) (x3 x4 : Vec F S128x128 .f32) (x5 : Vec F S1x128 .f32) :
    Σ' (L6 : List (View.Piece (Elt F) S512x128 .f32)) (LS0 : List (View.Piece (Elt F) S512x128 .f32)), { LS1 : List (View.Piece (Elt F) S512x1 .f32) //
      ∀ (xi6 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrB0RunB.lean ====
import proofs.«128498_g58506044506625_cont_9to1_m_1050_1_alg».proof.Proof.FrB0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at a middle source tile: the tile is added to both accumulators; nothing is stored into the output block. The pieces each buffer ends with are found by the run. -/
noncomputable def kernelRun0_B (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i)
    (x0 : Vec F S512x512 .f32) (x1 x2 : Vec F S512x128 .f32) (x3 x4 : Vec F S128x128 .f32) (x5 : Vec F S1x128 .f32) (xs0 : Vec F S512x128 .f32) (xs1 : Vec F S512x1 .f32) :
    Σ' (L6 : List (View.Piece (Elt F) S512x128 .f32)) (LS0 : List (View.Piece (Elt F) S512x128 .f32)), { LS1 : List (View.Piece (Elt F) S512x1 .f32) //
      ∀ (xi6 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrB0RunC.lean ====
import proofs.«128498_g58506044506625_cont_9to1_m_1050_1_alg».proof.Proof.FrB0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the last source tile: the tile is added to both accumulators and the output block is stored from them. The pieces each buffer ends with are found by the run. -/
noncomputable def kernelRun0_C (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i)
    (x0 : Vec F S512x512 .f32) (x1 x2 : Vec F S512x128 .f32) (x3 x4 : Vec F S128x128 .f32) (x5 : Vec F S1x128 .f32) (xs0 : Vec F S512x128 .f32) (xs1 : Vec F S512x1 .f32) :
    Σ' (L6 : List (View.Piece (Elt F) S512x128 .f32)) (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_layer_kernel_eq_skeleton]; unfold cc0__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.FrB0Body.lean ====
import proofs.«128498_g58506044506625_cont_9to1_m_1050_1_alg».proof.Proof.FrB0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the two accumulators -/

def out0_A_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
theorem scover0_A_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) (y : S512x128.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S512x128.size (by sl_kernel_rfl) y
def sout0_A_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)
theorem scover0_A_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) (y : S512x1.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S512x1.size (by sl_kernel_rfl) y
def sout0_A_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

def out0_B_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)
theorem scover0_B_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout0_B_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)
theorem scover0_B_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x1.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout0_B_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

theorem cover0_C_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S512x128.size (by sl_kernel_rfl) y
def out0_C_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)
theorem scover0_C_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout0_C_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
theorem scover0_C_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) (y : S512x1.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout0_C_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output block and the accumulators hold after each point -/

/-- After the body at position `n`: the output block's staging buffer, the neighbour-sum accumulator, the in-degree
    accumulator. At the first source tile the accumulators restart; otherwise they continue from the point before. -/
def outsAt0 (c : Dev nD) : (n : ℕ) → n < cfg0.N → Vec F S512x128 .f32 × Vec F S512x128 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the two accumulators at what the point before left, the other scoped buffers at anything -/

/-- The core's scoped buffers that are neither a staging buffer of this call nor one of its two accumulators. -/
abbrev Rest0 (c : Dev nD) : sProp 𝕄 := Pipeline.scopedRestBut (Ix := Unit) (Name := ℕ) (U := UR sig nD τ) (Lvl := ℕ) (Val := Elt F) spec0 c [cc0_scratch0, cc0_scratch1]

theorem PhiA0_eq (c : Dev nD) :
    (Pipeline.scopedRest (Ix := Unit) (Name := ℕ) (U := UR sig nD τ) (Lvl := ℕ) (Val := Elt F) spec0 c : sProp 𝕄)
      = iprop(((∃ d, owns (c : Thread nD τ) scM0_0 fullShare d) ∗ (∃ d, owns (c : Thread nD τ) scM0_1 fullShare d)) ∗ Rest0 c) := by
  rw [Pipeline.scopedRest_split_of_list (Ix := Unit) (Name := ℕ) (U := UR sig nD τ) (Lvl := ℕ) (Val := Elt F) spec0 c [cc0_scratch0, cc0_scratch1] (by decide) (by decide)]
  simp only [scM0_0, scM0_1, owns_whole, bigSepL_cons_cons, bigSepL_singleton]; try rfl

def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop((owns (c : Thread nD τ) scM0_0 fullShare ((outsAt0 V c n hn).2.1) ∗ owns (c : Thread nD τ) scM0_1 fullShare ((outsAt0 V c n hn).2.2)) ∗ Rest0 c)

theorem PhiS0_zero (c : Dev nD) (n : ℕ) (h : n ≤ cfg0.N) (hz : n = 0) : PhiS0 V c n h = Pipeline.scopedRest (Ix := Unit) (Name := ℕ) (U := UR sig nD τ) (Lvl := ℕ) (Val := Elt F) spec0 c := by
  subst hz; rfl

theorem PhiS0_succ (c : Dev nD) (n : ℕ) (hn : n < cfg0.N) :
    PhiS0 V c (n + 1) hn = iprop((owns (c : Thread nD τ) scM0_0 fullShare ((outsAt0 V c n hn).2.1) ∗ owns (c : Thread nD τ) scM0_1 fullShare ((outsAt0 V c n hn).2.2)) ∗ Rest0 c) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2.1) ∗ owns (c : Thread nD τ) scM0_1 fullShare ((outsAt0 V c (n - 1) (by omega)).2.2)) ∗ Rest0 c) := by
  cases n with
  | zero => exact absurd rfl hz
  | succ n => rfl

/-! ## The proof data -/

/-- The proof data of this call on core `c`: the arrays as the region finds them; after the body at point `t` each
    input's buffer at its block and the output's at `outsAt`; the invariant `PhiS`; nothing owed; the two windows on the
    feature array each at half its share, every other input at the full share. -/
def dats0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dats0 V c).A w = V c (Pipeline.arrRef spec0 w) := by
  dsimp only [dats0]

theorem PhiS0_castSucc (c : Dev nD) (t : Fin cfg0.N) :
    (dats0 V c).Φ t.castSucc = PhiS0 V c t.val (Nat.le_of_lt t.isLt) := by
  dsimp only [dats0]; simp only [Fin.coe_castSucc]
theorem after0_0 (c : Dev nD) (t : Fin cfg0.N) : (dats0 V c).after 0 t = iblk0 V c 0 t := by dsimp only [dats0]
theorem after0_1 (c : Dev nD) (t : Fin cfg0.N) : (dats0 V c).after 1 t = iblk0 V c 1 t := by dsimp only [dats0]
theorem after0_2 (c : Dev nD) (t : Fin cfg0.N) : (dats0 V c).after 2 t = iblk0 V c 2 t := by dsimp only [dats0]
theorem after0_3 (c : Dev nD) (t : Fin cfg0.N) : (dats0 V c).after 3 t = iblk0 V c 3 t := by dsimp only [dats0]
theorem after0_4 (c : Dev nD) (t : Fin cfg0.N) : (dats0 V c).after 4 t = iblk0 V c 4 t := by dsimp only [dats0]
theorem after0_5 (c : Dev nD) (t : Fin cfg0.N) : (dats0 V c).after 5 t = iblk0 V c 5 t := by dsimp only [dats0]
theorem after0_6 (c : Dev nD) (t : Fin cfg0.N) : (dats0 V c).after 6 t = (outsAt0 V c t.val t.isLt).1 := by dsimp only [dats0]
theorem before0_0 (c : Dev nD) (t : Fin cfg0.N) (d) : (dats0 V c).before 0 t d = iblk0 V c 0 t :=
  before0_0_of V (dats0 V c) (A_eq0 V c 0) (after0_0 V c) t d
theorem before0_1 (c : Dev nD) (t : Fin cfg0.N) (d) : (dats0 V c).before 1 t d = iblk0 V c 1 t :=
  before0_1_of V (dats0 V c) (A_eq0 V c 1) (after0_1 V c) t d
theorem before0_2 (c : Dev nD) (t : Fin cfg0.N) (d) : (dats0 V c).before 2 t d = iblk0 V c 2 t :=
  before0_2_of V (dats0 V c) (A_eq0 V c 2) (after0_2 V c) t d
theorem before0_3 (c : Dev nD) (t : Fin cfg0.N) (d) : (dats0 V c).before 3 t d = iblk0 V c 3 t :=
  before0_3_of V (dats0 V c) (A_eq0 V c 3) (after0_3 V c) t d
theorem before0_4 (c : Dev nD) (t : Fin cfg0.N) (d) : (dats0 V c).before 4 t d = iblk0 V c 4 t :=
  before0_4_of V (dats0 V c) (A_eq0 V c 4) (after0_4 V c) t d
theorem before0_5 (c : Dev nD) (t : Fin cfg0.N) (d) : (dats0 V c).before 5 t d = iblk0 V c 5 t :=
  before0_5_of V (dats0 V c) (A_eq0 V c 5) (after0_5 V c) t d

/-! ## The body obligation -/

def bodyPre0 (c : Dev nD) (t : Fin cfg0.N) : sProp 𝕄 :=
  iprop((dats0 V c).Φ t.castSucc ∗ (dats0 V c).owesAt () t.castSucc
    ∗ (∃ d, owns (c : Thread nD τ) (ms0_0 t) fullShare ((dats0 V c).before 0 t d))
    ∗ (∃ d, owns (c : Thread nD τ) (ms0_1 t) fullShare ((dats0 V c).before 1 t d))
    ∗ (∃ d, owns (c : Thread nD τ) (ms0_2 t) fullShare ((dats0 V c).before 2 t d))
    ∗ (∃ d, owns (c : Thread nD τ) (ms0_3 t) fullShare ((dats0 V c).before 3 t d))
    ∗ (∃ d, owns (c : Thread nD τ) (ms0_4 t) fullShare ((dats0 V c).before 4 t d))
    ∗ (∃ d, owns (c : Thread nD τ) (ms0_5 t) fullShare ((dats0 V c).before 5 t d))
    ∗ (∃ d, owns (c : Thread nD τ) (ms0_6 t) fullShare ((dats0 V c).before 6 t d)))

def bodyPost0 (c : Dev nD) (t : Fin cfg0.N) : sProp 𝕄 :=
  iprop((dats0 V c).Φ t.succ ∗ (dats0 V c).owesAt () t.succ
    ∗ (dats0 V c).leavesExact 0 t
    ∗ (dats0 V c).leavesExact 1 t
    ∗ (dats0 V c).leavesExact 2 t
    ∗ (dats0 V c).leavesExact 3 t
    ∗ (dats0 V c).leavesExact 4 t
    ∗ (dats0 V c).leavesExact 5 t
    ∗ (dats0 V c).leavesExact 6 t)

set_option maxHeartbeats 16000000 in
/-- The body at any point: the inputs' buffers hold their blocks; the point's position along the source tiles says
    which case it is in; the invariant hands the body the two accumulators at what the point before left (at anything
    where they are about to be zeroed) and takes them back at this point's contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dats0 V c).owesAt () t.succ = (dats0 V c).owesAt () t.castSucc from rfl]
  rw [show (dats0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [Dat.leavesExact_idle (dats0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 8 = 7
    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [show (dats0 V c).leavesExact 6 t = owns (c : Thread nD τ) (ms0_6 t) fullShare ((dats0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1; (try dsimp only)
      by_cases hz : t.val = 0
      · exfalso; omega
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)

    ·
      rw [show (dats0 V c).leavesExact 0 t = owns (c : Thread nD τ) (ms0_0 t) fullShare ((dats0 V c).after 0 t) from by
        unfold Dat.leavesExact; rw [liveAt0_0 t], after0_0]
      rw [show (dats0 V c).leavesExact 1 t = owns (c : Thread nD τ) (ms0_1 t) fullShare ((dats0 V c).after 1 t) from by
        unfold Dat.leavesExact; rw [liveAt0_1 t], after0_1]
      rw [show (dats0 V c).leavesExact 2 t = owns (c : Thread nD τ) (ms0_2 t) fullShare ((dats0 V c).after 2 t) from by
        unfold Dat.leavesExact; rw [liveAt0_2 t], after0_2]
      rw [show (dats0 V c).leavesExact 3 t = owns (c : Thread nD τ) (ms0_3 t) fullShare ((dats0 V c).after 3 t) from by
        unfold Dat.leavesExact; rw [liveAt0_3 t], after0_3]
      rw [show (dats0 V c).leavesExact 4 t = owns (c : Thread nD τ) (ms0_4 t) fullShare ((dats0 V c).after 4 t) from by
        unfold Dat.leavesExact; rw [liveAt0_4 t], after0_4]
      rw [show (dats0 V c).leavesExact 5 t = owns (c : Thread nD τ) (ms0_5 t) fullShare ((dats0 V c).after 5 t) from by
        unfold Dat.leavesExact; rw [liveAt0_5 t], after0_5]
      rw [Dat.leavesExact_idle (dats0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dats0 (F := F) V c) (defs₀ (F := F)) Variants.none () Set.univ := fun t => by
  rw [bigSep_W0, bigSep_W0]
  exact sound_body0 V c t

end Cert.Kernel.Fr

end
-- ==== Proof.FrB0Out.lean ====
import proofs.«128498_g58506044506625_cont_9to1_m_1050_1_alg».proof.Proof.FrB0Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scoped buffers no window stages make the invariant before the first point. -/
theorem hin0 (c : Dev nD) : (Pipeline.scopedRest (Ix := Unit) (Name := ℕ) (U := UR sig nD τ) (Lvl := ℕ) (Val := Elt F) spec0 c : sProp 𝕄) ⊢ (dats0 V c).Φ 0 := by
  rw [show (dats0 V c).Φ 0 = PhiS0 V c 0 (Nat.zero_le _) from rfl, PhiS0_zero V c 0 _ rfl]
  try exact Idealize.SL.BI.Entails.refl _

/-- After any point but the first the invariant gives the scoped rest back: the accumulators' contents are forgotten. -/
theorem Phi_out0 (c : Dev nD) (t : Fin (cfg0.N + 1)) (ht : t.val ≠ 0) :
    (dats0 V c).Φ t ⊢ (Pipeline.scopedRest (Ix := Unit) (Name := ℕ) (U := UR sig nD τ) (Lvl := ℕ) (Val := Elt F) spec0 c : sProp 𝕄) := by
  rw [show (dats0 V c).Φ t = PhiS0 V c t.val (Nat.le_of_lt_succ t.isLt) from rfl, PhiS0_pos V c _ _ ht, PhiA0_eq]
  iintro ⟨⟨HS0, HS1⟩, HR⟩
  isplitl [HS0 HS1]
  · isplitl [HS0]; · iexists _; iexact HS0
    iexists _; iexact HS1
  iexact HR

/-- The same after the last point. -/
theorem hout0 (c : Dev nD) : (dats0 V c).Φ (Fin.last cfg0.N) ⊢ (Pipeline.scopedRest (Ix := Unit) (Name := ℕ) (U := UR sig nD τ) (Lvl := ℕ) (Val := Elt F) spec0 c : sProp 𝕄) :=
  Phi_out0 V c _ (by rw [Fin.val_last]; have : cfg0.N = 64 := N_0; omega)

end Cert.Kernel.Fr

end
-- ==== Proof.FrB1Runs.lean ====
import proofs.«128498_g58506044506625_cont_9to1_m_1050_1_alg».proof.Proof.Gen.Kernel.Launch
import proofs.«128498_g58506044506625_cont_9to1_m_1050_1_alg».proof.Proof.Gen.Kernel.Skeleton
import proofs.«128498_g58506044506625_cont_9to1_m_1050_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid: the accumulators are zeroed where the source-tile
    coordinate is 0, and the output block is stored where it is 7 -/

/-- The first condition: the source-tile coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second condition: the source-tile coordinate is the last one. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-! ## The staging memrefs at a point, the two accumulators -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x64 .f32 := win1_6.stage (cfg1.slots t 6)
abbrev hs1_6 (t : Fin cfg1.N) : (ms1_6 t).IsWhole := hstage1_6 ((cfg1.slots t 6).cast nbuf1_6)
/-- The neighbour-sum accumulator and the in-degree accumulator: whole buffers of the kernel's own. -/
abbrev scM1_0 : Memref sig .tc .vmem S512x128 .f32 := Memref.whole cc1_scratch0
abbrev scM1_1 : Memref sig .tc .vmem S512x1 .f32 := Memref.whole cc1_scratch1
abbrev VS1_0 : View sig .tc .vmem S512x128 .f32 := scM1_0.view
abbrev VS1_1 : View sig .tc .vmem S512x1 .f32 := scM1_1.view
/-- One staging buffer of the output window, through which its contents are stated. -/
abbrev VO1_6 : View sig .tc .vmem S512x64 .f32 := (Memref.whole cc1_stg6_0 : Memref sig .tc .vmem S512x64 .f32).view

end Cert.Kernel.Fr

end
-- ==== Proof.FrB1RunA.lean ====
import proofs.«128498_g58506044506625_cont_9to1_m_1050_1_alg».proof.Proof.FrB1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the first source tile: both accumulators are zeroed, then the tile is added; nothing is stored into the output block. The pieces each buffer ends with are found by the run. -/
noncomputable def kernelRun1_A (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i)
    (x0 : Vec F S512x512 .f32) (x1 x2 : Vec F S512x128 .f32) (x3 x4 : Vec F S128x64 .f32) (x5 : Vec F S1x64 .f32) :
    Σ' (L6 : List (View.Piece (Elt F) S512x64 .f32)) (LS0 : List (View.Piece (Elt F) S512x128 .f32)), { LS1 : List (View.Piece (Elt F) S512x1 .f32) //
      ∀ (xi6 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrB1RunB.lean ====
import proofs.«128498_g58506044506625_cont_9to1_m_1050_1_alg».proof.Proof.FrB1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at a middle source tile: the tile is added to both accumulators; nothing is stored into the output block. The pieces each buffer ends with are found by the run. -/
noncomputable def kernelRun1_B (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i)
    (x0 : Vec F S512x512 .f32) (x1 x2 : Vec F S512x128 .f32) (x3 x4 : Vec F S128x64 .f32) (x5 : Vec F S1x64 .f32) (xs0 : Vec F S512x128 .f32) (xs1 : Vec F S512x1 .f32) :
    Σ' (L6 : List (View.Piece (Elt F) S512x64 .f32)) (LS0 : List (View.Piece (Elt F) S512x128 .f32)), { LS1 : List (View.Piece (Elt F) S512x1 .f32) //
      ∀ (xi6 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrB1RunC.lean ====
import proofs.«128498_g58506044506625_cont_9to1_m_1050_1_alg».proof.Proof.FrB1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging buffers at the last source tile: the tile is added to both accumulators and the output block is stored from them. The pieces each buffer ends with are found by the run. -/
noncomputable def kernelRun1_C (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i)
    (x0 : Vec F S512x512 .f32) (x1 x2 : Vec F S512x128 .f32) (x3 x4 : Vec F S128x64 .f32) (x5 : Vec F S1x64 .f32) (xs0 : Vec F S512x128 .f32) (xs1 : Vec F S512x1 .f32) :
    Σ' (L6 : List (View.Piece (Elt F) S512x64 .f32)) (LS0 : List (View.Piece (Elt F) S512x128 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__sage_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__sage_layer_kernel_eq_skeleton]; unfold cc1__sage_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.FrB1Body.lean ====
import proofs.«128498_g58506044506625_cont_9to1_m_1050_1_alg».proof.Proof.FrB1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the two accumulators -/

def out1_A_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x64 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)
theorem scover1_A_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) (y : S512x128.Idx) : ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S512x128.size (by sl_kernel_rfl) y
def sout1_A_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5).2.1)
theorem scover1_A_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) (y : S512x1.Idx) : ∃ pc ∈ (kernelRun1_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.2.1 S512x1.size (by sl_kernel_rfl) y
def sout1_A_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 x5).2.2.1)

def out1_B_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x64 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0 xs1).1)
theorem scover1_B_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x128.Idx) : ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout1_B_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 xs0 xs1).2.1)
theorem scover1_B_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x1.Idx) : ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout1_B_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 x5 xs0 xs1).2.2.1)

theorem cover1_C_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x64.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S512x64.size (by sl_kernel_rfl) y
def out1_C_6 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x64 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0 xs1).1)
theorem scover1_C_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x128.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S512x128.size (by sl_kernel_rfl) y
def sout1_C_0 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 xs0 xs1).2.1)
theorem scover1_C_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) (y : S512x1.Idx) : ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S512x1.size (by sl_kernel_rfl) y
def sout1_C_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 x5 xs0 xs1).2.2.1)

/-! ## What the output block and the accumulators hold after each point -/

/-- After the body at position `n`: the output block's staging buffer, the neighbour-sum accumulator, the in-degree
    accumulator. At the first source tile the accumulators restart; otherwise they continue from the point before. -/
def outsAt1 (c : Dev nD) : (n : ℕ) → n < cfg1.N → Vec F S512x64 .f32 × Vec F S512x128 .f32 × Vec F S512x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points: the two accumulators at what the point before left, the other scoped buffers at anything -/

/-- The core's scoped buffers that are neither a staging buffer of this call nor one of its two accumulators. -/
abbrev Rest1 (c : Dev nD) : sProp 𝕄 := Pipeline.scopedRestBut (Ix := Unit) (Name := ℕ) (U := UR sig nD τ) (Lvl := ℕ) (Val := Elt F) spec1 c [cc1_scratch0, cc1_scratch1]

theorem PhiA1_eq (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d)) ∗ Rest1 c) := by
  rw [Pipeline.scopedRest_split_of_list (Ix := Unit) (Name := ℕ) (U := UR sig nD τ) (Lvl := ℕ) (Val := Elt F) spec1 c [cc1_scratch0, cc1_scratch1] (by decide) (by decide)]
  simp only [scM1_0, scM1_1, owns_whole, bigSepL_cons_cons, bigSepL_singleton]; try rfl

def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scM1_0 fullShare ((outsAt1 V c n hn).2.1) ∗ owns (c : Thread nD τ) scM1_1 fullShare ((outsAt1 V c n hn).2.2)) ∗ Rest1 c)

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop((owns (c : Thread nD τ) scM1_0 fullShare ((outsAt1 V c n hn).2.1) ∗ owns (c : Thread nD τ) scM1_1 fullShare ((outsAt1 V c n hn).2.2)) ∗ Rest1 c) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2.1) ∗ owns (c : Thread nD τ) scM1_1 fullShare ((outsAt1 V c (n - 1) (by omega)).2.2)) ∗ Rest1 c) := by
  cases n with
  | zero => exact absurd rfl hz
  | succ n => rfl

/-! ## The proof data -/

/-- The proof data of this call on core `c`: the arrays as the region finds them; after the body at point `t` each
    input's buffer at its block and the output's at `outsAt`; the invariant `PhiS`; nothing owed; the two windows on the
    feature array each at half its share, every other input at the full share. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dats1 V c).A w = V c (Pipeline.arrRef spec1 w) := by
  dsimp only [dats1]

theorem PhiS1_castSucc (c : Dev nD) (t : Fin cfg1.N) :
    (dats1 V c).Φ t.castSucc = PhiS1 V c t.val (Nat.le_of_lt t.isLt) := by
  dsimp only [dats1]; simp only [Fin.coe_castSucc]
theorem after1_0 (c : Dev nD) (t : Fin cfg1.N) : (dats1 V c).after 0 t = iblk1 V c 0 t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = iblk1 V c 5 t := by dsimp only [dats1]
theorem after1_6 (c : Dev nD) (t : Fin cfg1.N) : (dats1 V c).after 6 t = (outsAt1 V c t.val t.isLt).1 := by dsimp only [dats1]
theorem before1_0 (c : Dev nD) (t : Fin cfg1.N) (d) : (dats1 V c).before 0 t d = iblk1 V c 0 t :=
  before1_0_of V (dats1 V c) (A_eq1 V c 0) (after1_0 V c) t d
theorem before1_1 (c : Dev nD) (t : Fin cfg1.N) (d) : (dats1 V c).before 1 t d = iblk1 V c 1 t :=
  before1_1_of V (dats1 V c) (A_eq1 V c 1) (after1_1 V c) t d
theorem before1_2 (c : Dev nD) (t : Fin cfg1.N) (d) : (dats1 V c).before 2 t d = iblk1 V c 2 t :=
  before1_2_of V (dats1 V c) (A_eq1 V c 2) (after1_2 V c) t d
theorem before1_3 (c : Dev nD) (t : Fin cfg1.N) (d) : (dats1 V c).before 3 t d = iblk1 V c 3 t :=
  before1_3_of V (dats1 V c) (A_eq1 V c 3) (after1_3 V c) t d
theorem before1_4 (c : Dev nD) (t : Fin cfg1.N) (d) : (dats1 V c).before 4 t d = iblk1 V c 4 t :=
  before1_4_of V (dats1 V c) (A_eq1 V c 4) (after1_4 V c) t d
theorem before1_5 (c : Dev nD) (t : Fin cfg1.N) (d) : (dats1 V c).before 5 t d = iblk1 V c 5 t :=
  before1_5_of V (dats1 V c) (A_eq1 V c 5) (after1_5 V c) t d

/-! ## The body obligation -/

def bodyPre1 (c : Dev nD) (t : Fin cfg1.N) : sProp 𝕄 :=
  iprop((dats1 V c).Φ t.castSucc ∗ (dats1 V c).owesAt () t.castSucc
    ∗ (∃ d, owns (c : Thread nD τ) (ms1_0 t) fullShare ((dats1 V c).before 0 t d))
    ∗ (∃ d, owns (c : Thread nD τ) (ms1_1 t) fullShare ((dats1 V c).before 1 t d))
    ∗ (∃ d, owns (c : Thread nD τ) (ms1_2 t) fullShare ((dats1 V c).before 2 t d))
    ∗ (∃ d, owns (c : Thread nD τ) (ms1_3 t) fullShare ((dats1 V c).before 3 t d))
    ∗ (∃ d, owns (c : Thread nD τ) (ms1_4 t) fullShare ((dats1 V c).before 4 t d))
    ∗ (∃ d, owns (c : Thread nD τ) (ms1_5 t) fullShare ((dats1 V c).before 5 t d))
    ∗ (∃ d, owns (c : Thread nD τ) (ms1_6 t) fullShare ((dats1 V c).before 6 t d)))

def bodyPost1 (c : Dev nD) (t : Fin cfg1.N) : sProp 𝕄 :=
  iprop((dats1 V c).Φ t.succ ∗ (dats1 V c).owesAt () t.succ
    ∗ (dats1 V c).leavesExact 0 t
    ∗ (dats1 V c).leavesExact 1 t
    ∗ (dats1 V c).leavesExact 2 t
    ∗ (dats1 V c).leavesExact 3 t
    ∗ (dats1 V c).leavesExact 4 t
    ∗ (dats1 V c).leavesExact 5 t
    ∗ (dats1 V c).leavesExact 6 t)

set_option maxHeartbeats 16000000 in
/-- The body at any point: the inputs' buffers hold their blocks; the point's position along the source tiles says
    which case it is in; the invariant hands the body the two accumulators at what the point before left (at anything
    where they are about to be zeroed) and takes them back at this point's contents; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dats1 V c).owesAt () t.succ = (dats1 V c).owesAt () t.castSucc from rfl]
  rw [show (dats1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [Dat.leavesExact_idle (dats1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 8 = 7
    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [show (dats1 V c).leavesExact 6 t = owns (c : Thread nD τ) (ms1_6 t) fullShare ((dats1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1; (try dsimp only)
      by_cases hz : t.val = 0
      · exfalso; omega
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _)

    ·
      rw [show (dats1 V c).leavesExact 0 t = owns (c : Thread nD τ) (ms1_0 t) fullShare ((dats1 V c).after 0 t) from by
        unfold Dat.leavesExact; rw [liveAt1_0 t], after1_0]
      rw [show (dats1 V c).leavesExact 1 t = owns (c : Thread nD τ) (ms1_1 t) fullShare ((dats1 V c).after 1 t) from by
        unfold Dat.leavesExact; rw [liveAt1_1 t], after1_1]
      rw [show (dats1 V c).leavesExact 2 t = owns (c : Thread nD τ) (ms1_2 t) fullShare ((dats1 V c).after 2 t) from by
        unfold Dat.leavesExact; rw [liveAt1_2 t], after1_2]
      rw [show (dats1 V c).leavesExact 3 t = owns (c : Thread nD τ) (ms1_3 t) fullShare ((dats1 V c).after 3 t) from by
        unfold Dat.leavesExact; rw [liveAt1_3 t], after1_3]
      rw [show (dats1 V c).leavesExact 4 t = owns (c : Thread nD τ) (ms1_4 t) fullShare ((dats1 V c).after 4 t) from by
        unfold Dat.leavesExact; rw [liveAt1_4 t], after1_4]
      rw [show (dats1 V c).leavesExact 5 t = owns (c : Thread nD τ) (ms1_5 t) fullShare ((dats1 V c).after 5 t) from by
        unfold Dat.leavesExact; rw [liveAt1_5 t], after1_5]
      rw [Dat.leavesExact_idle (dats1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      · rw [PhiS1_castSucc V c t, PhiS1_pos V c _ _ hz]
        iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dats1 (F := F) V c) (defs₀ (F := F)) Variants.none () Set.univ := fun t => by
  rw [bigSep_W1, bigSep_W1]
  exact sound_body1 V c t

end Cert.Kernel.Fr

end
-- ==== Proof.FrB1Out.lean ====
import proofs.«128498_g58506044506625_cont_9to1_m_1050_1_alg».proof.Proof.FrB1Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scoped buffers no window stages make the invariant before the first point. -/
theorem hin1 (c : Dev nD) : (Pipeline.scopedRest (Ix := Unit) (Name := ℕ) (U := UR sig nD τ) (Lvl := ℕ) (Val := Elt F) spec1 c : sProp 𝕄) ⊢ (dats1 V c).Φ 0 := by
  rw [show (dats1 V c).Φ 0 = PhiS1 V c 0 (Nat.zero_le _) from rfl, PhiS1_zero V c 0 _ rfl]
  try exact Idealize.SL.BI.Entails.refl _

/-- After any point but the first the invariant gives the scoped rest back: the accumulators' contents are forgotten. -/
theorem Phi_out1 (c : Dev nD) (t : Fin (cfg1.N + 1)) (ht : t.val ≠ 0) :
    (dats1 V c).Φ t ⊢ (Pipeline.scopedRest (Ix := Unit) (Name := ℕ) (U := UR sig nD τ) (Lvl := ℕ) (Val := Elt F) spec1 c : sProp 𝕄) := by
  rw [show (dats1 V c).Φ t = PhiS1 V c t.val (Nat.le_of_lt_succ t.isLt) from rfl, PhiS1_pos V c _ _ ht, PhiA1_eq]
  iintro ⟨⟨HS0, HS1⟩, HR⟩
  isplitl [HS0 HS1]
  · isplitl [HS0]; · iexists _; iexact HS0
    iexists _; iexact HS1
  iexact HR

/-- The same after the last point. -/
theorem hout1 (c : Dev nD) : (dats1 V c).Φ (Fin.last cfg1.N) ⊢ (Pipeline.scopedRest (Ix := Unit) (Name := ℕ) (U := UR sig nD τ) (Lvl := ℕ) (Val := Elt F) spec1 c : sProp 𝕄) :=
  Phi_out1 V c _ (by rw [Fin.val_last]; have : cfg1.N = 64 := N_1; omega)

end Cert.Kernel.Fr

end
-- ==== Proof.SharedArraysB.lean ====
/- The windows' arrays of a call whose windows 1 and 2 stage ONE array, at a region's entry and exit: the distinct
   buffers behind the arrays, each whole at the full share, against the pipeline's arrays window by window — the common
   buffer of windows 1 and 2 held in two halves of the full share, split at the entry and joined back at the exit. -/
import proofs.«128498_g58506044506625_cont_9to1_m_1050_1_alg».proof.Proof.Gen.Kernel.Launch
import Idealize.ShloMosaic.Lib.Pipeline.Launch
import Idealize.ShloMosaic.Lib.Pipeline.Frame
import Idealize.ShloMosaic.Lib.Pipeline.Kit
import Idealize.ShloMosaic.Rules.PointsTo

noncomputable section

namespace Cert.Kernel.Shared

open Idealize.ShloMosaic Idealize.ShloMosaic.TcCoe
open Idealize.SL
open Idealize.SL.BI (sProp bigSep bigSep_congr bigSep_sdiff_split bigSep_eq_bigSepL_of_eq)
open scoped Idealize.SL.BI
open Idealize.SL.BI.BIBase Idealize.SL.BI.Laws Idealize.SL.Sem Idealize.SL.ProofMode
open Idealize.SL.RA
open Cert.Kernel.Gen

variable {F : FTy → Type} [FloatOps F]
variable {Ix : Type} [DecidableEq Ix] {Name : Type} [DecidableEq Name] {U : Type} [URA U] {Lvl : Type}

local notation "𝕄" => MT nD τ sig Ix (Elt F) Name U Lvl

/-- A whole buffer held at the full share is the same buffer held at the two halves of the full share. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## Call 0: windows 1 and 2 stage one array -/

/-- The distinct buffers behind call 0's arrays, one by one. -/
theorem arrBufs0_eq (c : Dev nD) (V : (b : Ref sig .tc) → Buf (Elt F) ((c : Thread nD τ).loc b)) :
    (Pipeline.arrBufs spec0 c V : sProp 𝕄) = iprop((((c : Thread nD τ).loc main_arg1) ↦{fullShare} V main_arg1) ∗ (((c : Thread nD τ).loc main_arg0) ↦{fullShare} V main_arg0) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1)) := by
  unfold Pipeline.arrBufs
  exact bigSep_eq_bigSepL_of_eq [main_arg1, main_arg0, main_arg2, main_arg3, main_v0, main_v1] (by decide) (by decide) _

/-- Call 0's arrays, window by window: whole buffers, windows 1 and 2 each holding half the share of their common
    buffer, every other window its buffer at the full share. -/
theorem arrays0_eq (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (A : (w : Fin 7) → Buf (Elt F) ((cfg0.win w).arr.view.loc (c : Thread nD τ))) :
    (dat.arrays A : sProp 𝕄) = iprop((((c : Thread nD τ).loc main_arg1) ↦{fullShare} A 0) ∗ (((c : Thread nD τ).loc main_arg0) ↦{fullShare.left} A 1) ∗ (((c : Thread nD τ).loc main_arg0) ↦{fullShare.right} A 2) ∗ (((c : Thread nD τ).loc main_arg2) ↦{fullShare} A 3) ∗ (((c : Thread nD τ).loc main_arg3) ↦{fullShare} A 4) ∗ (((c : Thread nD τ).loc main_v0) ↦{fullShare} A 5) ∗ (((c : Thread nD τ).loc main_v1) ↦{fullShare} A 6)) := by
  have s0 : dat.share 0 = fullShare := (if_neg Bool.false_ne_true).trans hq0
  have s1 : dat.share 1 = fullShare.left := (if_neg Bool.false_ne_true).trans hq1
  have s2 : dat.share 2 = fullShare.right := (if_neg Bool.false_ne_true).trans hq2
  have s3 : dat.share 3 = fullShare := (if_neg Bool.false_ne_true).trans hq3
  have s4 : dat.share 4 = fullShare := (if_neg Bool.false_ne_true).trans hq4
  have s5 : dat.share 5 = fullShare := (if_neg Bool.false_ne_true).trans hq5
  have s6 : dat.share 6 = fullShare := if_pos rfl
  have h : (dat.arrays A : sProp 𝕄)
      = bigSep Finset.univ fun w : Fin 7 => (((c : Thread nD τ).loc (Pipeline.arrRef spec0 w)) ↦{dat.share w} A w : sProp 𝕄) := by
    unfold Pipeline.Dat.arrays
    exact bigSep_congr fun w _ => by rw [(arr_whole0 w).set_eq_univ]
  rw [h, bigSep_W0, s0, s1, s2, s3, s4, s5, s6]

/-- ENTRY, the arrays' part: the distinct buffers behind the arrays, each whole at the full share at contents `V`,
    are the pipeline's arrays at the contents read off `V`: the buffer windows 1 and 2 share is split in two halves. -/
theorem arrays_of_arrBufs0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (Pipeline.arrBufs spec0 c V : sProp 𝕄) ⊢ dat.arrays A := by
  rw [arrBufs0_eq, arrays0_eq c dat hq0 hq1 hq2 hq3 hq4 hq5, hA 0, hA 1, hA 2, hA 3, hA 4, hA 5, hA 6]
  iintro ⟨H0, H1, H2, H3, H4, H5⟩
  ihave H := (halves (F := F) _).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

/-- EXIT, the arrays' part: the pipeline's arrays at contents read off `V` are the distinct buffers behind them, each
    whole at the full share at `V`: the two halves of the buffer windows 1 and 2 share are joined back. -/
theorem arrBufs_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (dat.arrays A : sProp 𝕄) ⊢ Pipeline.arrBufs spec0 c V := by
  rw [arrBufs0_eq, arrays0_eq c dat hq0 hq1 hq2 hq3 hq4 hq5, hA 0, hA 1, hA 2, hA 3, hA 4, hA 5, hA 6]
  iintro ⟨G0, G1, G2, G3, G4, G5, G6⟩
  ihave Hs := (halves (F := F) _).2 $$ [G1 G2]
  · isplitl [G1]; · iexact G1
    iexact G2
  isplitl [G0]; · iexact G0
  isplitl [Hs]; · iexact Hs
  isplitl [G3]; · iexact G3
  isplitl [G4]; · iexact G4
  isplitl [G5]; · iexact G5
  iexact G6

/-- ENTRY: a core's unscoped buffers at contents `V` are call 0's arrays at the contents read off `V` — windows 1
    and 2 each at half the share of their common buffer, every other array at the full share — and the unscoped rest. -/
theorem arrays_of_unscopedBufs0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg0.win w).arr.view.loc (c : Thread nD τ))) (hA : ∀ w, A w = V (Pipeline.arrRef spec0 w)) :
    (unscopedBufs c V : sProp 𝕄) ⊢ iprop(dat.arrays A ∗ Pipeline.unscopedRest spec0 c V) := by
  rw [Pipeline.unscopedBufs_split₀ cfgs 0 winFacts₀0.arr_unscoped c V]
  exact sep_mono (arrays_of_arrBufs0 c dat hq0 hq1 hq2 hq3 hq4 hq5 V A hA) .rfl

/-- EXIT: call 0's arrays at contents `A` and the unscoped rest at `V` are the core's unscoped buffers at any
    valuation `V'` that has the arrays at `A` and agrees with `V` off them. -/
theorem unscopedBufs_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V V' : (b : Ref sig .tc) → Buf (Elt F) ((c : Thread nD τ).loc b))
    (A : (w : Fin 7) → Buf (Elt F) ((cfg0.win w).arr.view.loc (c : Thread nD τ))) (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  rw [Pipeline.unscopedBufs_split₀ cfgs 0 winFacts₀0.arr_unscoped c V']
  refine sep_mono (arrBufs_of_arrays0 c dat hq0 hq1 hq2 hq3 hq4 hq5 V' A hA) (Entails.of_eq ?_)
  unfold Pipeline.unscopedRest
  exact bigSep_congr fun b hb => by rw [hrest b (Finset.mem_sdiff.mp hb).2]

/-- ENTRY over the thread state that tracks every unscoped buffer at a valuation `W`. -/
theorem arrays_of_held0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W : Valuation τ sig (Elt F))
    (A : (w : Fin 7) → Buf (Elt F) ((cfg0.win w).arr.view.loc (c : Thread nD τ)))
    (hA : ∀ w, A w = (fun b : Ref sig .tc => (W b : Buf (Elt F) ((c : Thread nD τ).loc b))) (Pipeline.arrRef spec0 w)) :
    (StableHlo.held (c : Thread nD τ) (Pipeline.ucRefs τ sig) W : sProp 𝕄)
      ⊢ iprop(dat.arrays A ∗ Pipeline.unscopedRest spec0 c (fun b => W b)) := by
  rw [← Pipeline.unscopedBufs_held c W]
  exact arrays_of_unscopedBufs0 c dat hq0 hq1 hq2 hq3 hq4 hq5 (fun b => W b) A hA

/-- EXIT over the thread state: the arrays at `A` and the unscoped rest at `W` are every unscoped buffer at `W'`. -/
theorem held_of_arrays0 (c : Dev nD) (dat : Pipeline.Dat τ (Elt F) Ix Name U Lvl cfg0 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W W' : Valuation τ sig (Elt F))
    (A : (w : Fin 7) → Buf (Elt F) ((cfg0.win w).arr.view.loc (c : Thread nD τ)))
    (hA : ∀ w, A w = (fun b : Ref sig .tc => (W' b : Buf (Elt F) ((c : Thread nD τ).loc b))) (Pipeline.arrRef spec0 w))
    (hrest : ∀ b : Ref sig .tc, b ∉ Finset.univ.image (Pipeline.arrRef spec0) → (W' b : Buf (Elt F) ((c : Thread nD τ).loc b)) = W b) :
    iprop(dat.arrays A ∗ Pipeline.unscopedRest spec0 c (fun b => W b))
      ⊢ (StableHlo.held (c : Thread nD τ) (Pipeline.ucRefs τ sig) W' : sProp 𝕄) := by
  rw [← Pipeline.unscopedBufs_held c W']
  exact unscopedBufs_of_arrays0 c dat hq0 hq1 hq2 hq3 hq4 hq5 (fun b => W b) (fun b => W' b) A hA hrest

/-! ## Call 1: windows 1 and 2 stage one array -/

/-- The distinct buffers behind call 1's arrays, one by one. -/
theorem arrBufs1_eq (c : Dev nD) (V : (b : Ref sig .tc) → Buf (Elt F) ((c : Thread nD τ).loc b)) :
    (Pipeline.arrBufs spec1 c V : sProp 𝕄) = iprop((((c : Thread nD τ).loc main_arg1) ↦{fullShare} V main_arg1) ∗ (((c : Thread nD τ).loc main_v1) ↦{fullShare} V main_v1) ∗ (((c : Thread nD τ).loc main_arg5) ↦{fullShare} V main_arg5) ∗ (((c : Thread nD τ).loc main_arg6) ↦{fullShare} V main_arg6) ∗ (((c : Thread nD τ).loc main_v2) ↦{fullShare} V main_v2) ∗ (((c : Thread nD τ).loc main_v3) ↦{fullShare} V main_v3)) := by
  unfold Pipeline.arrBufs
  exact bigSep_eq_bigSepL_of_eq [main_arg1, main_v1, main_arg5, main_arg6, main_v2, main_v3] (by decide) (by decide) _

/-- Call 1's arrays, window by window: whole buffers, windows 1 and 2 each holding half the share of their common
    buffer, every other window its buffer at the full share. -/
theorem arrays1_eq (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (A : (w : Fin 7) → Buf (Elt F) ((cfg1.win w).arr.view.loc (c : Thread nD τ))) :
    (dat.arrays A : sProp 𝕄) = iprop((((c : Thread nD τ).loc main_arg1) ↦{fullShare} A 0) ∗ (((c : Thread nD τ).loc main_v1) ↦{fullShare.left} A 1) ∗ (((c : Thread nD τ).loc main_v1) ↦{fullShare.right} A 2) ∗ (((c : Thread nD τ).loc main_arg5) ↦{fullShare} A 3) ∗ (((c : Thread nD τ).loc main_arg6) ↦{fullShare} A 4) ∗ (((c : Thread nD τ).loc main_v2) ↦{fullShare} A 5) ∗ (((c : Thread nD τ).loc main_v3) ↦{fullShare} A 6)) := by
  have s0 : dat.share 0 = fullShare := (if_neg Bool.false_ne_true).trans hq0
  have s1 : dat.share 1 = fullShare.left := (if_neg Bool.false_ne_true).trans hq1
  have s2 : dat.share 2 = fullShare.right := (if_neg Bool.false_ne_true).trans hq2
  have s3 : dat.share 3 = fullShare := (if_neg Bool.false_ne_true).trans hq3
  have s4 : dat.share 4 = fullShare := (if_neg Bool.false_ne_true).trans hq4
  have s5 : dat.share 5 = fullShare := (if_neg Bool.false_ne_true).trans hq5
  have s6 : dat.share 6 = fullShare := if_pos rfl
  have h : (dat.arrays A : sProp 𝕄)
      = bigSep Finset.univ fun w : Fin 7 => (((c : Thread nD τ).loc (Pipeline.arrRef spec1 w)) ↦{dat.share w} A w : sProp 𝕄) := by
    unfold Pipeline.Dat.arrays
    exact bigSep_congr fun w _ => by rw [(arr_whole1 w).set_eq_univ]
  rw [h, bigSep_W1, s0, s1, s2, s3, s4, s5, s6]

/-- ENTRY, the arrays' part: the distinct buffers behind the arrays, each whole at the full share at contents `V`,
    are the pipeline's arrays at the contents read off `V`: the buffer windows 1 and 2 share is split in two halves. -/
theorem arrays_of_arrBufs1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (Pipeline.arrBufs spec1 c V : sProp 𝕄) ⊢ dat.arrays A := by
  rw [arrBufs1_eq, arrays1_eq c dat hq0 hq1 hq2 hq3 hq4 hq5, hA 0, hA 1, hA 2, hA 3, hA 4, hA 5, hA 6]
  iintro ⟨H0, H1, H2, H3, H4, H5⟩
  ihave H := (halves (F := F) _).1 $$ H1
  icases H with ⟨Hl, Hr⟩
  isplitl [H0]; · iexact H0
  isplitl [Hl]; · iexact Hl
  isplitl [Hr]; · iexact Hr
  isplitl [H2]; · iexact H2
  isplitl [H3]; · iexact H3
  isplitl [H4]; · iexact H4
  iexact H5

/-- EXIT, the arrays' part: the pipeline's arrays at contents read off `V` are the distinct buffers behind them, each
    whole at the full share at `V`: the two halves of the buffer windows 1 and 2 share are joined back. -/
theorem arrBufs_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (dat.arrays A : sProp 𝕄) ⊢ Pipeline.arrBufs spec1 c V := by
  rw [arrBufs1_eq, arrays1_eq c dat hq0 hq1 hq2 hq3 hq4 hq5, hA 0, hA 1, hA 2, hA 3, hA 4, hA 5, hA 6]
  iintro ⟨G0, G1, G2, G3, G4, G5, G6⟩
  ihave Hs := (halves (F := F) _).2 $$ [G1 G2]
  · isplitl [G1]; · iexact G1
    iexact G2
  isplitl [G0]; · iexact G0
  isplitl [Hs]; · iexact Hs
  isplitl [G3]; · iexact G3
  isplitl [G4]; · iexact G4
  isplitl [G5]; · iexact G5
  iexact G6

/-- ENTRY: a core's unscoped buffers at contents `V` are call 1's arrays at the contents read off `V` — windows 1
    and 2 each at half the share of their common buffer, every other array at the full share — and the unscoped rest. -/
theorem arrays_of_unscopedBufs1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V : (b : Ref sig .tc) → Buf (Elt F) ((c : Thread nD τ).loc b))
    (A : (w : Fin 7) → Buf (Elt F) ((cfg1.win w).arr.view.loc (c : Thread nD τ))) (hA : ∀ w, A w = V (Pipeline.arrRef spec1 w)) :
    (unscopedBufs c V : sProp 𝕄) ⊢ iprop(dat.arrays A ∗ Pipeline.unscopedRest spec1 c V) := by
  rw [Pipeline.unscopedBufs_split₀ cfgs 1 winFacts₀1.arr_unscoped c V]
  exact sep_mono (arrays_of_arrBufs1 c dat hq0 hq1 hq2 hq3 hq4 hq5 V A hA) .rfl

/-- EXIT: call 1's arrays at contents `A` and the unscoped rest at `V` are the core's unscoped buffers at any
    valuation `V'` that has the arrays at `A` and agrees with `V` off them. -/
theorem unscopedBufs_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (V V' : (b : Ref sig .tc) → Buf (Elt F) ((c : Thread nD τ).loc b))
    (A : (w : Fin 7) → Buf (Elt F) ((cfg1.win w).arr.view.loc (c : Thread nD τ))) (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  rw [Pipeline.unscopedBufs_split₀ cfgs 1 winFacts₀1.arr_unscoped c V']
  refine sep_mono (arrBufs_of_arrays1 c dat hq0 hq1 hq2 hq3 hq4 hq5 V' A hA) (Entails.of_eq ?_)
  unfold Pipeline.unscopedRest
  exact bigSep_congr fun b hb => by rw [hrest b (Finset.mem_sdiff.mp hb).2]

/-- ENTRY over the thread state that tracks every unscoped buffer at a valuation `W`. -/
theorem arrays_of_held1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W : Valuation τ sig (Elt F))
    (A : (w : Fin 7) → Buf (Elt F) ((cfg1.win w).arr.view.loc (c : Thread nD τ)))
    (hA : ∀ w, A w = (fun b : Ref sig .tc => (W b : Buf (Elt F) ((c : Thread nD τ).loc b))) (Pipeline.arrRef spec1 w)) :
    (StableHlo.held (c : Thread nD τ) (Pipeline.ucRefs τ sig) W : sProp 𝕄)
      ⊢ iprop(dat.arrays A ∗ Pipeline.unscopedRest spec1 c (fun b => W b)) := by
  rw [← Pipeline.unscopedBufs_held c W]
  exact arrays_of_unscopedBufs1 c dat hq0 hq1 hq2 hq3 hq4 hq5 (fun b => W b) A hA

/-- EXIT over the thread state: the arrays at `A` and the unscoped rest at `W` are every unscoped buffer at `W'`. -/
theorem held_of_arrays1 (c : Dev nD) (dat : Pipeline.Dat τ (Elt F) Ix Name U Lvl cfg1 c)
    (hq0 : dat.q 0 = fullShare) (hq1 : dat.q 1 = fullShare.left) (hq2 : dat.q 2 = fullShare.right)
    (hq3 : dat.q 3 = fullShare) (hq4 : dat.q 4 = fullShare) (hq5 : dat.q 5 = fullShare)
    (W W' : Valuation τ sig (Elt F))
    (A : (w : Fin 7) → Buf (Elt F) ((cfg1.win w).arr.view.loc (c : Thread nD τ)))
    (hA : ∀ w, A w = (fun b : Ref sig .tc => (W' b : Buf (Elt F) ((c : Thread nD τ).loc b))) (Pipeline.arrRef spec1 w))
    (hrest : ∀ b : Ref sig .tc, b ∉ Finset.univ.image (Pipeline.arrRef spec1) → (W' b : Buf (Elt F) ((c : Thread nD τ).loc b)) = W b) :
    iprop(dat.arrays A ∗ Pipeline.unscopedRest spec1 c (fun b => W b))
      ⊢ (StableHlo.held (c : Thread nD τ) (Pipeline.ucRefs τ sig) W' : sProp 𝕄) := by
  rw [← Pipeline.unscopedBufs_held c W']
  exact unscopedBufs_of_arrays1 c dat hq0 hq1 hq2 hq3 hq4 hq5 (fun b => W b) (fun b => W' b) A hA hrest

end Cert.Kernel.Shared

end
-- ==== Proof.FrBMain.lean ====
import proofs.«128498_g58506044506625_cont_9to1_m_1050_1_alg».proof.Proof.FrB0Out
import proofs.«128498_g58506044506625_cont_9to1_m_1050_1_alg».proof.Proof.FrB1Out
import proofs.«128498_g58506044506625_cont_9to1_m_1050_1_alg».proof.Proof.Gen.Kernel.Regions
import proofs.«128498_g58506044506625_cont_9to1_m_1050_1_alg».proof.Proof.SharedArraysB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0

/-! ## The buffers' contents between @main's items -/

/-- What the first call finds: the launch contents after the first bias vector is viewed as a row. -/
abbrev Ve0 : (c : Dev nD) → (b : Ref sig .tc) → Buf (Elt F) ((c : Thread nD τ).loc b) := fun c b => V1 m c b
/-- The hidden layer: the first call's output array after its write-backs. -/
def final0 (c : Dev nD) : Buf (Elt F) ((c : Thread nD τ).loc main_v1) := (dats0 (Ve0 m) c).arrAt 6 cfg0.N
/-- The regions' results up to the first call's. -/
def outsA : Outs (F := F) := fun _ r c => Function.update (fun r' : Ref sig .tc => m ((c : Thread nD τ).loc r')) main_v1 (final0 m c) r
/-- What the second call finds: the hidden layer in place, the second bias vector viewed as a row. -/
abbrev Ve1 : (c : Dev nD) → (b : Ref sig .tc) → Buf (Elt F) ((c : Thread nD τ).loc b) := fun c b => V3 m (outsA m) c b
/-- The network's output: the second call's output array after its write-backs. -/
def final1 (c : Dev nD) : Buf (Elt F) ((c : Thread nD τ).loc main_v3) := (dats1 (Ve1 m) c).arrAt 6 cfg1.N
/-- The regions' results. -/
def outsB : Outs (F := F) := fun J r c =>
  if J = 4 then Function.update (fun r' : Ref sig .tc => m ((c : Thread nD τ).loc r')) main_v3 (final1 m c) r else outsA m J r c

theorem outsA_2 (c : Dev nD) : outsA m 2 main_v1 c = final0 m c := by
  unfold outsA; simp only [Function.update_self]
theorem outsB_2 (c : Dev nD) : outsB m 2 main_v1 c = final0 m c := by
  unfold outsB; rw [if_neg (by decide)]; exact outsA_2 m c
theorem outsB_4 (c : Dev nD) : outsB m 4 main_v3 c = final1 m c := by
  unfold outsB; rw [if_pos rfl]; simp only [Function.update_self]
theorem V2_outsB (c : Dev nD) : V2 m (outsB m) c = V2 m (outsA m) c := by
  unfold V2; rw [show outsB m 2 main_v1 c = outsA m 2 main_v1 c from if_neg (by decide)]
theorem V3_outsB (c : Dev nD) : V3 m (outsB m) c = V3 m (outsA m) c := by
  unfold V3; rw [V2_outsB]
theorem V2_main_v1 (c : Dev nD) : (V2 m (outsB m) c main_v1 : Buf (Elt F) ((c : Thread nD τ).loc main_v1)) = final0 m c := by
  unfold V2; simp only [Function.update_self]; exact outsB_2 m c
theorem V4_main_v3 (c : Dev nD) : (V4 m (outsB m) c main_v3 : Buf (Elt F) ((c : Thread nD τ).loc main_v3)) = final1 m c := by
  unfold V4; simp only [Function.update_self]; exact outsB_4 m c

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dats0 (Ve0 m) c
  | ⟨1, _⟩ => fun c => dats1 (Ve1 m) c

/-- What rides beside the buffers through every item: the core's `owes`, at nothing. -/
abbrev E : Fin 3 → Dev nD → sProp 𝕄 := fun _ c => iprop(∃ W, owes (c : Thread nD τ) (0 : CellTallies nD τ sig Unit) W)

/-! ## Each call's arrays at its exit -/

theorem hF0 (c : Dev nD) (w : Fin cfg0.W) :
    (pdats m 0 c).arrAt w cfg0.N = (fun b : Ref sig .tc => (V2 m (outsB m) c b : Buf (Elt F) ((c : Thread nD τ).loc b))) (Pipeline.arrRef spec0 w) := by
  match w with
  | ⟨0, _⟩ => exact ((dats0 (Ve0 m) c).arrAt_in 0 rfl _).trans (V2_of m (outsB m) c main_arg1 (by decide)).symm
  | ⟨1, _⟩ => exact ((dats0 (Ve0 m) c).arrAt_in 1 rfl _).trans (V2_of m (outsB m) c main_arg0 (by decide)).symm
  | ⟨2, _⟩ => exact ((dats0 (Ve0 m) c).arrAt_in 2 rfl _).trans (V2_of m (outsB m) c main_arg0 (by decide)).symm
  | ⟨3, _⟩ => exact ((dats0 (Ve0 m) c).arrAt_in 3 rfl _).trans (V2_of m (outsB m) c main_arg2 (by decide)).symm
  | ⟨4, _⟩ => exact ((dats0 (Ve0 m) c).arrAt_in 4 rfl _).trans (V2_of m (outsB m) c main_arg3 (by decide)).symm
  | ⟨5, _⟩ => exact ((dats0 (Ve0 m) c).arrAt_in 5 rfl _).trans (V2_of m (outsB m) c main_v0 (by decide)).symm
  | ⟨6, _⟩ => exact (V2_main_v1 m c).symm
theorem hrest0 (c : Dev nD) : ∀ b : Ref sig .tc, b ∉ Finset.univ.image (Pipeline.arrRef spec0) →
    (V2 m (outsB m) c b : Buf (Elt F) ((c : Thread nD τ).loc b)) = V1 m c b :=
  fun b hb => V2_of m (outsB m) c b (fun h => hb (by
    rw [List.mem_singleton] at h; subst h
    exact Finset.mem_image.mpr ⟨6, Finset.mem_univ _, rfl⟩))

theorem hF1 (c : Dev nD) (w : Fin cfg1.W) :
    (pdats m 1 c).arrAt w cfg1.N = (fun b : Ref sig .tc => (V4 m (outsB m) c b : Buf (Elt F) ((c : Thread nD τ).loc b))) (Pipeline.arrRef spec1 w) := by
  match w with
  | ⟨0, _⟩ => exact ((dats1 (Ve1 m) c).arrAt_in 0 rfl _).trans ((congrFun (V3_outsB m c) _).symm.trans (V4_of m (outsB m) c main_arg1 (by decide)).symm)
  | ⟨1, _⟩ => exact ((dats1 (Ve1 m) c).arrAt_in 1 rfl _).trans ((congrFun (V3_outsB m c) _).symm.trans (V4_of m (outsB m) c main_v1 (by decide)).symm)
  | ⟨2, _⟩ => exact ((dats1 (Ve1 m) c).arrAt_in 2 rfl _).trans ((congrFun (V3_outsB m c) _).symm.trans (V4_of m (outsB m) c main_v1 (by decide)).symm)
  | ⟨3, _⟩ => exact ((dats1 (Ve1 m) c).arrAt_in 3 rfl _).trans ((congrFun (V3_outsB m c) _).symm.trans (V4_of m (outsB m) c main_arg5 (by decide)).symm)
  | ⟨4, _⟩ => exact ((dats1 (Ve1 m) c).arrAt_in 4 rfl _).trans ((congrFun (V3_outsB m c) _).symm.trans (V4_of m (outsB m) c main_arg6 (by decide)).symm)
  | ⟨5, _⟩ => exact ((dats1 (Ve1 m) c).arrAt_in 5 rfl _).trans ((congrFun (V3_outsB m c) _).symm.trans (V4_of m (outsB m) c main_v2 (by decide)).symm)
  | ⟨6, _⟩ => exact (V4_main_v3 m c).symm
theorem hrest1 (c : Dev nD) : ∀ b : Ref sig .tc, b ∉ Finset.univ.image (Pipeline.arrRef spec1) →
    (V4 m (outsB m) c b : Buf (Elt F) ((c : Thread nD τ).loc b)) = V3 m (outsA m) c b :=
  fun b hb => (V4_of m (outsB m) c b (fun h => hb (by
    rw [List.mem_singleton] at h; subst h
    exact Finset.mem_image.mpr ⟨6, Finset.mem_univ _, rfl⟩))).trans (congrFun (V3_outsB m c) _)

/-! ## The calls as segments -/

theorem drop2 {A B C : sProp 𝕄} : iprop(A ∗ B ∗ C) ⊢ C := by
  iintro ⟨-, -, H⟩; iexact H
theorem emp2 {C : sProp 𝕄} : C ⊢ iprop(emp ∗ emp ∗ C) := by
  iintro H
  isplitr; · iempintro
  isplitr; · iempintro
  iexact H

set_option backward.isDefEq.respectTransparency.types false in
set_option maxHeartbeats 4000000 in
/-- Call 0's entry: its arrays are split out of the unscoped buffers, the feature array's two windows each at half its
    share; the core's `owes` rides along; everything else bypasses the call. -/
theorem hentry0 (c : Dev nD) :
    iprop(iprop(StableHlo.held (c : Thread nD τ) (Pipeline.ucRefs τ sig) (V1 m c) ∗ E 0 c)
        ∗ Pipeline.ownSems0 (Ix := Unit) (Name := ℕ) (U := UR sig nD τ) (Lvl := ℕ) (Val := Elt F) (τ := τ) (fun k : PEmpty => k.elim) c ∗ levAts L lv)
      ⊢ (|={Set.univ}=> iprop((pdats m 0 c).arrays ((pdats m 0 c).arrAt · 0) ∗ Pipeline.prefHeld (pcfgs (F := F) 0).pre c (fun _ => fullShare) (adm 0).1
          ∗ (pdats m 0 c).owesAt () 0 ∗ (iprop(emp) : sProp 𝕄) ∗ Pipeline.unscopedRest (Ix := Unit) (Name := ℕ) (U := UR sig nD τ) (Lvl := ℕ) spec0 c (Ve0 m c)) : sProp 𝕄) := by
  rw [Pipeline.ownSems0_none]
  have hsplit := Shared.arrays_of_held0 c (pdats m 0 c) rfl rfl rfl rfl rfl rfl (V1 m c) ((pdats m 0 c).arrAt · 0) (fun _ => rfl)
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hrest

set_option backward.isDefEq.respectTransparency.types false in
set_option maxHeartbeats 4000000 in
/-- Call 0's exit: the arrays at their final contents are joined back into the unscoped buffers, the two halves of the
    feature array's share together again; the output array holds what the write-backs made of it. -/
theorem hexit0 (c : Dev nD) :
    iprop((pdats m 0 c).arrays ((pdats m 0 c).arrAt · cfg0.N) ∗ (pdats m 0 c).owesAt () (Fin.last cfg0.N) ∗ (iprop(emp) : sProp 𝕄)
        ∗ Pipeline.unscopedRest (Ix := Unit) (Name := ℕ) (U := UR sig nD τ) (Lvl := ℕ) spec0 c (Ve0 m c))
      ⊢ (|={Set.univ}=> iprop(StableHlo.held (c : Thread nD τ) (Pipeline.ucRefs τ sig) (V2 m (outsB m) c) ∗ E 1 c) : sProp 𝕄) := by
  have hjoin := Shared.held_of_arrays0 c (pdats m 0 c) rfl rfl rfl rfl rfl rfl (V1 m c) (V2 m (outsB m) c) ((pdats m 0 c).arrAt · cfg0.N) (hF0 m c) (hrest0 m c)
  iintro ⟨Ha, HO, -, Hrest⟩
  imodintro
  isplitl [Ha Hrest]
  · iapply hjoin; isplitl [Ha] <;> iassumption
  unfold Pipeline.Dat.owesAt Pipeline.owesWithin
  icases HO with ⟨%W, -, HO⟩; iexists W; iexact HO

set_option backward.isDefEq.respectTransparency.types false in
set_option maxHeartbeats 4000000 in
/-- Call 0 as a segment of @main. The accumulators pass through the invariant; nothing is owed; the kernel has no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outsB m) c) ∗ E 1 c)
  X c := iprop(emp)
  Y c := iprop(emp)
  Z c := Pipeline.unscopedRest (Ix := Unit) (Name := ℕ) (U := UR sig nD τ) (Lvl := ℕ) spec0 c (Ve0 m c)
  hentry c := hentry0 m c
  hin c := drop2.trans (hin0 (Ve0 m) c)
  hout c := by
    rw [Pipeline.ownSems0_none]
    exact (hout0 (Ve0 m) c).trans emp2
  hexit c := hexit0 m c

set_option backward.isDefEq.respectTransparency.types false in
set_option maxHeartbeats 4000000 in
/-- Call 1's entry: its arrays are split out of the unscoped buffers, the feature array's two windows each at half its
    share; the core's `owes` rides along; everything else bypasses the call. -/
theorem hentry1 (c : Dev nD) :
    iprop(iprop(StableHlo.held (c : Thread nD τ) (Pipeline.ucRefs τ sig) (V3 m (outsB m) c) ∗ E 1 c)
        ∗ Pipeline.ownSems0 (Ix := Unit) (Name := ℕ) (U := UR sig nD τ) (Lvl := ℕ) (Val := Elt F) (τ := τ) (fun k : PEmpty => k.elim) c ∗ levAts L lv)
      ⊢ (|={Set.univ}=> iprop((pdats m 1 c).arrays ((pdats m 1 c).arrAt · 0) ∗ Pipeline.prefHeld (pcfgs (F := F) 1).pre c (fun _ => fullShare) (adm 1).1
          ∗ (pdats m 1 c).owesAt () 0 ∗ (iprop(emp) : sProp 𝕄) ∗ Pipeline.unscopedRest (Ix := Unit) (Name := ℕ) (U := UR sig nD τ) (Lvl := ℕ) spec1 c (Ve1 m c)) : sProp 𝕄) := by
  rw [Pipeline.ownSems0_none, V3_outsB m c]
  have hsplit := Shared.arrays_of_held1 c (pdats m 1 c) rfl rfl rfl rfl rfl rfl (V3 m (outsA m) c) ((pdats m 1 c).arrAt · 0) (fun _ => rfl)
  iintro ⟨⟨Hub, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  iexact Hrest

set_option backward.isDefEq.respectTransparency.types false in
set_option maxHeartbeats 4000000 in
/-- Call 1's exit: the arrays at their final contents are joined back into the unscoped buffers, the two halves of the
    feature array's share together again; the output array holds what the write-backs made of it. -/
theorem hexit1 (c : Dev nD) :
    iprop((pdats m 1 c).arrays ((pdats m 1 c).arrAt · cfg1.N) ∗ (pdats m 1 c).owesAt () (Fin.last cfg1.N) ∗ (iprop(emp) : sProp 𝕄)
        ∗ Pipeline.unscopedRest (Ix := Unit) (Name := ℕ) (U := UR sig nD τ) (Lvl := ℕ) spec1 c (Ve1 m c))
      ⊢ (|={Set.univ}=> iprop(StableHlo.held (c : Thread nD τ) (Pipeline.ucRefs τ sig) (V4 m (outsB m) c) ∗ E 2 c) : sProp 𝕄) := by
  have hjoin := Shared.held_of_arrays1 c (pdats m 1 c) rfl rfl rfl rfl rfl rfl (V3 m (outsA m) c) (V4 m (outsB m) c) ((pdats m 1 c).arrAt · cfg1.N) (hF1 m c) (hrest1 m c)
  iintro ⟨Ha, HO, -, Hrest⟩
  imodintro
  isplitl [Ha Hrest]
  · iapply hjoin; isplitl [Ha] <;> iassumption
  unfold Pipeline.Dat.owesAt Pipeline.owesWithin
  icases HO with ⟨%W, -, HO⟩; iexists W; iexact HO

set_option backward.isDefEq.respectTransparency.types false in
set_option maxHeartbeats 4000000 in
/-- Call 1 as a segment of @main. The accumulators pass through the invariant; nothing is owed; the kernel has no
    semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V3 m (outsB m) c) ∗ E 1 c)
  post c := iprop(StableHlo.held (c : Thread nD τ) (Pipeline.ucRefs τ sig) (V4 m (outsB m) c) ∗ E 2 c)
  X c := iprop(emp)
  Y c := iprop(emp)
  Z c := Pipeline.unscopedRest (Ix := Unit) (Name := ℕ) (U := UR sig nD τ) (Lvl := ℕ) spec1 c (Ve1 m c)
  hentry c := hentry1 m c
  hin c := drop2.trans (hin1 (Ve1 m) c)
  hout c := by
    rw [Pipeline.ownSems0_none]
    exact (hout1 (Ve1 m) c).trans emp2
  hexit c := hexit1 m c

/-! ## The launch -/

-- the launch theorem's implicit arguments are found by unifying its conclusion with this one, which takes unfolding plain
-- definitions in a metavariable's type
set_option backward.isDefEq.respectTransparency.types false in
set_option maxHeartbeats 4000000 in
/-- At the compiled mesh, for any float values, from any memory with zero counters: every weakly fair execution of
    @main terminates, nothing faulting, and every final state has the result array at the second call's output after its
    write-backs and every argument array as launched. @main is run as its four items: the first bias viewed as a row,
    the first call, the second bias viewed as a row, the second call. -/
theorem run_valued : θ_run defs (onTc (τ := τ) (main (F := F))) ⟨m, fun _ => 0, ρ⟩ (fun r => ∀ c : Dev nD,
      r.2.mem ((c.tc : Thread nD τ).loc main_v3) = final1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outsB m) 𝒱₀ L lv E () (pdats m) (reg0 m) (reg1 m))
    (fun c Q => by
      rewrite [main_chain c, Pipeline.Seg.run_eq_chain,
        show (segs m (outsB m) 𝒱₀ L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ E 0 c))
    (Tₙ := fun c => StableHlo.held (c : Thread nD τ) (Pipeline.ucRefs τ sig) (V4 m (outsB m) c))
    (hch := fun c => ⟨.rfl, .rfl, .rfl, .rfl, .rfl⟩)
    (hinit := ?hinit) (QY := fun c s => s.mem ((c.tc : Thread nD τ).loc main_v3) = final1 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?hfin) (hQ := fun _ h => h)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  case hfin =>
    unfold StableHlo.held
    iintro ⟨Hh, HSI⟩
    ihave Hr := (pointsTo_read_all (Pipeline.ucRefs τ sig) (fun b => ((c : Thread nD τ).1, b)) (V4 m (outsB m) c) s') $$ [Hh HSI]
    · isplitl [Hh] <;> iassumption
    icases Hr with ⟨%h, HSI⟩
    imodintro
    isplitr
    · ipureintro
      exact ⟨(h (Proc.devRef .tc main_v3) (Finset.mem_filter.mpr ⟨StableHlo.devRef_mem_tcRefs main_v3, by decide⟩)).trans (V4_main_v3 m c),
        (h (Proc.devRef .tc main_arg0) (Finset.mem_filter.mpr ⟨StableHlo.devRef_mem_tcRefs main_arg0, by decide⟩)).trans (V4_main_arg0 m (outsB m) c),
        (h (Proc.devRef .tc main_arg1) (Finset.mem_filter.mpr ⟨StableHlo.devRef_mem_tcRefs main_arg1, by decide⟩)).trans (V4_main_arg1 m (outsB m) c),
        (h (Proc.devRef .tc main_arg2) (Finset.mem_filter.mpr ⟨StableHlo.devRef_mem_tcRefs main_arg2, by decide⟩)).trans (V4_main_arg2 m (outsB m) c),
        (h (Proc.devRef .tc main_arg3) (Finset.mem_filter.mpr ⟨StableHlo.devRef_mem_tcRefs main_arg3, by decide⟩)).trans (V4_main_arg3 m (outsB m) c),
        (h (Proc.devRef .tc main_arg4) (Finset.mem_filter.mpr ⟨StableHlo.devRef_mem_tcRefs main_arg4, by decide⟩)).trans (V4_main_arg4 m (outsB m) c),
        (h (Proc.devRef .tc main_arg5) (Finset.mem_filter.mpr ⟨StableHlo.devRef_mem_tcRefs main_arg5, by decide⟩)).trans (V4_main_arg5 m (outsB m) c),
        (h (Proc.devRef .tc main_arg6) (Finset.mem_filter.mpr ⟨StableHlo.devRef_mem_tcRefs main_arg6, by decide⟩)).trans (V4_main_arg6 m (outsB m) c),
        (h (Proc.devRef .tc main_arg7) (Finset.mem_filter.mpr ⟨StableHlo.devRef_mem_tcRefs main_arg7, by decide⟩)).trans (V4_main_arg7 m (outsB m) c)⟩
    · iexact HSI

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_valued m ρ)

end Cert.Kernel.Fr

end
-- ==== Proof.Val0Pieces.lean ====
/-
  What the first layer's kernel body leaves behind at one grid point, as values.

  The body keeps two running totals for the destination tile it is working on: the neighbour sum (512 × 128) and the
  in-degree (512 × 1). At the first source tile both are stored as zero and read back; at every tile the tile's
  contribution is added to them; at the last source tile the output block is computed from the two totals just stored
  and stored once. Each buffer is written through its whole rectangle, so what a buffer holds after the body is the
  value of the last store into it, and a load that follows a store reads that store's value.
-/
import proofs.«128498_g58506044506625_cont_9to1_m_1050_1_alg».proof.Proof.Fr0Body
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of every load and store of the body, as a function. -/
theorem hz : (![0, 0] : Fin 2 → Nat) = fun _ => 0 := funext fun a => by fin_cases a <;> rfl

/-! ## What each case leaves, as the body's stored values

At the first source tile the two running totals are stored as zero and read back before the tile is added; at the
other tiles the tile is added to what the point before left; at the last tile the output block is then computed from
the two totals just stored (they are read back before the output is stored) and from the destination block, the two
weight matrices and the bias row. -/

theorem sout_A_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x128) hz, View.readCov_unit_zero (S := S512x128) _ hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem sout_A_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x512 .f32) (x1 x2 : Vec F S512x128 .f32) (x3 x4 : Vec F S128x128 .f32) (x5 : Vec F S1x128 .f32) :
    sout0_A_1 c i arg2 harg2 arg3 harg3 arg4 harg4 arg5 harg5 arg6 harg6 arg7 harg7 arg8 harg8 arg9 harg9 arg10 harg10 hc0 hc1 x0 x1 x2 x3 x4 x5 = k0_pay5 x0 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem sout_B_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero (S := S512x128) hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem sout_B_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x512 .f32) (x1 x2 : Vec F S512x128 .f32) (x3 x4 : Vec F S128x128 .f32) (x5 : Vec F S1x128 .f32) (xs0 : Vec F S512x128 .f32) (xs1 : Vec F S512x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay5 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero (S := S512x1) hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem sout_C_0 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S512x128) hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem sout_C_1 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay5 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

theorem out_C_6 (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x512 .f32) (x1 x2 : Vec F S512x128 .f32) (x3 x4 : Vec F S128x128 .f32) (x5 : Vec F S1x128 .f32) (xs0 : Vec F S512x128 .f32) (xs1 : Vec F S512x1 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay6 (k0_pay5 x0 xs1) (k0_pay4 x0 x1 xs0) x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S512x128) hz, View.readCov_unit_zero (S := S512x1) _ hz,
    View.readCov_unit_zero (S := S512x128) _ hz]
  simp only [View.readAt_eq_ld, harg2.read_unread, harg3.read_unread, harg4.read_unread, harg5.read_unread, harg6.read_unread, harg7.read_unread, harg9.read_unread, harg10.read_unread, View.ld_unit_zero (S := S512x512) hz, View.ld_unit_zero (S := S512x128) hz, View.ld_unit_zero (S := S512x1) hz, View.ld_unit_zero (S := S128x128) hz, View.ld_unit_zero (S := S1x128) hz]

end Cert.KernelIdeal.Val

end
-- ==== Proof.LibTileSum.lean ====
/-
  Summing by tiles. A sum over n·k consecutive positions is the sum, over the n tiles of k positions, of the tiles'
  sums; and a running total that starts at zero and adds one tile's sum at each step holds, after n steps, the sum of
  the first n tiles' sums. Both use only that addition is commutative and associative, so they hold on the extended
  reals with no finiteness assumption.
-/
import Idealize.ShloMosaic.PureOps.Ideal

namespace Cert.Bridge

open scoped BigOperators

variable {M : Type*} [AddCommMonoid M]

/-- Over the naturals: the tiles' sums, summed, are the sum over all n·k positions. -/
theorem sum_tiles_nat (n k : ℕ) (F : ℕ → M) :
    ∑ t ∈ Finset.range n, ∑ r ∈ Finset.range k, F (k * t + r) = ∑ i ∈ Finset.range (n * k), F i := by
  induction n with
  | zero => simp
  | succ n ih =>
    rw [Finset.sum_range_succ, ih, Nat.succ_mul, Finset.sum_range_add, Nat.mul_comm k n]

/-- Over finite index types: position r of tile t is index k·t + r, however that index is spelt. -/
theorem sum_tiles_fin (n k : ℕ) (f : Fin (n * k) → M) (idx : Fin n → Fin k → Fin (n * k))
    (hidx : ∀ t r, (idx t r).val = k * t.val + r.val) :
    ∑ t : Fin n, ∑ r : Fin k, f (idx t r) = ∑ i : Fin (n * k), f i := by
  rw [← Equiv.sum_comp finProdFinEquiv f, Fintype.sum_prod_type]
  refine Finset.sum_congr rfl fun t _ => Finset.sum_congr rfl fun r _ => congrArg f (Fin.ext ?_)
  rw [hidx]
  show k * t.val + r.val = r.val + k * t.val
  exact Nat.add_comm _ _

/-- The 2048 positions as 8 tiles of 256. -/
theorem sum_eight_tiles (f : Fin 2048 → M) (idx : Fin 8 → Fin 256 → Fin 2048)
    (hidx : ∀ t r, (idx t r).val = 256 * t.val + r.val) :
    ∑ t : Fin 8, ∑ r : Fin 256, f (idx t r) = ∑ i : Fin 2048, f i :=
  sum_tiles_fin 8 256 f idx hidx

/-- A running total: zero before the first tile, and each step adds that tile's sum to what the step before left. -/
def runAcc (T : ℕ → M) : ℕ → M
  | 0 => 0
  | t + 1 => runAcc T t + T t

theorem runAcc_zero (T : ℕ → M) : runAcc T 0 = 0 := rfl
theorem runAcc_succ (T : ℕ → M) (t : ℕ) : runAcc T (t + 1) = runAcc T t + T t := rfl

/-- After n steps the running total is the sum of the first n tiles' sums. -/
theorem runAcc_eq_sum (T : ℕ → M) (n : ℕ) : runAcc T n = ∑ t ∈ Finset.range n, T t := by
  induction n with
  | zero => simp [runAcc]
  | succ n ih => rw [runAcc_succ, ih, Finset.sum_range_succ]

/-- The same with the tiles indexed by a finite type. -/
theorem runAcc_eq_sum_fin (n : ℕ) (T : ℕ → M) (T' : Fin n → M) (h : ∀ t : Fin n, T t.val = T' t) :
    runAcc T n = ∑ t : Fin n, T' t := by
  rw [runAcc_eq_sum, Finset.sum_range]
  exact Finset.sum_congr rfl fun t _ => h t

/-- Eight tiles of 256 accumulated one after the other from zero, in the nesting the steps produce, are the whole sum
    over the 2048 positions. -/
theorem eight_tiles_nested (f : Fin 2048 → M) (idx : Fin 8 → Fin 256 → Fin 2048)
    (hidx : ∀ t r, (idx t r).val = 256 * t.val + r.val) :
    ((((((((0 : M) + ∑ r : Fin 256, f (idx 0 r)) + ∑ r : Fin 256, f (idx 1 r)) + ∑ r : Fin 256, f (idx 2 r))
        + ∑ r : Fin 256, f (idx 3 r)) + ∑ r : Fin 256, f (idx 4 r)) + ∑ r : Fin 256, f (idx 5 r))
        + ∑ r : Fin 256, f (idx 6 r)) + ∑ r : Fin 256, f (idx 7 r)
      = ∑ i : Fin 2048, f i := by
  rw [← sum_eight_tiles f idx hidx, Fin.sum_univ_eight, zero_add]

/-- The running total over the eight tiles of 256 is the whole sum over the 2048 positions. -/
theorem runAcc_eight_tiles (f : Fin 2048 → M) (T : ℕ → M) (idx : Fin 8 → Fin 256 → Fin 2048)
    (hidx : ∀ t r, (idx t r).val = 256 * t.val + r.val) (hT : ∀ t : Fin 8, T t.val = ∑ r : Fin 256, f (idx t r)) :
    runAcc T 8 = ∑ i : Fin 2048, f i := by
  rw [runAcc_eq_sum_fin 8 T (fun t => ∑ r : Fin 256, f (idx t r)) hT]
  exact sum_eight_tiles f idx hidx

end Cert.Bridge
-- ==== Proof.Spec.lean ====
/-
  Two-layer mean-aggregator GraphSAGE over a dense adjacency matrix, on the extended reals, index by index.

  For an adjacency matrix `g` (`g (i, j)` weighs the edge from source `i` to destination `j`), features `h` of the
  4096 nodes, a self matrix `ws`, a neighbour matrix `wn` and a bias `b`, one layer sends destination `r` to

      h r · ws + (N r / max (d r) 1) · wn + b,      N r = ∑ i, g (i, r) · h i,     d r = ∑ i, g (i, r),

  optionally clamped below at zero. Here the 4096 sources are visited as 8 tiles of 512: the neighbour sum `N r` and
  the in-degree `d r` are running totals that start at zero and add one tile's partial sum per step, and the
  normalisation is written as a product with the reciprocal `1 / max (d r) 1`.
-/
import Idealize.ShloMosaic.Lib.ValueIdx
import Idealize.ShloMosaic.PureOps.Ideal
import proofs.«128498_g58506044506625_cont_9to1_m_1050_1_alg».proof.Proof.LibTileSum

noncomputable section

namespace Cert.Sage

open Idealize.ShloMosaic Idealize.ShloMosaic.ValueIdx
open scoped BigOperators

/-- Source node `s` of tile `i`: node `512 · i + s`. -/
def srcRow (i : ℕ) (hi : i < 8) (s : Fin 512) : Fin 4096 := ⟨512 * i + s.val, by omega⟩

/-- Tile `i`'s part of the neighbour sum of destination `r` at feature `k`: the sum over the tile's 512 sources
    of edge weight times source feature (zero past the eighth tile). -/
def accTile (g : FVec Ideal ⟨2, ![4096, 4096]⟩ .f32) (h : FVec Ideal ⟨2, ![4096, 128]⟩ .f32) (r : Fin 4096) (k : Fin 128)
    (i : ℕ) : EReal :=
  if hi : i < 8 then ∑ s : Fin 512, g (ix2 (srcRow i hi s) r) * h (ix2 (srcRow i hi s) k) else 0

/-- Tile `i`'s part of the in-degree of destination `r`: the sum over the tile's sources of edge weight times one. -/
def degTile (g : FVec Ideal ⟨2, ![4096, 4096]⟩ .f32) (r : Fin 4096) (i : ℕ) : EReal :=
  if hi : i < 8 then ∑ s : Fin 512, g (ix2 (srcRow i hi s) r) * Ideal.ofBits .bf16 0x3F80#16 else 0

/-- The neighbour sum of destination `r` at feature `k` after the first `n` tiles. -/
def accUpTo (g : FVec Ideal ⟨2, ![4096, 4096]⟩ .f32) (h : FVec Ideal ⟨2, ![4096, 128]⟩ .f32) (r : Fin 4096) (k : Fin 128)
    (n : ℕ) : EReal :=
  Cert.Bridge.runAcc (accTile g h r k) n

/-- The in-degree of destination `r` after the first `n` tiles. -/
def degUpTo (g : FVec Ideal ⟨2, ![4096, 4096]⟩ .f32) (r : Fin 4096) (n : ℕ) : EReal :=
  Cert.Bridge.runAcc (degTile g r) n

/-- The mean of the neighbours' features: the neighbour sum times the reciprocal of the in-degree clamped below at one. -/
def neighAt (g : FVec Ideal ⟨2, ![4096, 4096]⟩ .f32) (h : FVec Ideal ⟨2, ![4096, 128]⟩ .f32) (r : Fin 4096) (k : Fin 128) : EReal :=
  accUpTo g h r k 8 * Ideal.div (Ideal.ofBits .f32 0x3F800000#32) (max (degUpTo g r 8) (Ideal.ofBits .f32 0x3F800000#32))

/-- One layer before the optional clamp, at destination `r` and output feature `q`. -/
def preAt {N : ℕ} (g : FVec Ideal ⟨2, ![4096, 4096]⟩ .f32) (h : FVec Ideal ⟨2, ![4096, 128]⟩ .f32)
    (ws wn : FVec Ideal ⟨2, ![128, N]⟩ .f32) (b : FVec Ideal ⟨1, ![N]⟩ .f32) (r : Fin 4096) (q : Fin N) : EReal :=
  ((∑ k : Fin 128, h (ix2 r k) * ws (ix2 k q)) + ∑ k : Fin 128, neighAt g h r k * wn (ix2 k q)) + b (ix1 q)

/-- The first layer (clamped below at zero) as a whole array. -/
def layer1 (g : FVec Ideal ⟨2, ![4096, 4096]⟩ .f32) (h : FVec Ideal ⟨2, ![4096, 128]⟩ .f32)
    (ws wn : FVec Ideal ⟨2, ![128, 128]⟩ .f32) (b : FVec Ideal ⟨1, ![128]⟩ .f32) : FVec Ideal ⟨2, ![4096, 128]⟩ .f32 :=
  fun i => max (preAt g h ws wn b (i 0) (i 1)) (Ideal.ofBits .f32 0x00000000#32)

/-- The second layer (no clamp) as a whole array. -/
def layer2 (g : FVec Ideal ⟨2, ![4096, 4096]⟩ .f32) (h : FVec Ideal ⟨2, ![4096, 128]⟩ .f32)
    (ws wn : FVec Ideal ⟨2, ![128, 64]⟩ .f32) (b : FVec Ideal ⟨1, ![64]⟩ .f32) : FVec Ideal ⟨2, ![4096, 64]⟩ .f32 :=
  fun i => preAt g h ws wn b (i 0) (i 1)

/-- The two layers composed: the network's output from its eight arguments. -/
def network (x : FVec Ideal ⟨2, ![4096, 128]⟩ .f32) (g : FVec Ideal ⟨2, ![4096, 4096]⟩ .f32)
    (ws1 wn1 : FVec Ideal ⟨2, ![128, 128]⟩ .f32) (b1 : FVec Ideal ⟨1, ![128]⟩ .f32)
    (ws2 wn2 : FVec Ideal ⟨2, ![128, 64]⟩ .f32) (b2 : FVec Ideal ⟨1, ![64]⟩ .f32) : FVec Ideal ⟨2, ![4096, 64]⟩ .f32 :=
  layer2 g (layer1 g x ws1 wn1 b1) ws2 wn2 b2

end Cert.Sage

end
-- ==== Proof.Val0Blocks.lean ====
/-
  The blocks the first layer's kernel reads at a grid point, as entries of the arrays.

  The adjacency matrix is cut into 8 × 8 blocks of 512 × 512 and the feature matrix into 8 row blocks of 512 × 128.
  At the point for destination tile `j` and source tile `i` the kernel sees the adjacency block (i, j), the feature
  rows of tile `i` (sources) and of tile `j` (destinations), and the two weight matrices and the bias row whole.
  Here each of these blocks is read at one index as the array's entry at row `512 · tile + offset`.
-/
import proofs.«128498_g58506044506625_cont_9to1_m_1050_1_alg».proof.Proof.Fr0Body
import proofs.«128498_g58506044506625_cont_9to1_m_1050_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Which block each window holds at a point

The grid is 8 × 8: point `t = 8 · j + i` works on destination tile `j` with source tile `i`. The adjacency window's
block is (source tile, destination tile); the source-feature window's block is the source tile's rows, the
destination-feature window's and the output window's the destination tile's rows; the two weight matrices and the
bias row are whole arrays. A block's coordinate in its array is always block index × block size + the coordinate
inside the block; row `s` of tile `i` is row `512 · i + s` of the array. -/

theorem idx0_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = t.val / 8 ∧ win0_6.index t 1 = 0 :=
  (by decide +kernel : ∀ t : Fin grid0.N, win0_6.index t 0 = t.val / 8 ∧ win0_6.index t 1 = 0)

/-- The adjacency block: sources of tile `i`, destinations of tile `j`. -/
theorem iblk0_0_apply (c : Dev nD) (t : Fin cfg0.N) (j i : ℕ) (hj : j < 8) (hi : i < 8) (ht : t.val = 8 * j + i) (a b : Fin 512) :
    (iblk0 V c 0 t : Vec F S512x512 .f32) (ix2 a b)
      = (V c main_arg1 : Vec F S4096x4096 .f32) (ix2 (Cert.Sage.srcRow i hi a) (Cert.Sage.srcRow j hj b)) := by
  have hx := idx0_0 t
  unfold iblk0
  rw [View.read_apply]
  refine congrArg (V c main_arg1) (funext fun d => Fin.ext ?_)
  match d with
  | ⟨0, _⟩ => show win0_0.index t 0 * 512 + 1 * a.val = 512 * i + a.val; rw [hx.1, ht]; omega
  | ⟨1, _⟩ => show win0_0.index t 1 * 512 + 1 * b.val = 512 * j + b.val; rw [hx.2, ht]; omega

/-- The source-feature block: the rows of source tile `i`. -/
theorem iblk0_1_apply (c : Dev nD) (t : Fin cfg0.N) (j i : ℕ) (hj : j < 8) (hi : i < 8) (ht : t.val = 8 * j + i) (a : Fin 512) (k : Fin 128) :
    (iblk0 V c 1 t : Vec F S512x128 .f32) (ix2 a k)
      = (V c main_arg0 : Vec F S4096x128 .f32) (ix2 (Cert.Sage.srcRow i hi a) k) := by
  have hx := idx0_1 t
  unfold iblk0
  rw [View.read_apply]
  refine congrArg (V c main_arg0) (funext fun d => Fin.ext ?_)
  match d with
  | ⟨0, _⟩ => show win0_1.index t 0 * 512 + 1 * a.val = 512 * i + a.val; rw [hx.1, ht]; omega
  | ⟨1, _⟩ => show win0_1.index t 1 * 128 + 1 * k.val = k.val; rw [hx.2]; omega

/-- The destination-feature block: the rows of destination tile `j`. -/
theorem iblk0_2_apply (c : Dev nD) (t : Fin cfg0.N) (j i : ℕ) (hj : j < 8) (hi : i < 8) (ht : t.val = 8 * j + i) (a : Fin 512) (k : Fin 128) :
    (iblk0 V c 2 t : Vec F S512x128 .f32) (ix2 a k)
      = (V c main_arg0 : Vec F S4096x128 .f32) (ix2 (Cert.Sage.srcRow j hj a) k) := by
  have hx := idx0_2 t
  unfold iblk0
  rw [View.read_apply]
  refine congrArg (V c main_arg0) (funext fun d => Fin.ext ?_)
  match d with
  | ⟨0, _⟩ => show win0_2.index t 0 * 512 + 1 * a.val = 512 * j + a.val; rw [hx.1, ht]; omega
  | ⟨1, _⟩ => show win0_2.index t 1 * 128 + 1 * k.val = k.val; rw [hx.2]; omega

/-- The self weight matrix, whole. -/
theorem iblk0_3_apply (c : Dev nD) (t : Fin cfg0.N) (j i : ℕ) (hj : j < 8) (hi : i < 8) (ht : t.val = 8 * j + i) (k q : Fin 128) :
    (iblk0 V c 3 t : Vec F S128x128 .f32) (ix2 k q)
      = (V c main_arg2 : Vec F S128x128 .f32) (ix2 k q) := by
  have hx := idx0_3 t
  unfold iblk0
  rw [View.read_apply]
  refine congrArg (V c main_arg2) (funext fun d => Fin.ext ?_)
  match d with
  | ⟨0, _⟩ => show win0_3.index t 0 * 128 + 1 * k.val = k.val; rw [hx.1]; omega
  | ⟨1, _⟩ => show win0_3.index t 1 * 128 + 1 * q.val = q.val; rw [hx.2]; omega

/-- The neighbour weight matrix, whole. -/
theorem iblk0_4_apply (c : Dev nD) (t : Fin cfg0.N) (j i : ℕ) (hj : j < 8) (hi : i < 8) (ht : t.val = 8 * j + i) (k q : Fin 128) :
    (iblk0 V c 4 t : Vec F S128x128 .f32) (ix2 k q)
      = (V c main_arg3 : Vec F S128x128 .f32) (ix2 k q) := by
  have hx := idx0_4 t
  unfold iblk0
  rw [View.read_apply]
  refine congrArg (V c main_arg3) (funext fun d => Fin.ext ?_)
  match d with
  | ⟨0, _⟩ => show win0_4.index t 0 * 128 + 1 * k.val = k.val; rw [hx.1]; omega
  | ⟨1, _⟩ => show win0_4.index t 1 * 128 + 1 * q.val = q.val; rw [hx.2]; omega

/-- The bias row, whole. -/
theorem iblk0_5_apply (c : Dev nD) (t : Fin cfg0.N) (j i : ℕ) (hj : j < 8) (hi : i < 8) (ht : t.val = 8 * j + i) (z : Fin 1) (q : Fin 128) :
    (iblk0 V c 5 t : Vec F S1x128 .f32) (ix2 z q)
      = (V c main_v0 : Vec F S1x128 .f32) (ix2 z q) := by
  have hx := idx0_5 t
  unfold iblk0
  rw [View.read_apply]
  refine congrArg (V c main_v0) (funext fun d => Fin.ext ?_)
  match d with
  | ⟨0, _⟩ => show win0_5.index t 0 * 1 + 1 * z.val = z.val; rw [hx.1]; omega
  | ⟨1, _⟩ => show win0_5.index t 1 * 128 + 1 * q.val = q.val; rw [hx.2]; omega

end Cert.KernelIdeal.Val

end
-- ==== Proof.LibContract0.lean ====
/-
  A matrix product that contracts the FIRST axis of both operands, over the extended reals and over arbitrary extents:
  for an `[K, R]` array `g` and an `[K, N]` array `h` the entry `(p, q)` of `gᵀ · h` is `∑ s, g s p · h s q`. Beside it
  the product that contracts the left operand's last axis against the right operand's first, `∑ k, x p k · w k q`, for
  operands of any two float formats (over the extended reals a format is only a label).
-/
import Idealize.ShloMosaic.Lib.Pipeline.Value
import Idealize.ShloMosaic.Lib.ValueIdx
import Idealize.ShloMosaic.Lib.ValueLayout
import Idealize.ShloMosaic.PureOps.Ideal.Laws

noncomputable section

namespace Cert.Contract0

open Idealize.ShloMosaic Idealize.ShloMosaic.ValueIdx

/-- A matrix product into a zero accumulator that contracts axis 0 of both operands, read at `(p, q)`: the sum over
    `s` of `g s p · h s q`. The four hypotheses say which operand coordinates the dimension numbers pick. -/
theorem matmul_cols {K R N : ℕ} {φ₁ φ₂ : FTy} (d : DotDims ⟨2, ![K, R]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (q ⟨0, by omega⟩).val)
    (hl1 : ∀ (j : (⟨2, ![R, N]⟩ : Shape).Idx) (q : d.contr.Idx), (d.lhsIdx j q 1).val = (j 0).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (g : FVec Ideal ⟨2, ![K, R]⟩ φ₁) (h : FVec Ideal ⟨2, ![K, N]⟩ φ₂) (p : Fin R) (q : Fin N) :
    matmul d none g h (constant (F := Ideal) ⟨2, ![R, N]⟩ .f32 0x00000000#32) (ix2 p q) = ∑ s : Fin K, g (ix2 s p) * h (ix2 s q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A matrix product into a zero accumulator, rows times columns with one contracted axis, read at `(p, q)`: the sum
    over `k` of `x p k · w k q`, for operands of any two formats. -/
theorem matmul_rows {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Contract0

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.PayK0.lean ====
/-
  The values layer 1's kernel body stores, read at one index over the extended reals: the zeroed accumulators, the
  neighbour-sum accumulator after one more block (`acc + gᵀ · h`), the in-degree accumulator after one more block
  (`deg + gᵀ · 1`), and the stored output row block `h_dst · ws + (acc · (1 / max(deg, 1))) · wn + b`, clamped below at zero.
-/
import proofs.«128498_g58506044506625_cont_9to1_m_1050_1_alg».proof.Proof.Gen.KernelIdeal.Skeleton
import proofs.«128498_g58506044506625_cont_9to1_m_1050_1_alg».proof.Proof.LibContract0
import proofs.«128498_g58506044506625_cont_9to1_m_1050_1_alg».proof.Proof.LibKeepdims

noncomputable section

namespace Cert.Sage.Pay

open Idealize.ShloMosaic Idealize.ShloMosaic.ValueIdx Cert.KernelIdeal Cert.KernelIdeal.Gen

/-- The zeroed neighbour-sum accumulator reads `0` everywhere. -/
theorem k0_pay1_apply (p : Fin 512) (k : Fin 128) : k0_pay1 (F := Ideal) (ix2 p k) = 0 := by
  unfold k0_pay1
  simp only [shapeCast_self, broadcast_apply]
  exact Ideal.ofBits_zero_f32

/-- The zeroed in-degree accumulator reads `0` everywhere. -/
theorem k0_pay2_apply (p : Fin 512) : k0_pay2 (F := Ideal) (ix2 p (0 : Fin 1)) = 0 := by
  unfold k0_pay2
  simp only [shapeCast_self, broadcast_apply]
  exact Ideal.ofBits_zero_f32

/-- One more block into the neighbour-sum accumulator: entry `(p, k)` gains `∑ s, g s p · h s k`. -/
theorem k0_pay4_apply (g : Vec Ideal S512x512 .f32) (h a : Vec Ideal S512x128 .f32) (p : Fin 512) (k : Fin 128) :
    k0_pay4 (F := Ideal) g h a (ix2 p k) = a (ix2 p k) + ∑ s : Fin 512, g (ix2 s p) * h (ix2 s k) := by
  unfold k0_pay4 k0_pay3
  simp only [shapeCast_self]
  rw [addf_apply, Cert.Contract0.matmul_cols dot_S512x512_S512x128_S512x128_0_0_1_1_n_n rfl rfl
    (fun _ _ => rfl) (fun _ _ => rfl) (fun _ _ => rfl) (fun _ _ => rfl)]
  rfl

/-- One more block into the in-degree accumulator: entry `(p, 0)` gains `∑ s, g s p · 1` (the one as the 16-bit word
    the kernel broadcasts). -/
theorem k0_pay5_apply (g : Vec Ideal S512x512 .f32) (d : Vec Ideal S512x1 .f32) (p : Fin 512) :
    k0_pay5 (F := Ideal) g d (ix2 p (0 : Fin 1))
      = d (ix2 p (0 : Fin 1)) + ∑ s : Fin 512, g (ix2 s p) * Ideal.ofBits .bf16 0x3F80#16 := by
  unfold k0_pay5 k0_pay3
  simp only [shapeCast_self]
  rw [addf_apply, Cert.Contract0.matmul_cols dot_S512x512_S512x1_S512x1_0_0_1_1_n_n rfl rfl
    (fun _ _ => rfl) (fun _ _ => rfl) (fun _ _ => rfl) (fun _ _ => rfl)]
  rfl

/-- The stored output block at `(p, q)`: the destination features times `ws`, plus the neighbour sums scaled by
    `1 / max(deg, 1)` times `wn`, plus the bias, clamped below at zero. -/
theorem k0_pay6_apply (d : Vec Ideal S512x1 .f32) (a hd : Vec Ideal S512x128 .f32) (ws wn : Vec Ideal S128x128 .f32)
    (b : Vec Ideal S1x128 .f32) (p : Fin 512) (q : Fin 128) :
    k0_pay6 (F := Ideal) d a hd ws wn b (ix2 p q)
      = max (((∑ k : Fin 128, hd (ix2 p k) * ws (ix2 k q)) + ∑ k : Fin 128, (a (ix2 p k) * Ideal.div (Ideal.ofBits .f32 0x3F800000#32) (max (d (ix2 p (0 : Fin 1))) (Ideal.ofBits .f32 0x3F800000#32))) * wn (ix2 k q)) + b (ix2 (0 : Fin 1) q)) (Ideal.ofBits .f32 0x00000000#32) := by
  unfold k0_pay6
  simp only [shapeCast_self]
  rw [maximumf_apply, broadcast_apply, addf_apply, addf_apply, broadcastTo_1b_ab_apply,
    Cert.Contract0.matmul_rows dot_S512x128_S128x128_S512x128_1_0_0_1_n_n rfl rfl
      (fun _ _ => rfl) (fun _ _ => rfl) (fun _ _ => rfl) (fun _ _ => rfl),
    Cert.Contract0.matmul_rows dot_S512x128_S128x128_S512x128_1_0_0_1_n_n rfl rfl
      (fun _ _ => rfl) (fun _ _ => rfl) (fun _ _ => rfl) (fun _ _ => rfl)]
  simp only [truncf_apply, mulf_apply, Cert.Keepdims.broadcastTo_a1_ab_apply, divf_apply, maximumf_apply, broadcast_apply]
  rfl

end Cert.Sage.Pay

end
-- ==== Proof.Val0Points.lean ====
/-
  One grid point of the first layer's kernel, as arithmetic on the specification's running totals.

  If the two accumulators hold the neighbour sum and the in-degree of a destination row over the first `i` source
  tiles, then after the body adds source tile `i` they hold them over the first `i + 1` tiles: the running total's
  step. With all eight tiles in, the stored output entry is the specification's first layer at that row. The blocks are
  arbitrary arrays here, tied to the adjacency matrix, the features, the weights and the bias by hypotheses.
-/
import proofs.«128498_g58506044506625_cont_9to1_m_1050_1_alg».proof.Proof.PayK0
import proofs.«128498_g58506044506625_cont_9to1_m_1050_1_alg».proof.Proof.Spec

noncomputable section

namespace Cert.KernelIdeal.Val

open Idealize.ShloMosaic Idealize.ShloMosaic.ValueIdx Cert.KernelIdeal Cert.KernelIdeal.Gen Cert.Sage Cert.Sage.Pay
open scoped BigOperators

/-- Adding source tile `i`'s part to the neighbour sum over the first `i` tiles gives it over the first `i + 1`. -/
theorem acc_step (g : FVec Ideal ⟨2, ![4096, 4096]⟩ .f32) (h : FVec Ideal ⟨2, ![4096, 128]⟩ .f32) (r : Fin 4096)
    (k : Fin 128) (i : ℕ) (hi : i < 8) (a : EReal) (ha : a = accUpTo g h r k i) :
    a + ∑ s : Fin 512, g (ix2 (srcRow i hi s) r) * h (ix2 (srcRow i hi s) k) = accUpTo g h r k (i + 1) := by
  subst ha
  unfold accUpTo
  rw [Cert.Bridge.runAcc_succ]
  unfold accTile
  rw [dif_pos hi]

/-- The same for the in-degree, whose terms are edge weight times the word of one. -/
theorem deg_step (g : FVec Ideal ⟨2, ![4096, 4096]⟩ .f32) (r : Fin 4096) (i : ℕ) (hi : i < 8) (a : EReal)
    (ha : a = degUpTo g r i) :
    a + ∑ s : Fin 512, g (ix2 (srcRow i hi s) r) * Ideal.ofBits .bf16 0x3F80#16 = degUpTo g r (i + 1) := by
  subst ha
  unfold degUpTo
  rw [Cert.Bridge.runAcc_succ]
  unfold degTile
  rw [dif_pos hi]

/-- The neighbour-sum accumulator after the body at destination tile `j`, source tile `i`. -/
theorem acc_point (g : FVec Ideal ⟨2, ![4096, 4096]⟩ .f32) (h : FVec Ideal ⟨2, ![4096, 128]⟩ .f32)
    (j i : ℕ) (hj : j < 8) (hi : i < 8) (X0 : Vec Ideal S512x512 .f32) (X1 : Vec Ideal S512x128 .f32)
    (hX0 : ∀ a b : Fin 512, X0 (ix2 a b) = g (ix2 (srcRow i hi a) (srcRow j hj b)))
    (hX1 : ∀ (a : Fin 512) (k : Fin 128), X1 (ix2 a k) = h (ix2 (srcRow i hi a) k))
    (xs0 : Vec Ideal S512x128 .f32) (p : Fin 512) (k : Fin 128)
    (hxs : xs0 (ix2 p k) = accUpTo g h (srcRow j hj p) k i) :
    k0_pay4 (F := Ideal) X0 X1 xs0 (ix2 p k) = accUpTo g h (srcRow j hj p) k (i + 1) := by
  rw [k0_pay4_apply]
  simp only [hX0, hX1]
  exact acc_step g h (srcRow j hj p) k i hi _ hxs

/-- The in-degree accumulator after the body at destination tile `j`, source tile `i`. -/
theorem deg_point (g : FVec Ideal ⟨2, ![4096, 4096]⟩ .f32) (j i : ℕ) (hj : j < 8) (hi : i < 8)
    (X0 : Vec Ideal S512x512 .f32)
    (hX0 : ∀ a b : Fin 512, X0 (ix2 a b) = g (ix2 (srcRow i hi a) (srcRow j hj b)))
    (xs1 : Vec Ideal S512x1 .f32) (p : Fin 512)
    (hxs : xs1 (ix2 p (0 : Fin 1)) = degUpTo g (srcRow j hj p) i) :
    k0_pay5 (F := Ideal) X0 xs1 (ix2 p (0 : Fin 1)) = degUpTo g (srcRow j hj p) (i + 1) := by
  rw [k0_pay5_apply]
  simp only [hX0]
  exact deg_step g (srcRow j hj p) i hi _ hxs

/-- The stored output entry, from the two totals over all eight source tiles: the specification's first layer. -/
theorem out_point (g : FVec Ideal ⟨2, ![4096, 4096]⟩ .f32) (h : FVec Ideal ⟨2, ![4096, 128]⟩ .f32)
    (ws wn : FVec Ideal ⟨2, ![128, 128]⟩ .f32) (b : FVec Ideal ⟨1, ![128]⟩ .f32) (j : ℕ) (hj : j < 8)
    (X2 : Vec Ideal S512x128 .f32) (X3 X4 : Vec Ideal S128x128 .f32) (X5 : Vec Ideal S1x128 .f32)
    (hX2 : ∀ (a : Fin 512) (k : Fin 128), X2 (ix2 a k) = h (ix2 (srcRow j hj a) k))
    (hX3 : ∀ k q : Fin 128, X3 (ix2 k q) = ws (ix2 k q)) (hX4 : ∀ k q : Fin 128, X4 (ix2 k q) = wn (ix2 k q))
    (hX5 : ∀ q : Fin 128, X5 (ix2 (0 : Fin 1) q) = b (ix1 q))
    (d : Vec Ideal S512x1 .f32) (a : Vec Ideal S512x128 .f32) (p : Fin 512) (q : Fin 128)
    (hd : d (ix2 p (0 : Fin 1)) = degUpTo g (srcRow j hj p) 8)
    (ha : ∀ k : Fin 128, a (ix2 p k) = accUpTo g h (srcRow j hj p) k 8) :
    k0_pay6 (F := Ideal) d a X2 X3 X4 X5 (ix2 p q) = layer1 g h ws wn b (ix2 (srcRow j hj p) q) := by
  rw [k0_pay6_apply]
  simp only [hd, ha, hX2, hX3, hX4, hX5]
  rfl

end Cert.KernelIdeal.Val

end
-- ==== Proof.Val0.lean ====
/-
  The first layer's call, block by block. Along the eight source tiles of a destination tile the two accumulators
  hold the specification's running totals — the neighbour sum and the in-degree over the tiles seen so far —, and at
  the last source tile the stored output block is the destination tile's rows of the specification's first layer,
  clamp at zero included.
-/
import proofs.«128498_g58506044506625_cont_9to1_m_1050_1_alg».proof.Proof.Val0Pieces
import proofs.«128498_g58506044506625_cont_9to1_m_1050_1_alg».proof.Proof.Val0Blocks
import proofs.«128498_g58506044506625_cont_9to1_m_1050_1_alg».proof.Proof.Val0Points

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sage Cert.Sage.Pay

variable (V : (c : Dev nD) → (b : Ref sig .tc) → Buf (Elt Ideal) ((c : Thread nD τ).loc b))

/-- What the body leaves at a position does not depend on how the position is written. -/
theorem outsAt0_congr (c : Dev nD) {n n' : ℕ} (e : n = n') (hn : n < cfg0.N) (hn' : n' < cfg0.N) :
    outsAt0 V c n hn = outsAt0 V c n' hn' := by
  subst e; rfl

/-- The grid has 64 points. -/
theorem N0_eq : cfg0.N = 64 := by decide

/-- THE RUNNING TOTALS. After the body at destination tile `j`, source tile `i`, row `p` of the neighbour-sum
    accumulator holds the neighbour sum of destination `512 · j + p` over the first `i + 1` source tiles, and row `p`
    of the in-degree accumulator its in-degree over them: at the first tile from zero, then one tile more per point. -/
theorem totals0 (c : Dev nD) (j : ℕ) (hj : j < 8) : ∀ (i : ℕ) (hi : i < 8) (hn : 8 * j + i < cfg0.N) (p : Fin 512),
    (∀ k : Fin 128, (outsAt0 V c (8 * j + i) hn).2.1 (ix2 p k)
        = accUpTo (V c main_arg1) (V c main_arg0) (srcRow j hj p) k (i + 1))
      ∧ (outsAt0 V c (8 * j + i) hn).2.2 (ix2 p (0 : Fin 1)) = degUpTo (V c main_arg1) (srcRow j hj p) (i + 1)
  | 0, hi, hn, p => by
    have h0 : (⟨8 * j + 0, hn⟩ : Fin cfg0.N).val % 8 = 0 := by show (8 * j + 0) % 8 = 0; omega
    have h1 : ¬(⟨8 * j + 0, hn⟩ : Fin cfg0.N).val % 8 = 7 := by show ¬(8 * j + 0) % 8 = 7; omega
    have e := outsAt0_A V c ⟨8 * j + 0, hn⟩ h0 h1
    have hX0 := fun a b : Fin 512 => iblk0_0_apply V c ⟨8 * j + 0, hn⟩ j 0 hj hi rfl a b
    have hX1 := fun (a : Fin 512) (k : Fin 128) => iblk0_1_apply V c ⟨8 * j + 0, hn⟩ j 0 hj hi rfl a k
    constructor
    · intro k
      rw [show (outsAt0 V c (8 * j + 0) hn).2.1 = _ from congrArg (fun x => x.2.1) e]
      dsimp only
      rw [sout_A_0]
      exact acc_point _ _ j 0 hj hi _ _ hX0 hX1 _ p k ((k0_pay1_apply p k).trans rfl)
    · rw [show (outsAt0 V c (8 * j + 0) hn).2.2 = _ from congrArg (fun x => x.2.2) e]
      dsimp only
      rw [sout_A_1]
      exact deg_point _ j 0 hj hi _ hX0 _ p ((k0_pay2_apply p).trans rfl)
  | i + 1, hi, hn, p => by
    have hn' : 8 * j + i < cfg0.N := by omega
    have ih := totals0 c j hj i (by omega) hn' p
    have ep : outsAt0 V c ((⟨8 * j + (i + 1), hn⟩ : Fin cfg0.N).val - 1) (Nat.lt_of_le_of_lt (Nat.sub_le _ _) hn)
        = outsAt0 V c (8 * j + i) hn' := outsAt0_congr V c (by show 8 * j + (i + 1) - 1 = 8 * j + i; omega) _ _
    have h0 : ¬(⟨8 * j + (i + 1), hn⟩ : Fin cfg0.N).val % 8 = 0 := by show ¬(8 * j + (i + 1)) % 8 = 0; omega
    have hX0 := fun a b : Fin 512 => iblk0_0_apply V c ⟨8 * j + (i + 1), hn⟩ j (i + 1) hj hi rfl a b
    have hX1 := fun (a : Fin 512) (k : Fin 128) => iblk0_1_apply V c ⟨8 * j + (i + 1), hn⟩ j (i + 1) hj hi rfl a k
    by_cases h1 : (⟨8 * j + (i + 1), hn⟩ : Fin cfg0.N).val % 8 = 7
    · have e := outsAt0_C V c ⟨8 * j + (i + 1), hn⟩ h0 h1
      rw [ep] at e
      constructor
      · intro k
        rw [show (outsAt0 V c (8 * j + (i + 1)) hn).2.1 = _ from congrArg (fun x => x.2.1) e]
        dsimp only
        rw [sout_C_0]
        exact acc_point _ _ j (i + 1) hj hi _ _ hX0 hX1 _ p k (ih.1 k)
      · rw [show (outsAt0 V c (8 * j + (i + 1)) hn).2.2 = _ from congrArg (fun x => x.2.2) e]
        dsimp only
        rw [sout_C_1]
        exact deg_point _ j (i + 1) hj hi _ hX0 _ p ih.2
    · have e := outsAt0_B V c ⟨8 * j + (i + 1), hn⟩ h0 h1
      rw [ep] at e
      constructor
      · intro k
        rw [show (outsAt0 V c (8 * j + (i + 1)) hn).2.1 = _ from congrArg (fun x => x.2.1) e]
        dsimp only
        rw [sout_B_0]
        exact acc_point _ _ j (i + 1) hj hi _ _ hX0 hX1 _ p k (ih.1 k)
      · rw [show (outsAt0 V c (8 * j + (i + 1)) hn).2.2 = _ from congrArg (fun x => x.2.2) e]
        dsimp only
        rw [sout_B_1]
        exact deg_point _ j (i + 1) hj hi _ hX0 _ p ih.2

/-- THE OUTPUT BLOCKS. At the last source tile of destination tile `j` the body stores, as the output block, rows
    `512 · j …` of the specification's first layer (clamped below at zero) of the adjacency matrix, the node features,
    the two weight matrices and the bias (the bias row the kernel reads being the bias vector viewed as one row). -/
theorem blocks0 (c : Dev nD) (b : FVec Ideal ⟨1, ![128]⟩ .f32)
    (hb : ∀ q : Fin 128, V c main_v0 (ix2 (0 : Fin 1) q) = b (ix1 q)) :
    ∀ t : Fin cfg0.N, t.val % 8 = 7 →
      (outsAt0 V c t.val t.isLt).1 = ((cfg0.win 6).blk t).view.read (Elt Ideal)
        (layer1 (V c main_arg1) (V c main_arg0) (V c main_arg2) (V c main_arg3) b) := by
  intro t h7
  have htlt : t.val < 64 := N0_eq ▸ t.isLt
  have hj : t.val / 8 < 8 := by omega
  have hi : 7 < 8 := by omega
  have ht : t.val = 8 * (t.val / 8) + 7 := by omega
  have h0 : ¬t.val % 8 = 0 := by omega
  have hn' : 8 * (t.val / 8) + 6 < cfg0.N := by show _ < 64; omega
  have e := outsAt0_C V c t h0 h7
  have ep : outsAt0 V c (t.val - 1) (Nat.lt_of_le_of_lt (Nat.sub_le _ _) t.isLt)
      = outsAt0 V c (8 * (t.val / 8) + 6) hn' := outsAt0_congr V c (by omega) _ _
  rw [ep] at e
  rw [show (outsAt0 V c t.val t.isLt).1 = _ from congrArg (fun x => x.1) e]
  dsimp only
  rw [out_C_6]
  have hx := idx0_6 t
  have hX0 := fun a b : Fin 512 => iblk0_0_apply V c t (t.val / 8) 7 hj hi ht a b
  have hX1 := fun (a : Fin 512) (k : Fin 128) => iblk0_1_apply V c t (t.val / 8) 7 hj hi ht a k
  have hX2 := fun (a : Fin 512) (k : Fin 128) => iblk0_2_apply V c t (t.val / 8) 7 hj hi ht a k
  have hX3 := fun (k : Fin 128) (q : Fin 128) => iblk0_3_apply V c t (t.val / 8) 7 hj hi ht k q
  have hX4 := fun (k : Fin 128) (q : Fin 128) => iblk0_4_apply V c t (t.val / 8) 7 hj hi ht k q
  have hX5 := fun q : Fin 128 => (iblk0_5_apply V c t (t.val / 8) 7 hj hi ht (0 : Fin 1) q).trans (hb q)
  funext y
  obtain ⟨p, q, rfl⟩ : ∃ (p : Fin 512) (q : Fin 128), y = ix2 p q := ⟨y 0, y 1, eq_ix2 y⟩
  have ih := totals0 V c (t.val / 8) hj 6 (by omega) hn' p
  rw [View.read_apply]
  have hemb : ((cfg0.win 6).blk t).view.emb (ix2 p q) = ix2 (srcRow (t.val / 8) hj p) q := funext fun d => Fin.ext (by
    match d with
    | ⟨0, _⟩ => show win0_6.index t 0 * 512 + 1 * p.val = 512 * (t.val / 8) + p.val; rw [hx.1]; omega
    | ⟨1, _⟩ => show win0_6.index t 1 * 128 + 1 * q.val = q.val; rw [hx.2]; omega)
  rw [hemb]
  exact out_point _ _ _ _ b (t.val / 8) hj _ _ _ _ hX2 hX3 hX4 hX5 _ _ p q
    (deg_point _ (t.val / 8) 7 hj hi _ hX0 _ p ih.2)
    (fun k => acc_point _ _ (t.val / 8) 7 hj hi _ _ hX0 hX1 _ p k (ih.1 k))

end Cert.KernelIdeal.Val

end
-- ==== Proof.Val1Pieces.lean ====
/-
  What the second layer's kernel body leaves behind at one grid point, as values.

  The body keeps two running totals for the destination tile it is working on: the neighbour sum (512 × 128) and the
  in-degree (512 × 1). At the first source tile both are stored as zero and read back; at every tile the tile's
  contribution is added to them; at the last source tile the output block is computed from the two totals just stored
  and stored once. Each buffer is written through its whole rectangle, so what a buffer holds after the body is the
  value of the last store into it, and a load that follows a store reads that store's value.
-/
import proofs.«128498_g58506044506625_cont_9to1_m_1050_1_alg».proof.Proof.Fr1Body
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of every load and store of the body, as a function. -/
theorem hz1 : (![0, 0] : Fin 2 → Nat) = fun _ => 0 := funext fun a => by fin_cases a <;> rfl

/-! ## What each case leaves, as the body's stored values

At the first source tile the two running totals are stored as zero and read back before the tile is added; at the
other tiles the tile is added to what the point before left; at the last tile the output block is then computed from
the two totals just stored (they are read back before the output is stored) and from the destination block, the two
weight matrices and the bias row. -/

theorem sout_A_0_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) :
    sout1_A_0 c i arg2 harg2 arg3 harg3 arg4 harg4 arg5 harg5 arg6 harg6 arg7 harg7 arg8 harg8 arg9 harg9 arg10 harg10 hc0 hc1 x0 x1 x2 x3 x4 x5 = k1_pay4 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S512x128) hz1, View.readCov_unit_zero (S := S512x128) _ hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem sout_A_1_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : cond1_0 i) (hc1 : ¬cond1_1 i) (x0 : Vec F S512x512 .f32) (x1 x2 : Vec F S512x128 .f32) (x3 x4 : Vec F S128x64 .f32) (x5 : Vec F S1x64 .f32) :
    sout1_A_1 c i arg2 harg2 arg3 harg3 arg4 harg4 arg5 harg5 arg6 harg6 arg7 harg7 arg8 harg8 arg9 harg9 arg10 harg10 hc0 hc1 x0 x1 x2 x3 x4 x5 = k1_pay5 x0 (k1_pay2 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S512x1) hz1, View.readCov_unit_zero (S := S512x1) _ hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem sout_B_0_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) :
    sout1_B_0 c i arg2 harg2 arg3 harg3 arg4 harg4 arg5 harg5 arg6 harg6 arg7 harg7 arg8 harg8 arg9 harg9 arg10 harg10 hc0 hc1 x0 x1 x2 x3 x4 x5 xs0 xs1 = k1_pay4 x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 x5 xs0 xs1)]
  unfold kernelRun1_B
  dsimp only
  sl_unfold_words
  rw [View.canon_cons_unit_zero (S := S512x128) hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem sout_B_1_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : ¬cond1_1 i) (x0 : Vec F S512x512 .f32) (x1 x2 : Vec F S512x128 .f32) (x3 x4 : Vec F S128x64 .f32) (x5 : Vec F S1x64 .f32) (xs0 : Vec F S512x128 .f32) (xs1 : Vec F S512x1 .f32) :
    sout1_B_1 c i arg2 harg2 arg3 harg3 arg4 harg4 arg5 harg5 arg6 harg6 arg7 harg7 arg8 harg8 arg9 harg9 arg10 harg10 hc0 hc1 x0 x1 x2 x3 x4 x5 xs0 xs1 = k1_pay5 x0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 x5 xs0 xs1)]
  unfold kernelRun1_B
  dsimp only
  sl_unfold_words
  rw [View.canon_cons_unit_zero (S := S512x1) hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem sout_C_0_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) :
    sout1_C_0 c i arg2 harg2 arg3 harg3 arg4 harg4 arg5 harg5 arg6 harg6 arg7 harg7 arg8 harg8 arg9 harg9 arg10 harg10 hc0 hc1 x0 x1 x2 x3 x4 x5 xs0 xs1 = k1_pay4 x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  rw [View.canon_cons_unit_zero (S := S512x128) hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem sout_C_1_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) :
    sout1_C_1 c i arg2 harg2 arg3 harg3 arg4 harg4 arg5 harg5 arg6 harg6 arg7 harg7 arg8 harg8 arg9 harg9 arg10 harg10 hc0 hc1 x0 x1 x2 x3 x4 x5 xs0 xs1 = k1_pay5 x0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  rw [View.canon_cons_unit_zero (S := S512x1) hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

theorem out_C_6_1 (c : Dev nD) (i : grid1.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (arg10 : Memref sig .tc .vmem S512x1 .f32) (harg10 : arg10.IsWhole) (hc0 : ¬cond1_0 i) (hc1 : cond1_1 i) (x0 : Vec F S512x512 .f32) (x1 x2 : Vec F S512x128 .f32) (x3 x4 : Vec F S128x64 .f32) (x5 : Vec F S1x64 .f32) (xs0 : Vec F S512x128 .f32) (xs1 : Vec F S512x1 .f32) :
    out1_C_6 c i arg2 harg2 arg3 harg3 arg4 harg4 arg5 harg5 arg6 harg6 arg7 harg7 arg8 harg8 arg9 harg9 arg10 harg10 hc0 hc1 x0 x1 x2 x3 x4 x5 xs0 xs1 = k1_pay6 (k1_pay5 x0 xs1) (k1_pay4 x0 x1 xs0) x2 x3 x4 x5 := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 x5 xs0 xs1)]
  unfold kernelRun1_C
  dsimp only
  sl_unfold_words
  rw [View.canon_cons_unit_zero (S := S512x64) hz1, View.readCov_unit_zero (S := S512x1) _ hz1,
    View.readCov_unit_zero (S := S512x128) _ hz1]
  simp only [View.readAt_eq_ld, harg2.read_unread, harg3.read_unread, harg4.read_unread, harg5.read_unread, harg6.read_unread, harg7.read_unread, harg9.read_unread, harg10.read_unread, View.ld_unit_zero (S := S512x512) hz1, View.ld_unit_zero (S := S512x128) hz1, View.ld_unit_zero (S := S512x1) hz1, View.ld_unit_zero (S := S128x64) hz1, View.ld_unit_zero (S := S1x64) hz1]

end Cert.KernelIdeal.Val

end
-- ==== Proof.Val1Blocks.lean ====
/-
  The blocks the second layer's kernel reads at a grid point, as entries of the arrays.

  The adjacency matrix is cut into 8 × 8 blocks of 512 × 512 and the feature matrix (here the first layer's output)
  into 8 row blocks of 512 × 128.
  At the point for destination tile `j` and source tile `i` the kernel sees the adjacency block (i, j), the feature
  rows of tile `i` (sources) and of tile `j` (destinations), and the two weight matrices and the bias row whole.
  Here each of these blocks is read at one index as the array's entry at row `512 · tile + offset`.
-/
import proofs.«128498_g58506044506625_cont_9to1_m_1050_1_alg».proof.Proof.Fr1Body
import proofs.«128498_g58506044506625_cont_9to1_m_1050_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Which block each window holds at a point

The grid is 8 × 8: point `t = 8 · j + i` works on destination tile `j` with source tile `i`. The adjacency window's
block is (source tile, destination tile); the source-feature window's block is the source tile's rows, the
destination-feature window's and the output window's the destination tile's rows; the two weight matrices and the
bias row are whole arrays. A block's coordinate in its array is always block index × block size + the coordinate
inside the block; row `s` of tile `i` is row `512 · i + s` of the array. -/

theorem idx1_0 : ∀ t : Fin cfg1.N, win1_0.index t 0 = t.val % 8 ∧ win1_0.index t 1 = t.val / 8 :=
  (by decide +kernel : ∀ t : Fin grid1.N, win1_0.index t 0 = t.val % 8 ∧ win1_0.index t 1 = t.val / 8)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = t.val / 8 ∧ win1_6.index t 1 = 0 :=
  (by decide +kernel : ∀ t : Fin grid1.N, win1_6.index t 0 = t.val / 8 ∧ win1_6.index t 1 = 0)

/-- The adjacency block: sources of tile `i`, destinations of tile `j`. -/
theorem iblk1_0_apply (c : Dev nD) (t : Fin cfg1.N) (j i : ℕ) (hj : j < 8) (hi : i < 8) (ht : t.val = 8 * j + i) (a b : Fin 512) :
    (iblk1 V c 0 t : Vec F S512x512 .f32) (ix2 a b)
      = (V c main_arg1 : Vec F S4096x4096 .f32) (ix2 (Cert.Sage.srcRow i hi a) (Cert.Sage.srcRow j hj b)) := by
  have hx := idx1_0 t
  unfold iblk1
  rw [View.read_apply]
  refine congrArg (V c main_arg1) (funext fun d => Fin.ext ?_)
  match d with
  | ⟨0, _⟩ => show win1_0.index t 0 * 512 + 1 * a.val = 512 * i + a.val; rw [hx.1, ht]; omega
  | ⟨1, _⟩ => show win1_0.index t 1 * 512 + 1 * b.val = 512 * j + b.val; rw [hx.2, ht]; omega

/-- The source-feature block: the rows of source tile `i`. -/
theorem iblk1_1_apply (c : Dev nD) (t : Fin cfg1.N) (j i : ℕ) (hj : j < 8) (hi : i < 8) (ht : t.val = 8 * j + i) (a : Fin 512) (k : Fin 128) :
    (iblk1 V c 1 t : Vec F S512x128 .f32) (ix2 a k)
      = (V c main_v1 : Vec F S4096x128 .f32) (ix2 (Cert.Sage.srcRow i hi a) k) := by
  have hx := idx1_1 t
  unfold iblk1
  rw [View.read_apply]
  refine congrArg (V c main_v1) (funext fun d => Fin.ext ?_)
  match d with
  | ⟨0, _⟩ => show win1_1.index t 0 * 512 + 1 * a.val = 512 * i + a.val; rw [hx.1, ht]; omega
  | ⟨1, _⟩ => show win1_1.index t 1 * 128 + 1 * k.val = k.val; rw [hx.2]; omega

/-- The destination-feature block: the rows of destination tile `j`. -/
theorem iblk1_2_apply (c : Dev nD) (t : Fin cfg1.N) (j i : ℕ) (hj : j < 8) (hi : i < 8) (ht : t.val = 8 * j + i) (a : Fin 512) (k : Fin 128) :
    (iblk1 V c 2 t : Vec F S512x128 .f32) (ix2 a k)
      = (V c main_v1 : Vec F S4096x128 .f32) (ix2 (Cert.Sage.srcRow j hj a) k) := by
  have hx := idx1_2 t
  unfold iblk1
  rw [View.read_apply]
  refine congrArg (V c main_v1) (funext fun d => Fin.ext ?_)
  match d with
  | ⟨0, _⟩ => show win1_2.index t 0 * 512 + 1 * a.val = 512 * j + a.val; rw [hx.1, ht]; omega
  | ⟨1, _⟩ => show win1_2.index t 1 * 128 + 1 * k.val = k.val; rw [hx.2]; omega

/-- The self weight matrix, whole. -/
theorem iblk1_3_apply (c : Dev nD) (t : Fin cfg1.N) (j i : ℕ) (hj : j < 8) (hi : i < 8) (ht : t.val = 8 * j + i) (k : Fin 128) (q : Fin 64) :
    (iblk1 V c 3 t : Vec F S128x64 .f32) (ix2 k q)
      = (V c main_arg5 : Vec F S128x64 .f32) (ix2 k q) := by
  have hx := idx1_3 t
  unfold iblk1
  rw [View.read_apply]
  refine congrArg (V c main_arg5) (funext fun d => Fin.ext ?_)
  match d with
  | ⟨0, _⟩ => show win1_3.index t 0 * 128 + 1 * k.val = k.val; rw [hx.1]; omega
  | ⟨1, _⟩ => show win1_3.index t 1 * 64 + 1 * q.val = q.val; rw [hx.2]; omega

/-- The neighbour weight matrix, whole. -/
theorem iblk1_4_apply (c : Dev nD) (t : Fin cfg1.N) (j i : ℕ) (hj : j < 8) (hi : i < 8) (ht : t.val = 8 * j + i) (k : Fin 128) (q : Fin 64) :
    (iblk1 V c 4 t : Vec F S128x64 .f32) (ix2 k q)
      = (V c main_arg6 : Vec F S128x64 .f32) (ix2 k q) := by
  have hx := idx1_4 t
  unfold iblk1
  rw [View.read_apply]
  refine congrArg (V c main_arg6) (funext fun d => Fin.ext ?_)
  match d with
  | ⟨0, _⟩ => show win1_4.index t 0 * 128 + 1 * k.val = k.val; rw [hx.1]; omega
  | ⟨1, _⟩ => show win1_4.index t 1 * 64 + 1 * q.val = q.val; rw [hx.2]; omega

/-- The bias row, whole. -/
theorem iblk1_5_apply (c : Dev nD) (t : Fin cfg1.N) (j i : ℕ) (hj : j < 8) (hi : i < 8) (ht : t.val = 8 * j + i) (z : Fin 1) (q : Fin 64) :
    (iblk1 V c 5 t : Vec F S1x64 .f32) (ix2 z q)
      = (V c main_v2 : Vec F S1x64 .f32) (ix2 z q) := by
  have hx := idx1_5 t
  unfold iblk1
  rw [View.read_apply]
  refine congrArg (V c main_v2) (funext fun d => Fin.ext ?_)
  match d with
  | ⟨0, _⟩ => show win1_5.index t 0 * 1 + 1 * z.val = z.val; rw [hx.1]; omega
  | ⟨1, _⟩ => show win1_5.index t 1 * 64 + 1 * q.val = q.val; rw [hx.2]; omega

end Cert.KernelIdeal.Val

end
-- ==== Proof.PayK1.lean ====
/-
  The values layer 2's kernel body stores, read at one index over the extended reals: the zeroed accumulators, the
  neighbour-sum accumulator after one more block (`acc + gᵀ · h`), the in-degree accumulator after one more block
  (`deg + gᵀ · 1`), and the stored output row block `h_dst · ws + (acc · (1 / max(deg, 1))) · wn + b`.
-/
import proofs.«128498_g58506044506625_cont_9to1_m_1050_1_alg».proof.Proof.Gen.KernelIdeal.Skeleton
import proofs.«128498_g58506044506625_cont_9to1_m_1050_1_alg».proof.Proof.LibContract0
import proofs.«128498_g58506044506625_cont_9to1_m_1050_1_alg».proof.Proof.LibKeepdims

noncomputable section

namespace Cert.Sage.Pay

open Idealize.ShloMosaic Idealize.ShloMosaic.ValueIdx Cert.KernelIdeal Cert.KernelIdeal.Gen

/-- The zeroed neighbour-sum accumulator reads `0` everywhere. -/
theorem k1_pay1_apply (p : Fin 512) (k : Fin 128) : k1_pay1 (F := Ideal) (ix2 p k) = 0 := by
  unfold k1_pay1
  simp only [shapeCast_self, broadcast_apply]
  exact Ideal.ofBits_zero_f32

/-- The zeroed in-degree accumulator reads `0` everywhere. -/
theorem k1_pay2_apply (p : Fin 512) : k1_pay2 (F := Ideal) (ix2 p (0 : Fin 1)) = 0 := by
  unfold k1_pay2
  simp only [shapeCast_self, broadcast_apply]
  exact Ideal.ofBits_zero_f32

/-- One more block into the neighbour-sum accumulator: entry `(p, k)` gains `∑ s, g s p · h s k`. -/
theorem k1_pay4_apply (g : Vec Ideal S512x512 .f32) (h a : Vec Ideal S512x128 .f32) (p : Fin 512) (k : Fin 128) :
    k1_pay4 (F := Ideal) g h a (ix2 p k) = a (ix2 p k) + ∑ s : Fin 512, g (ix2 s p) * h (ix2 s k) := by
  unfold k1_pay4 k1_pay3
  simp only [shapeCast_self]
  rw [addf_apply, Cert.Contract0.matmul_cols dot_S512x512_S512x128_S512x128_0_0_1_1_n_n rfl rfl
    (fun _ _ => rfl) (fun _ _ => rfl) (fun _ _ => rfl) (fun _ _ => rfl)]
  rfl

/-- One more block into the in-degree accumulator: entry `(p, 0)` gains `∑ s, g s p · 1` (the one as the 16-bit word
    the kernel broadcasts). -/
theorem k1_pay5_apply (g : Vec Ideal S512x512 .f32) (d : Vec Ideal S512x1 .f32) (p : Fin 512) :
    k1_pay5 (F := Ideal) g d (ix2 p (0 : Fin 1))
      = d (ix2 p (0 : Fin 1)) + ∑ s : Fin 512, g (ix2 s p) * Ideal.ofBits .bf16 0x3F80#16 := by
  unfold k1_pay5 k1_pay3
  simp only [shapeCast_self]
  rw [addf_apply, Cert.Contract0.matmul_cols dot_S512x512_S512x1_S512x1_0_0_1_1_n_n rfl rfl
    (fun _ _ => rfl) (fun _ _ => rfl) (fun _ _ => rfl) (fun _ _ => rfl)]
  rfl

/-- The stored output block at `(p, q)`: the destination features times `ws`, plus the neighbour sums scaled by
    `1 / max(deg, 1)` times `wn`, plus the bias. -/
theorem k1_pay6_apply (d : Vec Ideal S512x1 .f32) (a hd : Vec Ideal S512x128 .f32) (ws wn : Vec Ideal S128x64 .f32)
    (b : Vec Ideal S1x64 .f32) (p : Fin 512) (q : Fin 64) :
    k1_pay6 (F := Ideal) d a hd ws wn b (ix2 p q)
      = ((∑ k : Fin 128, hd (ix2 p k) * ws (ix2 k q)) + ∑ k : Fin 128, (a (ix2 p k) * Ideal.div (Ideal.ofBits .f32 0x3F800000#32) (max (d (ix2 p (0 : Fin 1))) (Ideal.ofBits .f32 0x3F800000#32))) * wn (ix2 k q)) + b (ix2 (0 : Fin 1) q) := by
  unfold k1_pay6
  simp only [shapeCast_self]
  rw [addf_apply, addf_apply, broadcastTo_1b_ab_apply,
    Cert.Contract0.matmul_rows dot_S512x128_S128x64_S512x64_1_0_0_1_n_n rfl rfl
      (fun _ _ => rfl) (fun _ _ => rfl) (fun _ _ => rfl) (fun _ _ => rfl),
    Cert.Contract0.matmul_rows dot_S512x128_S128x64_S512x64_1_0_0_1_n_n rfl rfl
      (fun _ _ => rfl) (fun _ _ => rfl) (fun _ _ => rfl) (fun _ _ => rfl)]
  simp only [truncf_apply, mulf_apply, Cert.Keepdims.broadcastTo_a1_ab_apply, divf_apply, maximumf_apply, broadcast_apply]
  rfl

end Cert.Sage.Pay

end
-- ==== Proof.Val1Points.lean ====
/-
  One grid point of the second layer's kernel, as arithmetic on the specification's running totals.

  If the two accumulators hold the neighbour sum and the in-degree of a destination row over the first `i` source
  tiles, then after the body adds source tile `i` they hold them over the first `i + 1` tiles: the running total's
  step. With all eight tiles in, the stored output entry is the specification's second layer at that row. The blocks are
  arbitrary arrays here, tied to the adjacency matrix, the features, the weights and the bias by hypotheses.
-/
import proofs.«128498_g58506044506625_cont_9to1_m_1050_1_alg».proof.Proof.PayK1
import proofs.«128498_g58506044506625_cont_9to1_m_1050_1_alg».proof.Proof.Spec

noncomputable section

namespace Cert.KernelIdeal.Val

open Idealize.ShloMosaic Idealize.ShloMosaic.ValueIdx Cert.KernelIdeal Cert.KernelIdeal.Gen Cert.Sage Cert.Sage.Pay
open scoped BigOperators

/-- Adding source tile `i`'s part to the neighbour sum over the first `i` tiles gives it over the first `i + 1`. -/
theorem acc_step1 (g : FVec Ideal ⟨2, ![4096, 4096]⟩ .f32) (h : FVec Ideal ⟨2, ![4096, 128]⟩ .f32) (r : Fin 4096)
    (k : Fin 128) (i : ℕ) (hi : i < 8) (a : EReal) (ha : a = accUpTo g h r k i) :
    a + ∑ s : Fin 512, g (ix2 (srcRow i hi s) r) * h (ix2 (srcRow i hi s) k) = accUpTo g h r k (i + 1) := by
  subst ha
  unfold accUpTo
  rw [Cert.Bridge.runAcc_succ]
  unfold accTile
  rw [dif_pos hi]

/-- The same for the in-degree, whose terms are edge weight times the word of one. -/
theorem deg_step1 (g : FVec Ideal ⟨2, ![4096, 4096]⟩ .f32) (r : Fin 4096) (i : ℕ) (hi : i < 8) (a : EReal)
    (ha : a = degUpTo g r i) :
    a + ∑ s : Fin 512, g (ix2 (srcRow i hi s) r) * Ideal.ofBits .bf16 0x3F80#16 = degUpTo g r (i + 1) := by
  subst ha
  unfold degUpTo
  rw [Cert.Bridge.runAcc_succ]
  unfold degTile
  rw [dif_pos hi]

/-- The neighbour-sum accumulator after the body at destination tile `j`, source tile `i`. -/
theorem acc_point1 (g : FVec Ideal ⟨2, ![4096, 4096]⟩ .f32) (h : FVec Ideal ⟨2, ![4096, 128]⟩ .f32)
    (j i : ℕ) (hj : j < 8) (hi : i < 8) (X0 : Vec Ideal S512x512 .f32) (X1 : Vec Ideal S512x128 .f32)
    (hX0 : ∀ a b : Fin 512, X0 (ix2 a b) = g (ix2 (srcRow i hi a) (srcRow j hj b)))
    (hX1 : ∀ (a : Fin 512) (k : Fin 128), X1 (ix2 a k) = h (ix2 (srcRow i hi a) k))
    (xs0 : Vec Ideal S512x128 .f32) (p : Fin 512) (k : Fin 128)
    (hxs : xs0 (ix2 p k) = accUpTo g h (srcRow j hj p) k i) :
    k1_pay4 (F := Ideal) X0 X1 xs0 (ix2 p k) = accUpTo g h (srcRow j hj p) k (i + 1) := by
  rw [k1_pay4_apply]
  simp only [hX0, hX1]
  exact acc_step1 g h (srcRow j hj p) k i hi _ hxs

/-- The in-degree accumulator after the body at destination tile `j`, source tile `i`. -/
theorem deg_point1 (g : FVec Ideal ⟨2, ![4096, 4096]⟩ .f32) (j i : ℕ) (hj : j < 8) (hi : i < 8)
    (X0 : Vec Ideal S512x512 .f32)
    (hX0 : ∀ a b : Fin 512, X0 (ix2 a b) = g (ix2 (srcRow i hi a) (srcRow j hj b)))
    (xs1 : Vec Ideal S512x1 .f32) (p : Fin 512)
    (hxs : xs1 (ix2 p (0 : Fin 1)) = degUpTo g (srcRow j hj p) i) :
    k1_pay5 (F := Ideal) X0 xs1 (ix2 p (0 : Fin 1)) = degUpTo g (srcRow j hj p) (i + 1) := by
  rw [k1_pay5_apply]
  simp only [hX0]
  exact deg_step1 g (srcRow j hj p) i hi _ hxs

/-- The stored output entry, from the two totals over all eight source tiles: the specification's second layer. -/
theorem out_point1 (g : FVec Ideal ⟨2, ![4096, 4096]⟩ .f32) (h : FVec Ideal ⟨2, ![4096, 128]⟩ .f32)
    (ws wn : FVec Ideal ⟨2, ![128, 64]⟩ .f32) (b : FVec Ideal ⟨1, ![64]⟩ .f32) (j : ℕ) (hj : j < 8)
    (X2 : Vec Ideal S512x128 .f32) (X3 X4 : Vec Ideal S128x64 .f32) (X5 : Vec Ideal S1x64 .f32)
    (hX2 : ∀ (a : Fin 512) (k : Fin 128), X2 (ix2 a k) = h (ix2 (srcRow j hj a) k))
    (hX3 : ∀ (k : Fin 128) (q : Fin 64), X3 (ix2 k q) = ws (ix2 k q)) (hX4 : ∀ (k : Fin 128) (q : Fin 64), X4 (ix2 k q) = wn (ix2 k q))
    (hX5 : ∀ q : Fin 64, X5 (ix2 (0 : Fin 1) q) = b (ix1 q))
    (d : Vec Ideal S512x1 .f32) (a : Vec Ideal S512x128 .f32) (p : Fin 512) (q : Fin 64)
    (hd : d (ix2 p (0 : Fin 1)) = degUpTo g (srcRow j hj p) 8)
    (ha : ∀ k : Fin 128, a (ix2 p k) = accUpTo g h (srcRow j hj p) k 8) :
    k1_pay6 (F := Ideal) d a X2 X3 X4 X5 (ix2 p q) = layer2 g h ws wn b (ix2 (srcRow j hj p) q) := by
  rw [k1_pay6_apply]
  simp only [hd, ha, hX2, hX3, hX4, hX5]
  rfl

end Cert.KernelIdeal.Val

end
-- ==== Proof.Val1.lean ====
/-
  The second layer's call, block by block. Along the eight source tiles of a destination tile the two accumulators
  hold the specification's running totals — the neighbour sum and the in-degree over the tiles seen so far —, and at
  the last source tile the stored output block is the destination tile's rows of the specification's second layer.
-/
import proofs.«128498_g58506044506625_cont_9to1_m_1050_1_alg».proof.Proof.Val1Pieces
import proofs.«128498_g58506044506625_cont_9to1_m_1050_1_alg».proof.Proof.Val1Blocks
import proofs.«128498_g58506044506625_cont_9to1_m_1050_1_alg».proof.Proof.Val1Points

set_option maxRecDepth 16384

noncomputable section

namespace Cert.KernelIdeal.Val

open Cert.KernelIdeal Cert.KernelIdeal.Gen Cert.KernelIdeal.Fr Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sage Cert.Sage.Pay

variable (V : (c : Dev nD) → (b : Ref sig .tc) → Buf (Elt Ideal) ((c : Thread nD τ).loc b))

/-- What the body leaves at a position does not depend on how the position is written. -/
theorem outsAt1_congr (c : Dev nD) {n n' : ℕ} (e : n = n') (hn : n < cfg1.N) (hn' : n' < cfg1.N) :
    outsAt1 V c n hn = outsAt1 V c n' hn' := by
  subst e; rfl

/-- The grid has 64 points. -/
theorem N1_eq : cfg1.N = 64 := by decide

/-- THE RUNNING TOTALS. After the body at destination tile `j`, source tile `i`, row `p` of the neighbour-sum
    accumulator holds the neighbour sum of destination `512 · j + p` over the first `i + 1` source tiles, and row `p`
    of the in-degree accumulator its in-degree over them: at the first tile from zero, then one tile more per point. -/
theorem totals1 (c : Dev nD) (j : ℕ) (hj : j < 8) : ∀ (i : ℕ) (hi : i < 8) (hn : 8 * j + i < cfg1.N) (p : Fin 512),
    (∀ k : Fin 128, (outsAt1 V c (8 * j + i) hn).2.1 (ix2 p k)
        = accUpTo (V c main_arg1) (V c main_v1) (srcRow j hj p) k (i + 1))
      ∧ (outsAt1 V c (8 * j + i) hn).2.2 (ix2 p (0 : Fin 1)) = degUpTo (V c main_arg1) (srcRow j hj p) (i + 1)
  | 0, hi, hn, p => by
    have h0 : (⟨8 * j + 0, hn⟩ : Fin cfg1.N).val % 8 = 0 := by show (8 * j + 0) % 8 = 0; omega
    have h1 : ¬(⟨8 * j + 0, hn⟩ : Fin cfg1.N).val % 8 = 7 := by show ¬(8 * j + 0) % 8 = 7; omega
    have e := outsAt1_A V c ⟨8 * j + 0, hn⟩ h0 h1
    have hX0 := fun a b : Fin 512 => iblk1_0_apply V c ⟨8 * j + 0, hn⟩ j 0 hj hi rfl a b
    have hX1 := fun (a : Fin 512) (k : Fin 128) => iblk1_1_apply V c ⟨8 * j + 0, hn⟩ j 0 hj hi rfl a k
    constructor
    · intro k
      rw [show (outsAt1 V c (8 * j + 0) hn).2.1 = _ from congrArg (fun x => x.2.1) e]
      dsimp only
      rw [sout_A_0_1]
      exact acc_point1 _ _ j 0 hj hi _ _ hX0 hX1 _ p k ((k1_pay1_apply p k).trans rfl)
    · rw [show (outsAt1 V c (8 * j + 0) hn).2.2 = _ from congrArg (fun x => x.2.2) e]
      dsimp only
      rw [sout_A_1_1]
      exact deg_point1 _ j 0 hj hi _ hX0 _ p ((k1_pay2_apply p).trans rfl)
  | i + 1, hi, hn, p => by
    have hn' : 8 * j + i < cfg1.N := by omega
    have ih := totals1 c j hj i (by omega) hn' p
    have ep : outsAt1 V c ((⟨8 * j + (i + 1), hn⟩ : Fin cfg1.N).val - 1) (Nat.lt_of_le_of_lt (Nat.sub_le _ _) hn)
        = outsAt1 V c (8 * j + i) hn' := outsAt1_congr V c (by show 8 * j + (i + 1) - 1 = 8 * j + i; omega) _ _
    have h0 : ¬(⟨8 * j + (i + 1), hn⟩ : Fin cfg1.N).val % 8 = 0 := by show ¬(8 * j + (i + 1)) % 8 = 0; omega
    have hX0 := fun a b : Fin 512 => iblk1_0_apply V c ⟨8 * j + (i + 1), hn⟩ j (i + 1) hj hi rfl a b
    have hX1 := fun (a : Fin 512) (k : Fin 128) => iblk1_1_apply V c ⟨8 * j + (i + 1), hn⟩ j (i + 1) hj hi rfl a k
    by_cases h1 : (⟨8 * j + (i + 1), hn⟩ : Fin cfg1.N).val % 8 = 7
    · have e := outsAt1_C V c ⟨8 * j + (i + 1), hn⟩ h0 h1
      rw [ep] at e
      constructor
      · intro k
        rw [show (outsAt1 V c (8 * j + (i + 1)) hn).2.1 = _ from congrArg (fun x => x.2.1) e]
        dsimp only
        rw [sout_C_0_1]
        exact acc_point1 _ _ j (i + 1) hj hi _ _ hX0 hX1 _ p k (ih.1 k)
      · rw [show (outsAt1 V c (8 * j + (i + 1)) hn).2.2 = _ from congrArg (fun x => x.2.2) e]
        dsimp only
        rw [sout_C_1_1]
        exact deg_point1 _ j (i + 1) hj hi _ hX0 _ p ih.2
    · have e := outsAt1_B V c ⟨8 * j + (i + 1), hn⟩ h0 h1
      rw [ep] at e
      constructor
      · intro k
        rw [show (outsAt1 V c (8 * j + (i + 1)) hn).2.1 = _ from congrArg (fun x => x.2.1) e]
        dsimp only
        rw [sout_B_0_1]
        exact acc_point1 _ _ j (i + 1) hj hi _ _ hX0 hX1 _ p k (ih.1 k)
      · rw [show (outsAt1 V c (8 * j + (i + 1)) hn).2.2 = _ from congrArg (fun x => x.2.2) e]
        dsimp only
        rw [sout_B_1_1]
        exact deg_point1 _ j (i + 1) hj hi _ hX0 _ p ih.2

/-- THE OUTPUT BLOCKS. At the last source tile of destination tile `j` the body stores, as the output block, rows
    `512 · j …` of the specification's second layer of the adjacency matrix, the first layer's output, the two
    weight matrices and the bias (the bias row the kernel reads being the bias vector viewed as one row). -/
theorem blocks1 (c : Dev nD) (b : FVec Ideal ⟨1, ![64]⟩ .f32)
    (hb : ∀ q : Fin 64, V c main_v2 (ix2 (0 : Fin 1) q) = b (ix1 q)) :
    ∀ t : Fin cfg1.N, t.val % 8 = 7 →
      (outsAt1 V c t.val t.isLt).1 = ((cfg1.win 6).blk t).view.read (Elt Ideal)
        (layer2 (V c main_arg1) (V c main_v1) (V c main_arg5) (V c main_arg6) b) := by
  intro t h7
  have htlt : t.val < 64 := N1_eq ▸ t.isLt
  have hj : t.val / 8 < 8 := by omega
  have hi : 7 < 8 := by omega
  have ht : t.val = 8 * (t.val / 8) + 7 := by omega
  have h0 : ¬t.val % 8 = 0 := by omega
  have hn' : 8 * (t.val / 8) + 6 < cfg1.N := by show _ < 64; omega
  have e := outsAt1_C V c t h0 h7
  have ep : outsAt1 V c (t.val - 1) (Nat.lt_of_le_of_lt (Nat.sub_le _ _) t.isLt)
      = outsAt1 V c (8 * (t.val / 8) + 6) hn' := outsAt1_congr V c (by omega) _ _
  rw [ep] at e
  rw [show (outsAt1 V c t.val t.isLt).1 = _ from congrArg (fun x => x.1) e]
  dsimp only
  rw [out_C_6_1]
  have hx := idx1_6 t
  have hX0 := fun a b : Fin 512 => iblk1_0_apply V c t (t.val / 8) 7 hj hi ht a b
  have hX1 := fun (a : Fin 512) (k : Fin 128) => iblk1_1_apply V c t (t.val / 8) 7 hj hi ht a k
  have hX2 := fun (a : Fin 512) (k : Fin 128) => iblk1_2_apply V c t (t.val / 8) 7 hj hi ht a k
  have hX3 := fun (k : Fin 128) (q : Fin 64) => iblk1_3_apply V c t (t.val / 8) 7 hj hi ht k q
  have hX4 := fun (k : Fin 128) (q : Fin 64) => iblk1_4_apply V c t (t.val / 8) 7 hj hi ht k q
  have hX5 := fun q : Fin 64 => (iblk1_5_apply V c t (t.val / 8) 7 hj hi ht (0 : Fin 1) q).trans (hb q)
  funext y
  obtain ⟨p, q, rfl⟩ : ∃ (p : Fin 512) (q : Fin 64), y = ix2 p q := ⟨y 0, y 1, eq_ix2 y⟩
  have ih := totals1 V c (t.val / 8) hj 6 (by omega) hn' p
  rw [View.read_apply]
  have hemb : ((cfg1.win 6).blk t).view.emb (ix2 p q) = ix2 (srcRow (t.val / 8) hj p) q := funext fun d => Fin.ext (by
    match d with
    | ⟨0, _⟩ => show win1_6.index t 0 * 512 + 1 * p.val = 512 * (t.val / 8) + p.val; rw [hx.1]; omega
    | ⟨1, _⟩ => show win1_6.index t 1 * 64 + 1 * q.val = q.val; rw [hx.2]; omega)
  rw [hemb]
  exact out_point1 _ _ _ _ b (t.val / 8) hj _ _ _ _ hX2 hX3 hX4 hX5 _ _ p q
    (deg_point1 _ (t.val / 8) 7 hj hi _ hX0 _ p ih.2)
    (fun k => acc_point1 _ _ (t.val / 8) 7 hj hi _ _ hX0 hX1 _ p k (ih.1 k))

end Cert.KernelIdeal.Val

end
-- ==== Proof.Cover0.lean ====
/-
  From blocks to the array, for layer 1's call and any float instance: the output window's row blocks tile its
  `[4096, 128]` array, each written back once, at the last source tile of its row block. So if what every such point
  leaves in the output's staging buffer is its block of ONE whole-array function `G`, the array ends holding `G`.
-/
import proofs.«128498_g58506044506625_cont_9to1_m_1050_1_alg».proof.Proof.Fr0Body
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The output window's block index at point `t`, decided over the grid: row block `t / 8`, the one column block. -/
theorem index0_6 : ∀ t : Fin cfg0.N, win0_6.index t (0 : Fin 2) = t.val / 8 ∧ win0_6.index t (1 : Fin 2) = 0 :=
  (by decide +kernel : ∀ t : Fin grid0.N, _)

/-- An index of the array is in point `t`'s block iff each coordinate is in the block's range on its axis. -/
theorem mem_blk0_6 (t : Fin cfg0.N) (i : S4096x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v1).slice (win0_6.rect t)).set ↔ _
  rw [View.set_slice_whole, Rect.mem_set_unit]
  exact Iff.rfl

/-- Every index of the array is in the block of a point that writes back: row `r` in that of the last source tile of
    row block `r / 512`. -/
theorem cover0_6 (i : S4096x128.Idx) :
    ∃ t : Fin cfg0.N, (cfg0.win 6).flush t = true ∧ i ∈ ((cfg0.win 6).blk t).view.set := by
  have hi0 : (i 0).val < 4096 := (i 0).isLt
  have hi1 : (i 1).val < 128 := (i 1).isLt
  have hN : 8 * ((i 0).val / 512) + 7 < cfg0.N := by show _ < 64; omega
  obtain ⟨t, tv⟩ : ∃ t : Fin cfg0.N, t.val = 8 * ((i 0).val / 512) + 7 := ⟨⟨_, hN⟩, rfl⟩
  obtain ⟨e0, e1⟩ := index0_6 t
  refine ⟨t, (flush0_6 t).mpr (by omega), ?_⟩
  rw [mem_blk0_6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 128 ≤ (i 1).val ∧ (i 1).val < win0_6.index t (1 : Fin 2) * 128 + 128; omega

/-- What a point that writes back writes is what the body left in the output's staging buffer there (the window is not
    cut at the array's end), so it is its block of `G` as soon as that buffer is. -/
theorem flushed0_6_eq (c : Dev nD) (G : Buf (Elt F) ((cfg0.win 6).arr.view.loc (c : Thread nD τ)))
    (hblk : ∀ t : Fin cfg0.N, t.val % 8 = 7 → (outsAt0 V c t.val t.isLt).1 = ((cfg0.win 6).blk t).view.read (Elt F) G)
    (t : Fin cfg0.N) (hf : (cfg0.win 6).flush t = true) :
    (dats0 V c).flushed 6 t = ((cfg0.win 6).blk t).view.read (Elt F) G := by
  show (cfg0.win 6).cut (grid0.coords t) ((dats0 V c).after 6 t) = _
  rw [after0_6]
  exact hblk t ((flush0_6 t).mp hf)

/-- THE ARRAY after the call: `G`, given that every point that writes back leaves its block of `G`. -/
theorem final0_of_blocks (c : Dev nD) (G : Buf (Elt F) ((cfg0.win 6).arr.view.loc (c : Thread nD τ)))
    (hblk : ∀ t : Fin cfg0.N, t.val % 8 = 7 → (outsAt0 V c t.val t.isLt).1 = ((cfg0.win 6).blk t).view.read (Elt F) G) :
    (dats0 V c).arrAt 6 cfg0.N = G :=
  (dats0 V c).arrAt_eq_of_cover 6 G (fun t hf => flushed0_6_eq V c G hblk t hf) (fun i => cover0_6 i)

end Cert.KernelIdeal.Val

end
-- ==== Proof.Cover1.lean ====
/-
  From blocks to the array, for layer 2's call and any float instance: the output window's row blocks tile its
  `[4096, 64]` array, each written back once, at the last source tile of its row block. So if what every such point
  leaves in the output's staging buffer is its block of ONE whole-array function `G`, the array ends holding `G`.
-/
import proofs.«128498_g58506044506625_cont_9to1_m_1050_1_alg».proof.Proof.Fr1Body
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The output window's block index at point `t`, decided over the grid: row block `t / 8`, the one column block. -/
theorem index1_6 : ∀ t : Fin cfg1.N, win1_6.index t (0 : Fin 2) = t.val / 8 ∧ win1_6.index t (1 : Fin 2) = 0 :=
  (by decide +kernel : ∀ t : Fin grid1.N, _)

/-- An index of the array is in point `t`'s block iff each coordinate is in the block's range on its axis. -/
theorem mem_blk1_6 (t : Fin cfg1.N) (i : S4096x64.Idx) :
    i ∈ ((cfg1.win 6).blk t).view.set ↔ ∀ a : Fin 2, win1_6.index t a * S512x64.size a ≤ (i a).val ∧ (i a).val < win1_6.index t a * S512x64.size a + S512x64.size a := by
  show i ∈ ((View.whole main_v3).slice (win1_6.rect t)).set ↔ _
  rw [View.set_slice_whole, Rect.mem_set_unit]
  exact Iff.rfl

/-- Every index of the array is in the block of a point that writes back: row `r` in that of the last source tile of
    row block `r / 512`. -/
theorem cover1_6 (i : S4096x64.Idx) :
    ∃ t : Fin cfg1.N, (cfg1.win 6).flush t = true ∧ i ∈ ((cfg1.win 6).blk t).view.set := by
  have hi0 : (i 0).val < 4096 := (i 0).isLt
  have hi1 : (i 1).val < 64 := (i 1).isLt
  have hN : 8 * ((i 0).val / 512) + 7 < cfg1.N := by show _ < 64; omega
  obtain ⟨t, tv⟩ : ∃ t : Fin cfg1.N, t.val = 8 * ((i 0).val / 512) + 7 := ⟨⟨_, hN⟩, rfl⟩
  obtain ⟨e0, e1⟩ := index1_6 t
  refine ⟨t, (flush1_6 t).mpr (by omega), ?_⟩
  rw [mem_blk1_6]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 64 ≤ (i 1).val ∧ (i 1).val < win1_6.index t (1 : Fin 2) * 64 + 64; omega

/-- What a point that writes back writes is what the body left in the output's staging buffer there (the window is not
    cut at the array's end), so it is its block of `G` as soon as that buffer is. -/
theorem flushed1_6_eq (c : Dev nD) (G : Buf (Elt F) ((cfg1.win 6).arr.view.loc (c : Thread nD τ)))
    (hblk : ∀ t : Fin cfg1.N, t.val % 8 = 7 → (outsAt1 V c t.val t.isLt).1 = ((cfg1.win 6).blk t).view.read (Elt F) G)
    (t : Fin cfg1.N) (hf : (cfg1.win 6).flush t = true) :
    (dats1 V c).flushed 6 t = ((cfg1.win 6).blk t).view.read (Elt F) G := by
  show (cfg1.win 6).cut (grid1.coords t) ((dats1 V c).after 6 t) = _
  rw [after1_6]
  exact hblk t ((flush1_6 t).mp hf)

/-- THE ARRAY after the call: `G`, given that every point that writes back leaves its block of `G`. -/
theorem final1_of_blocks (c : Dev nD) (G : Buf (Elt F) ((cfg1.win 6).arr.view.loc (c : Thread nD τ)))
    (hblk : ∀ t : Fin cfg1.N, t.val % 8 = 7 → (outsAt1 V c t.val t.isLt).1 = ((cfg1.win 6).blk t).view.read (Elt F) G) :
    (dats1 V c).arrAt 6 cfg1.N = G :=
  (dats1 V c).arrAt_eq_of_cover 6 G (fun t hf => flushed1_6_eq V c G hblk t hf) (fun i => cover1_6 i)

end Cert.KernelIdeal.Val

end
-- ==== Proof.Entry.lean ====
/-
  What the two kernel regions find in the buffers the host wrote or left alone, for any float instance: the bias rows
  (each a length-`n` vector viewed as one row of `n` lanes), the arguments a region reads (unchanged since launch), and
  the arrays the regions themselves leave (the unknowns the buffers' contents between items are written over).
-/
import proofs.«128498_g58506044506625_cont_9to1_m_1050_1_alg».proof.Proof.Gen.KernelIdeal.Regions
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (outs : Gen.Outs (F := F))

/-! ## Before the first region -/

/-- The first layer's bias row as the first region finds it: the bias vector viewed as one row. -/
theorem V1_main_v0 (c : Dev nD) :
    (Gen.V1 m c main_v0 : S1x128.Idx → Elt F .f32)
      = shapeCast S1x128 (m ((c : Thread nD τ).loc main_arg4) : S128.Idx → Elt F .f32) shapeCasts_S128_S1x128 := by
  dsimp only [Gen.V1, Gen.hostOps0]
  after_results
  rfl

/-- Read at lane `q`, that row is the bias vector at `q`. -/
theorem V1_main_v0_apply (c : Dev nD) (q : Fin 128) :
    (Gen.V1 m c main_v0 : S1x128.Idx → Elt F .f32) (ix2 (0 : Fin 1) q)
      = (m ((c : Thread nD τ).loc main_arg4) : S128.Idx → Elt F .f32) (ix1 q) := by
  rw [V1_main_v0, shapeCast_a_1a_apply]

/-- The first region finds each argument it reads as launched. -/
theorem V1_main_arg0 (c : Dev nD) : Gen.V1 m c main_arg0 = m ((c : Thread nD τ).loc main_arg0) :=
  (Gen.V1_of m c main_arg0 (by decide)).trans rfl
theorem V1_main_arg1 (c : Dev nD) : Gen.V1 m c main_arg1 = m ((c : Thread nD τ).loc main_arg1) :=
  (Gen.V1_of m c main_arg1 (by decide)).trans rfl
theorem V1_main_arg2 (c : Dev nD) : Gen.V1 m c main_arg2 = m ((c : Thread nD τ).loc main_arg2) :=
  (Gen.V1_of m c main_arg2 (by decide)).trans rfl
theorem V1_main_arg3 (c : Dev nD) : Gen.V1 m c main_arg3 = m ((c : Thread nD τ).loc main_arg3) :=
  (Gen.V1_of m c main_arg3 (by decide)).trans rfl

/-! ## Before the second region -/

/-- The second layer's bias row as the second region finds it: the bias vector viewed as one row. -/
theorem V3_main_v2 (c : Dev nD) :
    (Gen.V3 m outs c main_v2 : S1x64.Idx → Elt F .f32)
      = shapeCast S1x64 (m ((c : Thread nD τ).loc main_arg7) : S64.Idx → Elt F .f32) shapeCasts_S64_S1x64 := by
  have e : (Gen.V3 m outs c main_v2 : S1x64.Idx → Elt F .f32)
      = shapeCast S1x64 (Gen.V2 m outs c main_arg7 : S64.Idx → Elt F .f32) shapeCasts_S64_S1x64 := by
    dsimp only [Gen.V3, Gen.hostOps1]
    after_results
    rfl
  rw [e, Gen.V2_of m outs c main_arg7 (by decide), Gen.V1_of m c main_arg7 (by decide)]

/-- Read at lane `q`, that row is the bias vector at `q`. -/
theorem V3_main_v2_apply (c : Dev nD) (q : Fin 64) :
    (Gen.V3 m outs c main_v2 : S1x64.Idx → Elt F .f32) (ix2 (0 : Fin 1) q)
      = (m ((c : Thread nD τ).loc main_arg7) : S64.Idx → Elt F .f32) (ix1 q) := by
  rw [V3_main_v2, shapeCast_a_1a_apply]

/-- The second region finds each argument it reads as launched. -/
theorem V3_main_arg1 (c : Dev nD) : Gen.V3 m outs c main_arg1 = m ((c : Thread nD τ).loc main_arg1) :=
  (Gen.V3_of m outs c main_arg1 (by decide)).trans <| (Gen.V2_of m outs c main_arg1 (by decide)).trans <|
    (Gen.V1_of m c main_arg1 (by decide)).trans rfl
theorem V3_main_arg5 (c : Dev nD) : Gen.V3 m outs c main_arg5 = m ((c : Thread nD τ).loc main_arg5) :=
  (Gen.V3_of m outs c main_arg5 (by decide)).trans <| (Gen.V2_of m outs c main_arg5 (by decide)).trans <|
    (Gen.V1_of m c main_arg5 (by decide)).trans rfl
theorem V3_main_arg6 (c : Dev nD) : Gen.V3 m outs c main_arg6 = m ((c : Thread nD τ).loc main_arg6) :=
  (Gen.V3_of m outs c main_arg6 (by decide)).trans <| (Gen.V2_of m outs c main_arg6 (by decide)).trans <|
    (Gen.V1_of m c main_arg6 (by decide)).trans rfl

/-- The second region finds the first layer's output as the first region left it. -/
theorem V3_main_v1 (c : Dev nD) : Gen.V3 m outs c main_v1 = outs 2 main_v1 c :=
  (Gen.V3_of m outs c main_v1 (by decide)).trans (Function.update_self _ _ _)

/-! ## After the second region -/

/-- The result array ends as the second region left it. -/
theorem V4_main_v3 (c : Dev nD) : Gen.V4 m outs c main_v3 = outs 4 main_v3 c :=
  Function.update_self _ _ _

end Cert.KernelIdeal.Val

end
-- ==== Proof.Bridge.lean ====
/-
  What the kernel's two calls leave, over the extended reals. The first call's output array is the first layer of the
  launch contents (the eight blocks written back at the last source tile tile the array, and each is the layer at its
  rows); the second call finds that array in place of the features and leaves the second layer of it: the network.
-/
import proofs.«128498_g58506044506625_cont_9to1_m_1050_1_alg».proof.Proof.FrMain
import proofs.«128498_g58506044506625_cont_9to1_m_1050_1_alg».proof.Proof.Val0
import proofs.«128498_g58506044506625_cont_9to1_m_1050_1_alg».proof.Proof.Val1
import proofs.«128498_g58506044506625_cont_9to1_m_1050_1_alg».proof.Proof.Cover0
import proofs.«128498_g58506044506625_cont_9to1_m_1050_1_alg».proof.Proof.Cover1
import proofs.«128498_g58506044506625_cont_9to1_m_1050_1_alg».proof.Proof.Entry

noncomputable section

namespace Cert.KernelIdeal.Val

open Cert.KernelIdeal Cert.KernelIdeal.Gen Idealize.ShloMosaic Idealize.ShloMosaic.TcCoe Idealize.ShloMosaic.ValueIdx Idealize.SL.Sem Cert.Sage

variable (m : (ℓ : Loc nD τ sig) → Buf (Elt Ideal) ℓ)

/-- The hidden layer: the first call's output array is the first layer (clamped at zero) of the launch contents. -/
theorem final0_eq_layer1 (c : Dev nD) :
    (Fr.final0 m c : FVec Ideal ⟨2, ![4096, 128]⟩ .f32) = layer1 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) := by
  have h := final0_of_blocks (Fr.Ve0 m) c _ (blocks0 (Fr.Ve0 m) c (m ((c.tc : Thread nD τ).loc main_arg4)) (fun q => V1_main_v0_apply m c q))
  unfold Fr.final0
  refine h.trans ?_
  show layer1 (V1 m c main_arg1) (V1 m c main_arg0) (V1 m c main_arg2) (V1 m c main_arg3) _ = _
  rw [V1_main_arg1 m c, V1_main_arg0 m c, V1_main_arg2 m c, V1_main_arg3 m c]

/-- The second call's output array is the second layer of the adjacency, the hidden layer and the second weights. -/
theorem final1_eq_layer2 (c : Dev nD) :
    (Fr.final1 m c : FVec Ideal ⟨2, ![4096, 64]⟩ .f32) = layer2 (m ((c.tc : Thread nD τ).loc main_arg1)) (Fr.final0 m c) (m ((c.tc : Thread nD τ).loc main_arg5)) (m ((c.tc : Thread nD τ).loc main_arg6)) (m ((c.tc : Thread nD τ).loc main_arg7)) := by
  have h := final1_of_blocks (Fr.Ve1 m) c _ (blocks1 (Fr.Ve1 m) c (m ((c.tc : Thread nD τ).loc main_arg7)) (fun q => V3_main_v2_apply m (Fr.outsA m) c q))
  unfold Fr.final1
  refine h.trans ?_
  show layer2 (V3 m (Fr.outsA m) c main_arg1) (V3 m (Fr.outsA m) c main_v1) (V3 m (Fr.outsA m) c main_arg5) (V3 m (Fr.outsA m) c main_arg6) _ = _
  rw [V3_main_arg1 m (Fr.outsA m) c, V3_main_v1 m (Fr.outsA m) c, Fr.outsA_2 m c, V3_main_arg5 m (Fr.outsA m) c, V3_main_arg6 m (Fr.outsA m) c]

/-- The result array holds the two-layer network of the eight arguments. -/
theorem final1_eq_network (c : Dev nD) :
    (Fr.final1 m c : FVec Ideal ⟨2, ![4096, 64]⟩ .f32) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [final1_eq_layer2 m c, final0_eq_layer1 m c]
  rfl

end Cert.KernelIdeal.Val

end
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.RefMath.lean ====
/-
  The reference's neighbour sum, in-degree and division, against the tiled form of the specification.

  The reference adds the 4096 sources of a destination in one sum and divides the neighbour sum by the in-degree
  clamped below at one. The specification visits the sources as 8 tiles of 512, keeps running totals, and multiplies
  by the reciprocal of the clamped in-degree. The two sums agree because addition of extended reals is commutative and
  associative (no finiteness is needed). Division and the product with the reciprocal agree for EVERY numerator as
  soon as the divisor is a nonzero real number; the clamped in-degree is one: a finite sum of real edge weights is
  real, and its maximum with one is a real number at least one.
-/
import proofs.«128498_g58506044506625_cont_9to1_m_1050_1_alg».proof.Proof.Spec
import proofs.«128498_g58506044506625_cont_9to1_m_1050_1_alg».proof.Proof.LibReal
import Idealize.ShloMosaic.Lib.IdealHost

noncomputable section

namespace Cert.Sage.Ref

open Idealize.ShloMosaic Idealize.ShloMosaic.ValueIdx Cert.LibReal Cert.Sage
open scoped BigOperators

/-- The sum over all 4096 positions is the sum over the 8 tiles of the sums over each tile's 512 positions. -/
theorem sum_by_tiles (f : Fin 4096 → EReal) :
    ∑ t : Fin 8, ∑ s : Fin 512, f (srcRow t.val t.isLt s) = ∑ i : Fin 4096, f i :=
  Cert.Bridge.sum_tiles_fin 8 512 f (fun t s => srcRow t.val t.isLt s) (fun _ _ => rfl)

/-- The neighbour sum over all 4096 sources is the running total after the eighth tile. -/
theorem sum_eq_accUpTo (g : FVec Ideal ⟨2, ![4096, 4096]⟩ .f32) (h : FVec Ideal ⟨2, ![4096, 128]⟩ .f32)
    (r : Fin 4096) (k : Fin 128) :
    ∑ i : Fin 4096, g (ix2 i r) * h (ix2 i k) = accUpTo g h r k 8 := by
  unfold accUpTo
  rw [Cert.Bridge.runAcc_eq_sum_fin 8 (accTile g h r k)
    (fun t => ∑ s : Fin 512, g (ix2 (srcRow t.val t.isLt s) r) * h (ix2 (srcRow t.val t.isLt s) k))
    (fun t => by unfold accTile; rw [dif_pos t.isLt])]
  exact (sum_by_tiles (fun i => g (ix2 i r) * h (ix2 i k))).symm

/-- The in-degree, summed over all 4096 sources from the zero word, is the running total after the eighth tile
    (each of whose terms is the edge weight times the word of one). -/
theorem deg_eq_degUpTo (g : FVec Ideal ⟨2, ![4096, 4096]⟩ .f32) (r : Fin 4096) :
    Ideal.ofBits .f32 0x00000000#32 + ∑ i : Fin 4096, g (ix2 i r) = degUpTo g r 8 := by
  unfold degUpTo
  rw [Cert.Bridge.runAcc_eq_sum_fin 8 (degTile g r)
    (fun t => ∑ s : Fin 512, g (ix2 (srcRow t.val t.isLt s) r))
    (fun t => by unfold degTile; rw [dif_pos t.isLt]; simp only [Ideal.ofBits_one_bf16, mul_one]),
    Ideal.ofBits_zero_f32, zero_add]
  exact (sum_by_tiles (fun i => g (ix2 i r))).symm

/-- With real edge weights the in-degree is a real number. -/
theorem isReal_degUpTo (g : FVec Ideal ⟨2, ![4096, 4096]⟩ .f32) (hg : ∀ i, IsReal (g i)) (r : Fin 4096) :
    IsReal (degUpTo g r 8) := by
  rw [← deg_eq_degUpTo, Ideal.ofBits_zero_f32, zero_add]
  exact IsReal.sum _ _ (fun i => hg _)

/-- Dividing by a real number clamped below at one is multiplying by its reciprocal, whatever the numerator
    (infinite or not): the clamped divisor is a nonzero real. -/
theorem div_eq_mul_recip (n d : EReal) (hd : IsReal d) :
    Ideal.div n (max d 1) = n * Ideal.div 1 (max d 1) := by
  obtain ⟨y, rfl⟩ := hd
  have e : max (y : EReal) 1 = ((max y 1 : ℝ) : EReal) := by
    rw [← EReal.coe_one]; exact (EReal.coe_strictMono.monotone.map_max).symm
  have hy : max y 1 ≠ 0 := ne_of_gt (lt_of_lt_of_le one_pos (le_max_right y 1))
  rw [e, Ideal.div_coe hy n, Ideal.div_coe hy 1, one_mul]

/-- The reference's mean of the neighbours — the whole neighbour sum divided by the maximum of one and the whole
    in-degree — is the specification's: the tiled neighbour sum times the reciprocal of the tiled in-degree clamped
    at one. -/
theorem mean_eq_neighAt (g : FVec Ideal ⟨2, ![4096, 4096]⟩ .f32) (h : FVec Ideal ⟨2, ![4096, 128]⟩ .f32)
    (hg : ∀ i, IsReal (g i)) (r : Fin 4096) (k : Fin 128) :
    Ideal.div (∑ i : Fin 4096, g (ix2 i r) * h (ix2 i k))
        (max (Ideal.ofBits .f32 0x3F800000#32) (Ideal.ofBits .f32 0x00000000#32 + ∑ i : Fin 4096, g (ix2 i r)))
      = neighAt g h r k := by
  unfold neighAt
  rw [sum_eq_accUpTo, deg_eq_degUpTo, max_comm, Ideal.ofBits_one_f32]
  exact div_eq_mul_recip _ _ (isReal_degUpTo g hg r)

end Cert.Sage.Ref

end
-- ==== Proof.RefNet.lean ====
/-
  The reference program is the specification, stage by stage.

  Each stage of the reference is read at one index. A dense product with one contracted axis is the sum over that
  axis; the transposed adjacency matrix at (r, i) is the adjacency matrix at (i, r); the in-degree is the zero word
  plus the sum down a column; the clamp of the in-degree is the maximum with a broadcast one, the clamp between the
  layers the maximum with a broadcast zero; the bias is broadcast along the rows. What is left is the reference's
  mean of the neighbours against the specification's tiled one, which is where the adjacency matrix's entries being
  real numbers is used. The second layer runs the same stages on the first layer's result.
-/
import proofs.«128498_g58506044506625_cont_9to1_m_1050_1_alg».proof.Proof.Gen.ReferenceIdeal.Read
import proofs.«128498_g58506044506625_cont_9to1_m_1050_1_alg».proof.Proof.RefMath

noncomputable section

namespace Cert.Sage.Ref

open Idealize.ShloMosaic Idealize.ShloMosaic.ValueIdx Cert.LibReal Cert.Sage
open Cert.ReferenceIdeal Cert.ReferenceIdeal.Read
open scoped BigOperators

/-- The reference's normalised neighbour stage (neighbour sum divided by the clamped in-degree) at destination `r`
    and feature `k`, for any feature array `h`, is the specification's mean of the neighbours. -/
theorem neighStage_eq (h : FVec Ideal S4096x128 .f32) (g : FVec Ideal S4096x4096 .f32) (hg : ∀ i, IsReal (g i))
    (r : Fin 4096) (k : Fin 128) :
    val_main_v6 (F := Ideal) h g (ix2 r k) = neighAt g h r k := by
  rw [val_main_v6_apply, val_main_v2_apply, val_main_v5_apply, val_main_v4_apply, val_main_v3_apply,
    val_main_call0_v1_apply, val_main_call0_v0_apply, val_main_cst_0_apply, val_main_v0_apply, val_main_cst_apply]
  simp only [val_main_v1_apply]
  have e1 : ∀ i : Fin 4096, idx_main_v1 (lidx_main_v2 (ix2 r k) i) = ix2 i r := fun i =>
    funext fun a => by match a with | ⟨0, _⟩ => rfl | ⟨1, _⟩ => rfl
  have e2 : ∀ i : Fin 4096, ridx_main_v2 (ix2 r k) i = ix2 i k := fun i =>
    funext fun a => by match a with | ⟨0, _⟩ => rfl | ⟨1, _⟩ => rfl
  have e3 : ∀ i : Fin 4096, idx_main_v0 (idx_main_v4 (idx_main_v5 (ix2 r k))) i = ix2 i r := fun i =>
    funext fun a => by match a with | ⟨0, _⟩ => rfl | ⟨1, _⟩ => rfl
  simp only [e1, e2, e3]
  exact mean_eq_neighAt g h hg r k

/-- The first layer of the reference, clamp included, is the specification's first layer. -/
theorem layer1_eq (x : FVec Ideal S4096x128 .f32) (g : FVec Ideal S4096x4096 .f32)
    (ws1 wn1 : FVec Ideal S128x128 .f32) (b1 : FVec Ideal S128 .f32) (hg : ∀ i, IsReal (g i)) :
    val_main_v13 (F := Ideal) x g ws1 wn1 b1 = layer1 g x ws1 wn1 b1 := by
  funext j
  obtain ⟨r, q, rfl⟩ : ∃ (r : Fin 4096) (q : Fin 128), j = ix2 r q := ⟨j 0, j 1, eq_ix2 j⟩
  rw [val_main_v13_apply, val_main_v12_apply, val_main_v9_apply, val_main_v7_apply, val_main_v8_apply,
    val_main_v11_apply, val_main_v10_apply, val_main_call1_v0_apply, val_main_call1_cst_apply]
  have e1 : ∀ k : Fin 128, lidx_main_v7 (ix2 r q) k = ix2 r k := fun k =>
    funext fun a => by match a with | ⟨0, _⟩ => rfl | ⟨1, _⟩ => rfl
  have e2 : ∀ k : Fin 128, ridx_main_v7 (ix2 r q) k = ix2 k q := fun k =>
    funext fun a => by match a with | ⟨0, _⟩ => rfl | ⟨1, _⟩ => rfl
  have e3 : ∀ k : Fin 128, lidx_main_v8 (ix2 r q) k = ix2 r k := fun k =>
    funext fun a => by match a with | ⟨0, _⟩ => rfl | ⟨1, _⟩ => rfl
  have e4 : ∀ k : Fin 128, ridx_main_v8 (ix2 r q) k = ix2 k q := fun k =>
    funext fun a => by match a with | ⟨0, _⟩ => rfl | ⟨1, _⟩ => rfl
  have e5 : idx_main_v10 (idx_main_v11 (ix2 r q)) = ix1 q :=
    funext fun a => by match a with | ⟨0, _⟩ => rfl
  simp only [e1, e2, e3, e4, e5, neighStage_eq x g hg]
  rfl

/-- The second layer of the reference is the specification's second layer applied to the reference's first layer. -/
theorem layer2_eq (x : FVec Ideal S4096x128 .f32) (g : FVec Ideal S4096x4096 .f32)
    (ws1 wn1 : FVec Ideal S128x128 .f32) (b1 : FVec Ideal S128 .f32)
    (ws2 wn2 : FVec Ideal S128x64 .f32) (b2 : FVec Ideal S64 .f32) (hg : ∀ i, IsReal (g i)) :
    val_main_v26 (F := Ideal) x g ws1 wn1 b1 ws2 wn2 b2
      = layer2 g (val_main_v13 (F := Ideal) x g ws1 wn1 b1) ws2 wn2 b2 := by
  funext j
  obtain ⟨r, q, rfl⟩ : ∃ (r : Fin 4096) (q : Fin 64), j = ix2 r q := ⟨j 0, j 1, eq_ix2 j⟩
  rw [val_main_v26_apply, val_main_v23_apply, val_main_v21_apply, val_main_v22_apply, val_main_v25_apply,
    val_main_v24_apply]
  have e0 : val_main_v20 (F := Ideal) x g ws1 wn1 b1
      = val_main_v6 (F := Ideal) (val_main_v13 (F := Ideal) x g ws1 wn1 b1) g := rfl
  have e1 : ∀ k : Fin 128, lidx_main_v21 (ix2 r q) k = ix2 r k := fun k =>
    funext fun a => by match a with | ⟨0, _⟩ => rfl | ⟨1, _⟩ => rfl
  have e2 : ∀ k : Fin 128, ridx_main_v21 (ix2 r q) k = ix2 k q := fun k =>
    funext fun a => by match a with | ⟨0, _⟩ => rfl | ⟨1, _⟩ => rfl
  have e3 : ∀ k : Fin 128, lidx_main_v22 (ix2 r q) k = ix2 r k := fun k =>
    funext fun a => by match a with | ⟨0, _⟩ => rfl | ⟨1, _⟩ => rfl
  have e4 : ∀ k : Fin 128, ridx_main_v22 (ix2 r q) k = ix2 k q := fun k =>
    funext fun a => by match a with | ⟨0, _⟩ => rfl | ⟨1, _⟩ => rfl
  have e5 : idx_main_v24 (idx_main_v25 (ix2 r q)) = ix1 q :=
    funext fun a => by match a with | ⟨0, _⟩ => rfl
  simp only [e0, e1, e2, e3, e4, e5, neighStage_eq _ g hg]
  rfl

/-- The reference's result, as the composed stages of its eight arguments, is the specification's network, provided
    the adjacency matrix's entries are real numbers. -/
theorem reference_eq_network (x : FVec Ideal S4096x128 .f32) (g : FVec Ideal S4096x4096 .f32)
    (ws1 wn1 : FVec Ideal S128x128 .f32) (b1 : FVec Ideal S128 .f32)
    (ws2 wn2 : FVec Ideal S128x64 .f32) (b2 : FVec Ideal S64 .f32) (hg : ∀ i, IsReal (g i)) :
    val_main_v26 (F := Ideal) x g ws1 wn1 b1 ws2 wn2 b2 = network x g ws1 wn1 b1 ws2 wn2 b2 := by
  rw [layer2_eq x g ws1 wn1 b1 ws2 wn2 b2 hg, layer1_eq x g ws1 wn1 b1 hg]
  rfl

end Cert.Sage.Ref

end
-- ==== Proof.LibFinite.lean ====
/-
  "Every entry is finite", read back: one array's conjunct of a finiteness precondition makes every entry real.

  A precondition `jnp.all(jnp.abs(x) < inf)` prints as a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«128498_g58506044506625_cont_9to1_m_1050_1_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.RefFinite.lean ====
/-
  The finiteness precondition, read back for the adjacency matrix.

  The precondition is the conjunction, array by array, of "every entry's absolute value is below +∞". Its value is
  one exactly when every conjunct is one; the adjacency matrix's conjunct then makes each of its entries a real number.
-/
import proofs.«128498_g58506044506625_cont_9to1_m_1050_1_alg».proof.Pre_finite_inputs
import proofs.«128498_g58506044506625_cont_9to1_m_1050_1_alg».proof.Proof.LibFinite
import Idealize.ShloMosaic.Lib.Affine

noncomputable section

namespace Cert.Sage.Ref

open Idealize.ShloMosaic Idealize.ShloMosaic.ValueIdx Cert.LibReal Cert.LibFinite Cert.Pre_finite_inputs

/-- If the finiteness predicate of the eight arrays is all ones, every entry of the second array (the adjacency
    matrix) is a real number. -/
theorem adjacency_real [Cert.Pre_finite_inputs.Facts]
    (a0 : FVec Ideal S4096x128 .f32) (a1 : FVec Ideal S4096x4096 .f32)
    (a2 a3 : FVec Ideal S128x128 .f32) (a4 : FVec Ideal S128 .f32)
    (a5 a6 : FVec Ideal S128x64 .f32) (a7 : FVec Ideal S64 .f32)
    (h : Cert.Pre_finite_inputs.fn (F := Ideal) a0 a1 a2 a3 a4 a5 a6 a7 = (fun _ => 1#1)) :
    ∀ i, IsReal (a1 i) := by
  have h0 := congrFun h ix0
  dsimp only [Cert.Pre_finite_inputs.fn, Cert.Pre_finite_inputs.fn_part1, Cert.Pre_finite_inputs.fn_part2] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).2
  exact fun i => real_of_all a1 Facts.bcast_S_S4096x4096 Facts.reducesTo_S4096x4096_S_d0_1 Facts.h_S_ h7 i

end Cert.Sage.Ref

end
-- ==== Proof.lean ====
/-
  Two-layer mean-aggregator GraphSAGE over a dense adjacency matrix: a Pallas kernel of two calls against its jnp
  reference, equal over the extended reals.

  Each call computes one layer on a grid of 8 × 8 points (destination block j, source tile i). Two accumulators live
  across the eight source tiles of a destination block: the neighbour sum acc[512,128] and the in-degree deg[512,1]; both
  restart at the first tile and add the tile's partial sums — gᵀ · h and gᵀ · 1 over the tile's 512 sources — at every
  tile; at the last tile the output block is h_dst · W_self + (acc · (1 / max(deg, 1))) · W_neigh + b (clamped below at
  zero in the first layer). The reference computes per layer indeg = Σ_i g(i, ·), (gᵀ h) / max(indeg, 1), the two
  products, the bias, the clamp.

  * The frames. Each call is run point by point: its body in the three cases "first tile", "middle tile", "last tile",
    the accumulators carried between points through the invariant, the output block idle except at the last tile. The two
    windows that read the feature array (as source rows and as destination rows) each hold half of that array's share.
    @main is its four items in order: a bias vector viewed as a row, a call, the other bias viewed as a row, the other call.
  * The value. After the last tile of destination block j the output block is the layer at rows 512 j … 512 j + 511,
    with the neighbour sum and the in-degree as running totals over the eight tiles (induction along the tiles); the
    eight written-back blocks tile the output array, which therefore holds the layer; the second call reads the first
    call's output array, so the result is the two layers composed.
  * The reference is the same function: a sum over 4096 sources is the sum of its eight tiles' sums (no finiteness
    needed), and dividing by max(indeg, 1) is multiplying by its reciprocal because the in-degree, a finite sum of real
    entries of the adjacency matrix, is a real number ≥ 1 after the clamp — the one place where the finiteness of the
    inputs is used.
  * The idealization changed no operation, so it preserves the kernel trivially.
-/
import proofs.«128498_g58506044506625_cont_9to1_m_1050_1_alg».proof.Defs
import proofs.«128498_g58506044506625_cont_9to1_m_1050_1_alg».proof.Proof.Gen.Kernel
import proofs.«128498_g58506044506625_cont_9to1_m_1050_1_alg».proof.Proof.Gen.KernelIdeal
import proofs.«128498_g58506044506625_cont_9to1_m_1050_1_alg».proof.Proof.Gen.ReferenceIdeal
import proofs.«128498_g58506044506625_cont_9to1_m_1050_1_alg».proof.Proof.Gen.Pre_finite_inputs
import proofs.«128498_g58506044506625_cont_9to1_m_1050_1_alg».proof.Proof.Gen.ReferenceIdeal.Run
import proofs.«128498_g58506044506625_cont_9to1_m_1050_1_alg».proof.Proof.Gen.ReferenceIdeal.Read
import proofs.«128498_g58506044506625_cont_9to1_m_1050_1_alg».proof.Proof.FrMain
import proofs.«128498_g58506044506625_cont_9to1_m_1050_1_alg».proof.Proof.FrBMain
import proofs.«128498_g58506044506625_cont_9to1_m_1050_1_alg».proof.Proof.Bridge
import proofs.«128498_g58506044506625_cont_9to1_m_1050_1_alg».proof.Proof.RefNet
import proofs.«128498_g58506044506625_cont_9to1_m_1050_1_alg».proof.Proof.RefFinite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the two-layer network of the arguments: the kernel's second call
    leaves it in its output array, and the reference's composed term is the same function because the adjacency
    matrix's entries are real numbers. -/
theorem algebraic : Cert.algebraic_KernelIdeal_ReferenceIdeal := by
  intro m ρ m' ρ' hpre hagree
  have hg : ∀ (c : Dev Cert.KernelIdeal.nD) i,
      Cert.LibReal.IsReal (m' ((c.tc : Thread Cert.ReferenceIdeal.nD Cert.ReferenceIdeal.τ).loc Cert.ReferenceIdeal.main_arg1) i) := fun c => by
    rw [(hagree c).2.1]
    exact Cert.Sage.Ref.adjacency_real _ _ _ _ _ _ _ _ (hpre c)
  refine ⟨_, (θ_run Cert.KernelIdeal.defs _ _).mono (fun _ h c => ⟨(h c).1.trans (Cert.KernelIdeal.Val.final1_eq_network m c), (h c).2⟩)
      (Cert.KernelIdeal.Fr.run_valued (F := Ideal) m ρ), ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v26_eq, Cert.Sage.Ref.reference_eq_network _ _ _ _ _ _ _ _ (hg c),
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
